-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S1000000x1 : Shape := ⟨2, ![1000000, 1]⟩
abbrev S128x32 : Shape := ⟨2, ![128, 32]⟩
abbrev S32x128 : Shape := ⟨2, ![32, 128]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S128x32 : S_.BroadcastsInDim S128x32 (![] : Fin 0 → Fin S128x32.rank)
  reducesTo_S128x32_S_d0_1 : S128x32.ReducesTo [0, 1] S_
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_arg1 : FVec F S1000000x1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_cst_6 : FVec F S_ .f32 := constant S_ .f32 0x00000000#32
  let main_v19 : FVec F S_ .f32 := (fun x v => Host.reduceAdd x v reducesTo_S1000000x1_S_d0_1 h_S_) main_arg1 main_cst_6
  let main_cst_7 : FVec F S_ .f32 := constant S_ .f32 0x00000000#32
  let main_v20 : IVec S_ 1 := cmpf .une main_v19 main_cst_7
  let main_v21 : IVec S_ 1 := andi main_v18 main_v20
  main_v21

def fn {F : FTy → Type} [FloatOps F] (main_arg0 : FVec F S1000000x32 .f32) (main_arg1 : FVec F S1000000x1 .f32) (main_arg2 : FVec F S128x32 .f32) (main_arg3 : FVec F S32x128 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg1 main_v13 main_v16
-- ==== Kernel.lean ====
abbrev S1000000x32 : Shape := ⟨2, ![1000000, 32]⟩
abbrev S1000000x1 : Shape := ⟨2, ![1000000, 1]⟩
abbrev S128x32 : Shape := ⟨2, ![128, 32]⟩
abbrev S32x128 : Shape := ⟨2, ![32, 128]⟩
abbrev S2x1x32 : Shape := ⟨3, ![2, 1, 32]⟩
abbrev S2x1x1 : Shape := ⟨3, ![2, 1, 1]⟩
abbrev S100000x32 : Shape := ⟨2, ![100000, 32]⟩
abbrev S100000x1 : Shape := ⟨2, ![100000, 1]⟩
abbrev S1x1x32 : Shape := ⟨3, ![1, 1, 32]⟩
abbrev S1x1x1 : Shape := ⟨3, ![1, 1, 1]⟩
abbrev S1x32 : Shape := ⟨2, ![1, 32]⟩
abbrev S32 : Shape := ⟨1, ![32]⟩
abbrev S1x1 : Shape := ⟨2, ![1, 1]⟩
abbrev S1 : Shape := ⟨1, ![1]⟩
abbrev S2x32 : Shape := ⟨2, ![2, 32]⟩
abbrev S_ : Shape := ⟨0, ![]⟩
abbrev S1x128 : Shape := ⟨2, ![1, 128]⟩
abbrev S250000x128 : Shape := ⟨2, ![250000, 128]⟩
abbrev S1x1x1x32 : Shape := ⟨4, ![1, 1, 1, 32]⟩
abbrev S1x1x4x32 : Shape := ⟨4, ![1, 1, 4, 32]⟩
abbrev S10000x128 : Shape := ⟨2, ![10000, 128]⟩

abbrev nBuf : Space → Nat
  | .hbm => 27
  | .vmem => 15
  | .smem => 0
  | _ => 0

abbrev bufTy : (tb : Table) → Fin (tcTables nBuf tb) → BufTy
  | .hbm, ⟨0, _⟩ => ⟨S1000000x32, .f32⟩
  | .hbm, ⟨1, _⟩ => ⟨S1000000x1, .f32⟩
  | .hbm, ⟨2, _⟩ => ⟨S128x32, .f32⟩
  | .hbm, ⟨3, _⟩ => ⟨S32x128, .f32⟩
  | .hbm, ⟨4, _⟩ => ⟨S2x1x32, .f32⟩
  | .hbm, ⟨5, _⟩ => ⟨S2x1x1, .f32⟩
  | .hbm, ⟨6, _⟩ => ⟨S2x32, .f32⟩
  | .hbm, ⟨7, _⟩ => ⟨S_, .f32⟩
  | .hbm, ⟨8, _⟩ => ⟨S32, .f32⟩
  | .hbm, ⟨9, _⟩ => ⟨S1x32, .f32⟩
  | .hbm, ⟨10, _⟩ => ⟨S_, .f32⟩
  | .hbm, ⟨11, _⟩ => ⟨S_, .f32⟩
  | .hbm, ⟨12, _⟩ => ⟨S32x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S128x32, .f32⟩
  | .hbm, ⟨20, _⟩ => ⟨S1x32, .f32⟩
  | .hbm, ⟨21, _⟩ => ⟨S250000x128, .f32⟩
  | .hbm, ⟨22, _⟩ => ⟨S1x1x1x32, .f32⟩
  | .hbm, ⟨23, _⟩ => ⟨S1x1x4x32, .f32⟩
  | .hbm, ⟨24, _⟩ => ⟨S1x128, .f32⟩
  | .hbm, ⟨25, _⟩ => ⟨S250000x128, .f32⟩
  | .hbm, ⟨26, _⟩ => ⟨S1000000x32, .f32⟩
  | .local _ .vmem, ⟨0, _⟩ => ⟨S100000x32, .f32⟩
  | .local _ .vmem, ⟨1, _⟩ => ⟨S100000x32, .f32⟩
  | .local _ .vmem, ⟨2, _⟩ => ⟨S100000x1, .f32⟩
  | .local _ .vmem, ⟨3, _⟩ => ⟨S100000x1, .f32⟩
  | .local _ .vmem, ⟨4, _⟩ => ⟨S1x1x32, .f32⟩
  | .local _ .vmem, ⟨5, _⟩ => ⟨S1x1x32, .f32⟩
  | .local _ .vmem, ⟨6, _⟩ => ⟨S1x1x1, .f32⟩
  | .local _ .vmem, ⟨7, _⟩ => ⟨S1x1x1, .f32⟩
  | .local _ .vmem, ⟨8, _⟩ => ⟨S1x1x32, .f32⟩
  | .local _ .vmem, ⟨9, _⟩ => ⟨S1x1x1, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S10000x128, .f32⟩
  | .local _ .vmem, ⟨14, _⟩ => ⟨S10000x128, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S100000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S100000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x1x32_S1x1x32_0_0_0 : ∀ a, (![0, 0, 0] : Fin 3 → Nat) a + S1x1x32.size a ≤ S1x1x32.size a
  h_S1x1x32 : 0 < S1x1x32.numel
  shapeCasts_S1x1x32_S1x1x32 : S1x1x32.ShapeCasts S1x1x32
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S100000x32_S100000x32_0_0 : ∀ a, (![0, 0] : Fin 2 → Nat) a + S100000x32.size a ≤ S100000x32.size a
  h_S100000x32 : 0 < S100000x32.numel
  inb_S100000x1_S100000x1_0_0 : ∀ a, (![0, 0] : Fin 2 → Nat) a + S100000x1.size a ≤ S100000x1.size a
  h_S100000x1 : 0 < S100000x1.numel
  shapeCasts_S1x1x32_S1x32 : S1x1x32.ShapeCasts S1x32
  broadcasts_S100000x1_S100000x32 : S100000x1.Broadcasts S100000x32
  reduces_S100000x32_S32 : S100000x32.Reduces [0] S32
  shapeCasts_S32_S1x32 : S32.ShapeCasts S1x32
  shapeCasts_S1x32_S1x1x32 : S1x32.ShapeCasts S1x1x32
  shapeCasts_S1x1x1_S1x1 : S1x1x1.ShapeCasts S1x1
  reduces_S100000x1_S1 : S100000x1.Reduces [0] S1
  shapeCasts_S1_S1x1 : S1.ShapeCasts S1x1
  shapeCasts_S1x1_S1x1x1 : S1x1.ShapeCasts S1x1x1
  shapeCasts_S2x1x32_S2x32 : S2x1x32.ShapeCasts S2x32
  reducesTo_S2x32_S32_d0 : S2x32.ReducesTo [0] S32
  h_S_ : 0 < S_.numel
  bcast_S32_S1x32_1 : S32.BroadcastsInDim S1x32 (![1] : Fin 1 → Fin S1x32.rank)
  reducesTo_S2x1x1_S_d0_1_2 : S2x1x1.ReducesTo [0, 1, 2] S_
  transposes_S128x32_S32x128_1_0 : S128x32.Transposes [1, 0] S32x128
  bcast_S_S1x128 : S_.BroadcastsInDim S1x128 (![] : Fin 0 → Fin S1x128.rank)
  transposes_S32x128_S128x32_1_0 : S32x128.Transposes [1, 0] S128x32
  shapeCasts_S1000000x32_S250000x128 : S1000000x32.ShapeCasts S250000x128
  shapeCasts_S1x32_S1x1x1x32 : S1x32.ShapeCasts S1x1x1x32
  bcast_S1x1x1x32_S1x1x4x32_0_1_2_3 : S1x1x1x32.BroadcastsInDim S1x1x4x32 (![0, 1, 2, 3] : Fin 4 → Fin S1x1x4x32.rank)
  shapeCasts_S1x1x4x32_S1x128 : S1x1x4x32.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S250000x128_S1000000x32 : S250000x128.ShapeCasts S1000000x32
  dot_S1x32_S32x128_S1x128_1_0_0_1_n_n_wf : DotDims.WF S1x32 S32x128 S1x128 [1] [0] [0] [1] [] []
  dot_S1x128_S128x32_S1x32_1_0_0_1_n_n_wf : DotDims.WF S1x128 S128x32 S1x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100000x32.size a ≤ S1000000x32.size a
  hwx0_0 : ∀ i : grid0.Coords, EltTy.bits .f32 = 32 ∨ (Rect.block (s := S1000000x32) S100000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100000x1.size a ≤ S1000000x1.size a
  hwx0_1 : ∀ i : grid0.Coords, EltTy.bits .f32 = 32 ∨ (Rect.block (s := S1000000x1) S100000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32.size a ≤ S2x1x32.size a
  hwx0_2 : ∀ i : grid0.Coords, EltTy.bits .f32 = 32 ∨ (Rect.block (s := S2x1x32) S1x1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S250000x128.size a
  hwx1_0 : ∀ i : grid1.Coords, EltTy.bits .f32 = 32 ∨ (Rect.block (s := S250000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S250000x128.size a
  hwx1_2 : ∀ i : grid1.Coords, EltTy.bits .f32 = 32 ∨ (Rect.block (s := S250000x128) S10000x128.size (cc1_transform_2 i) (hinb1_2 i)).WholeWords (EltTy.packing .f32)

variable [Facts₀]

def dot_S1x32_S32x128_S1x128_1_0_0_1_n_n : DotDims S1x32 S32x128 S1x128 where
  lhsContracting := [1]
  rhsContracting := [0]
  lhsNonContracting := [0]
  rhsNonContracting := [1]
  lhsBatch := []
  rhsBatch := []
  wf := dot_S1x32_S32x128_S1x128_1_0_0_1_n_n_wf
def dot_S1x128_S128x32_S1x32_1_0_0_1_n_n : DotDims S1x128 S128x32 S1x32 where
  lhsContracting := [1]
  rhsContracting := [0]
  lhsNonContracting := [0]
  rhsNonContracting := [1]
  lhsBatch := []
  rhsBatch := []
  wf := dot_S1x128_S128x32_S1x32_1_0_0_1_n_n_wf

abbrev win0_0 : Pipeline.Window sig grid0 :=
  Pipeline.Window.ofSpec (Memref.whole main_arg0) S100000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v12) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1000000x32 : Shape := ⟨2, ![1000000, 32]⟩
abbrev S1000000x1 : Shape := ⟨2, ![1000000, 1]⟩
abbrev S128x32 : Shape := ⟨2, ![128, 32]⟩
abbrev S32x128 : Shape := ⟨2, ![32, 128]⟩
abbrev S1000000x128 : Shape := ⟨2, ![1000000, 128]⟩
abbrev S_ : Shape := ⟨0, ![]⟩
abbrev S128 : Shape := ⟨1, ![128]⟩
abbrev S1x128 : Shape := ⟨2, ![1, 128]⟩
abbrev S1x32 : Shape := ⟨2, ![1, 32]⟩
abbrev S32 : Shape := ⟨1, ![32]⟩

abbrev nBuf : Space → Nat
  | .hbm => 32
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000x1, .f32⟩
  | .hbm, ⟨2, _⟩ => ⟨S128x32, .f32⟩
  | .hbm, ⟨3, _⟩ => ⟨S32x128, .f32⟩
  | .hbm, ⟨4, _⟩ => ⟨S32x128, .f32⟩
  | .hbm, ⟨5, _⟩ => ⟨S1000000x128, .f32⟩
  | .hbm, ⟨6, _⟩ => ⟨S1000000x128, .f32⟩
  | .hbm, ⟨7, _⟩ => ⟨S1000000x128, .f32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S128x32, .f32⟩
  | .hbm, ⟨19, _⟩ => ⟨S1x32, .f32⟩
  | .hbm, ⟨20, _⟩ => ⟨S1000000x32, .f32⟩
  | .hbm, ⟨21, _⟩ => ⟨S1000000x32, .f32⟩
  | .hbm, ⟨22, _⟩ => ⟨S1000000x32, .f32⟩
  | .hbm, ⟨23, _⟩ => ⟨S_, .f32⟩
  | .hbm, ⟨24, _⟩ => ⟨S32, .f32⟩
  | .hbm, ⟨25, _⟩ => ⟨S1x32, .f32⟩
  | .hbm, ⟨26, _⟩ => ⟨S_, .f32⟩
  | .hbm, ⟨27, _⟩ => ⟨S_, .f32⟩
  | .hbm, ⟨28, _⟩ => ⟨S1x32, .f32⟩
  | .hbm, ⟨29, _⟩ => ⟨S1x32, .f32⟩
  | .hbm, ⟨30, _⟩ => ⟨S1000000x32, .f32⟩
  | .hbm, ⟨31, _⟩ => ⟨S1000000x32, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  transposes_S128x32_S32x128_1_0 : S128x32.Transposes [1, 0] S32x128
  bcast_S1000000x1_S1000000x128_0_1 : S1000000x1.BroadcastsInDim S1000000x128 (![0, 1] : Fin 2 → Fin S1000000x128.rank)
  reducesTo_S1000000x128_S128_d0 : S1000000x128.ReducesTo [0] S128
  h_S_ : 0 < S_.numel
  bcast_S128_S1x128_1 : S128.BroadcastsInDim S1x128 (![1] : Fin 1 → Fin S1x128.rank)
  reducesTo_S1000000x1_S_d0_1 : S1000000x1.ReducesTo [0, 1] S_
  bcast_S_S1x128 : S_.BroadcastsInDim S1x128 (![] : Fin 0 → Fin S1x128.rank)
  transposes_S32x128_S128x32_1_0 : S32x128.Transposes [1, 0] S128x32
  bcast_S1x32_S1000000x32_0_1 : S1x32.BroadcastsInDim S1000000x32 (![0, 1] : Fin 2 → Fin S1000000x32.rank)
  bcast_S1000000x1_S1000000x32_0_1 : S1000000x1.BroadcastsInDim S1000000x32 (![0, 1] : Fin 2 → Fin S1000000x32.rank)
  reducesTo_S1000000x32_S32_d0 : S1000000x32.ReducesTo [0] S32
  bcast_S32_S1x32_1 : S32.BroadcastsInDim S1x32 (![1] : Fin 1 → Fin S1x32.rank)
  bcast_S_S1x32 : S_.BroadcastsInDim S1x32 (![] : Fin 0 → Fin S1x32.rank)
  dot_S1000000x32_S32x128_S1000000x128_1_0_0_1_n_n_wf : DotDims.WF S1000000x32 S32x128 S1000000x128 [1] [0] [0] [1] [] []
  dot_S1x128_S128x32_S1x32_1_0_0_1_n_n_wf : DotDims.WF S1x128 S128x32 S1x32 [1] [0] [0] [1] [] []

variable [Facts₀]

def dot_S1000000x32_S32x128_S1000000x128_1_0_0_1_n_n : DotDims S1000000x32 S32x128 S1000000x128 where
  lhsContracting := [1]
  rhsContracting := [0]
  lhsNonContracting := [0]
  rhsNonContracting := [1]
  lhsBatch := []
  rhsBatch := []
  wf := dot_S1000000x32_S32x128_S1000000x128_1_0_0_1_n_n_wf
def dot_S1x128_S128x32_S1x32_1_0_0_1_n_n : DotDims S1x128 S128x32 S1x32 where
  lhsContracting := [1]
  rhsContracting := [0]
  lhsNonContracting := [0]
  rhsNonContracting := [1]
  lhsBatch := []
  rhsBatch := []
  wf := dot_S1x128_S128x32_S1x32_1_0_0_1_n_n_wf

class Facts : Prop extends Facts₀ where

variable [Facts]
-- ==== Proof.KReduceRuns.lean ====
/- The reduce kernel's body, run once per control case. -/
import proofs.«119674_j41747082117850_2_alg».proof.Proof.Gen.Kernel.Launch
import proofs.«119674_j41747082117850_2_alg».proof.Proof.Gen.Kernel.Skeleton
import proofs.«119674_j41747082117850_2_alg».proof.Proof.Gen.Kernel.Points

import Idealize.ShloMosaic.Lib.Pipeline.FrameBody
import Idealize.ShloMosaic.Lib.Ring
import Idealize.ShloMosaic.Lib.Tactic

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the reduce kernel, over the grid

The kernel walks a 2 × 5 grid: the first coordinate picks a half of the rows, the second a fifth of that half.
It zeroes its two running sums when the second coordinate is 0 and copies them out when it is 4. -/

/-- "The second grid coordinate is 0", as the body computes it. -/
abbrev isFirst (i : grid0.Coords) : Prop :=
  (Scalar.cmpi .ne (Scalar.extui (Scalar.cmpi .eq (BitVec.ofNat 32 (i 1).val) 0#32)) 0#32) = 1#1
/-- "The second grid coordinate is 4", as the body computes it. -/
abbrev isLast (i : grid0.Coords) : Prop := k0_cond2 i = 1#1

/-- Point `t` has second coordinate 0 exactly when `t ≡ 0 (mod 5)`. -/
theorem isFirst_iff : ∀ t : Fin cfg0.N, isFirst (grid0.coords t) ↔ t.val % 5 = 0 :=
  (by decide +kernel : ∀ t : Fin grid0.N, isFirst (grid0.coords t) ↔ t.val % 5 = 0)
/-- Point `t` has second coordinate 4 exactly when `t ≡ 4 (mod 5)`. -/
theorem isLast_iff : ∀ t : Fin cfg0.N, isLast (grid0.coords t) ↔ t.val % 5 = 4 :=
  (by decide +kernel : ∀ t : Fin grid0.N, isLast (grid0.coords t) ↔ t.val % 5 = 4)

/-! ## The body in the middle case: neither branch taken

From the two input blocks and the two running sums, the body adds the block's weighted column sums to the first
running sum and the block's weight total to the second; the output buffers are not touched. -/

set_option maxHeartbeats 1000000 in
noncomputable def runMid (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : ¬isLast i)
    (x : Vec F S100000x32 .f32) (w : Vec F S100000x1 .f32) (s6 : Vec F S1x1x32 .f32) (s7 : Vec F S1x1x1 .f32) :
    { L : List (View.Piece (Elt F) S1x1x32 .f32) × List (View.Piece (Elt F) S1x1x1 .f32) //
      ∀ (E : Set ℕ) (K : PUnit → sProp 𝕄),
        iprop(owns (c : Thread nD τ) a2 fullShare x ∗ owns (c : Thread nD τ) a3 fullShare w
            ∗ owns (c : Thread nD τ) a6 fullShare s6 ∗ owns (c : Thread nD τ) a7 fullShare s7
            ∗ (iprop(owns (c : Thread nD τ) a2 fullShare x ∗ owns (c : Thread nD τ) a3 fullShare w
                ∗ (∃ f, a6.view.loc (c : Thread nD τ) ↦[a6.view.set]{fullShare} a6.view.writes (Elt F) f L.1)
                ∗ (∃ f, a7.view.loc (c : Thread nD τ) ↦[a7.view.set]{fullShare} a7.view.writes (Elt F) f L.2)) -∗ K ⟨⟩))
          ⊢ wp frame (wpE (defs₀ (F := F)) Variants.none c none) E (cc0__reduce_kernel i a2 h2 a3 h3 a4 h4 a5 h5 a6 h6 a7 h7) K } := by
  refine ⟨(?_, ?_), fun E K => ?run⟩
  case run =>
    simp only [cc0__reduce_kernel_eq_skeleton]; unfold cc0__reduce_kernel_skel
    unfold owns
    iintro ⟨⟨%f2, %hf2, H2⟩, ⟨%f3, %hf3, H3⟩, ⟨%f6, %hf6, H6⟩, ⟨%f7, %hf7, H7⟩, Hk⟩
    obtain rfl := h2.eq_unread hf2
    obtain rfl := h3.eq_unread hf3
    obtain rfl := h6.eq_unread hf6
    obtain rfl := h7.eq_unread hf7
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H6]
    · iexists _; iexact H6
    iexists _; iexact H7

/-! ## The body in the first case: the running sums zeroed, then added to

The running sums come in holding anything; the body zeroes them (a dead load, then the store) and adds this block's
contribution. The output buffers are not touched. -/

set_option maxHeartbeats 1000000 in
noncomputable def runFirst (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : isFirst i) (hl : ¬isLast i)
    (x : Vec F S100000x32 .f32) (w : Vec F S100000x1 .f32) :
    { L : List (View.Piece (Elt F) S1x1x32 .f32) × List (View.Piece (Elt F) S1x1x1 .f32) //
      ∀ (E : Set ℕ) (K : PUnit → sProp 𝕄),
        iprop(owns (c : Thread nD τ) a2 fullShare x ∗ owns (c : Thread nD τ) a3 fullShare w
            ∗ (∃ d, owns (c : Thread nD τ) a6 fullShare d) ∗ (∃ d, owns (c : Thread nD τ) a7 fullShare d)
            ∗ (iprop(owns (c : Thread nD τ) a2 fullShare x ∗ owns (c : Thread nD τ) a3 fullShare w
                ∗ (∃ f, a6.view.loc (c : Thread nD τ) ↦[a6.view.set]{fullShare} a6.view.writes (Elt F) f L.1)
                ∗ (∃ f, a7.view.loc (c : Thread nD τ) ↦[a7.view.set]{fullShare} a7.view.writes (Elt F) f L.2)) -∗ K ⟨⟩))
          ⊢ wp frame (wpE (defs₀ (F := F)) Variants.none c none) E (cc0__reduce_kernel i a2 h2 a3 h3 a4 h4 a5 h5 a6 h6 a7 h7) K } := by
  refine ⟨(?_, ?_), fun E K => ?run⟩
  case run =>
    simp only [cc0__reduce_kernel_eq_skeleton]; unfold cc0__reduce_kernel_skel
    unfold owns
    iintro ⟨⟨%f2, %hf2, H2⟩, ⟨%f3, %hf3, H3⟩, ⟨%d6, %f6, -, H6⟩, ⟨%d7, %f7, -, H7⟩, Hk⟩
    obtain rfl := h2.eq_unread hf2
    obtain rfl := h3.eq_unread hf3
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H6]
    · iexists _; iexact H6
    iexists _; iexact H7

/-! ## The body in the last case: added to, then copied out

The body adds this block's contribution to the running sums and then stores each running sum into its output
buffer (a dead load of the output buffer first), which comes in holding anything. -/

set_option maxHeartbeats 1000000 in
noncomputable def runLast (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32) :
    { L : (List (View.Piece (Elt F) S1x1x32 .f32) × List (View.Piece (Elt F) S1x1x1 .f32))
          × (List (View.Piece (Elt F) S1x1x32 .f32) × List (View.Piece (Elt F) S1x1x1 .f32)) //
      ∀ (E : Set ℕ) (K : PUnit → sProp 𝕄),
        iprop(owns (c : Thread nD τ) a2 fullShare x ∗ owns (c : Thread nD τ) a3 fullShare w
            ∗ owns (c : Thread nD τ) a6 fullShare s6 ∗ owns (c : Thread nD τ) a7 fullShare s7
            ∗ (∃ d, owns (c : Thread nD τ) a4 fullShare d) ∗ (∃ d, owns (c : Thread nD τ) a5 fullShare d)
            ∗ (iprop(owns (c : Thread nD τ) a2 fullShare x ∗ owns (c : Thread nD τ) a3 fullShare w
                ∗ (∃ f, a6.view.loc (c : Thread nD τ) ↦[a6.view.set]{fullShare} a6.view.writes (Elt F) f L.1.1)
                ∗ (∃ f, a7.view.loc (c : Thread nD τ) ↦[a7.view.set]{fullShare} a7.view.writes (Elt F) f L.1.2)
                ∗ (∃ f, a4.view.loc (c : Thread nD τ) ↦[a4.view.set]{fullShare} a4.view.writes (Elt F) f L.2.1)
                ∗ (∃ f, a5.view.loc (c : Thread nD τ) ↦[a5.view.set]{fullShare} a5.view.writes (Elt F) f L.2.2)) -∗ K ⟨⟩))
          ⊢ wp frame (wpE (defs₀ (F := F)) Variants.none c none) E (cc0__reduce_kernel i a2 h2 a3 h3 a4 h4 a5 h5 a6 h6 a7 h7) K } := by
  refine ⟨((?_, ?_), (?_, ?_)), fun E K => ?run⟩
  case run =>
    simp only [cc0__reduce_kernel_eq_skeleton]; unfold cc0__reduce_kernel_skel
    unfold owns
    iintro ⟨⟨%f2, %hf2, H2⟩, ⟨%f3, %hf3, H3⟩, ⟨%f6, %hf6, H6⟩, ⟨%f7, %hf7, H7⟩, ⟨%d4, %f4, -, H4⟩, ⟨%d5, %f5, -, H5⟩, Hk⟩
    obtain rfl := h2.eq_unread hf2
    obtain rfl := h3.eq_unread hf3
    obtain rfl := h6.eq_unread hf6
    obtain rfl := h7.eq_unread hf7
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H6]
    · iexists _; iexact H6
    isplitl [H7]
    · iexists _; iexact H7
    isplitl [H4]
    · iexists _; iexact H4
    iexists _; iexact H5

end Cert.Kernel.Reduce

end
-- ==== Proof.KReduceLeaves.lean ====
/- What the reduce kernel's body leaves in its running sums and output buffers, in each control case, as the
   body's own arithmetic of what it loaded. -/
import proofs.«119674_j41747082117850_2_alg».proof.Proof.KReduceRuns
import Idealize.ShloMosaic.Lib.Pipeline.Value

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.Sem

variable {F : FTy → Type} [FloatOps F]

/-- Every store and load of the body goes through a buffer's whole rectangle: offset zero on each axis. -/
theorem off3 : (![0, 0, 0] : Fin 3 → ℕ) = fun _ => 0 := by funext a; fin_cases a <;> rfl
theorem off2 : (![0, 0] : Fin 2 → ℕ) = fun _ => 0 := by funext a; fin_cases a <;> rfl

/-- One step of the two running sums: the first gains the block's weighted column sums, the second the block's
    weight total. -/
def step (x : Vec F S100000x32 .f32) (w : Vec F S100000x1 .f32) (s : Vec F S1x1x32 .f32 × Vec F S1x1x1 .f32) :
    Vec F S1x1x32 .f32 × Vec F S1x1x1 .f32 := (k0_pay3 x w s.1, k0_pay4 w s.2)
/-- The running sums as the first point of a half resets them: all zeros. -/
def zero : Vec F S1x1x32 .f32 × Vec F S1x1x1 .f32 := (k0_pay1 (F := F), k0_pay2 (F := F))

/-- Middle case: the first running sum after the body. -/
theorem mid_sum (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : ¬isLast i)
    (x : Vec F S100000x32 .f32) (w : Vec F S100000x1 .f32) (s6 : Vec F S1x1x32 .f32) (s7 : Vec F S1x1x1 .f32)
    (v : View sig .tc .vmem S1x1x32 .f32) (f : v.ty.Contents (Elt F)) :
    v.read (Elt F) (v.writes (Elt F) f (runMid c i a2 h2 a3 h3 a4 h4 a5 h5 a6 h6 a7 h7 hf hl x w s6 s7).1.1) = (step x w (s6, s7)).1 := by
  rw [View.read_writes_eq_canon _ _ _ (View.cover_of_tiledL _ S1x1x32.size (by sl_kernel_rfl))]
  unfold runMid; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Middle case: the second running sum after the body. -/
theorem mid_tot (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : ¬isLast i)
    (x : Vec F S100000x32 .f32) (w : Vec F S100000x1 .f32) (s6 : Vec F S1x1x32 .f32) (s7 : Vec F S1x1x1 .f32)
    (v : View sig .tc .vmem S1x1x1 .f32) (f : v.ty.Contents (Elt F)) :
    v.read (Elt F) (v.writes (Elt F) f (runMid c i a2 h2 a3 h3 a4 h4 a5 h5 a6 h6 a7 h7 hf hl x w s6 s7).1.2) = (step x w (s6, s7)).2 := by
  rw [View.read_writes_eq_canon _ _ _ (View.cover_of_tiledL _ S1x1x1.size (by sl_kernel_rfl))]
  unfold runMid; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- First case: the first running sum after the body, from zeros. -/
theorem first_sum (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : isFirst i) (hl : ¬isLast i)
    (x : Vec F S100000x32 .f32) (w : Vec F S100000x1 .f32)
    (v : View sig .tc .vmem S1x1x32 .f32) (f : v.ty.Contents (Elt F)) :
    v.read (Elt F) (v.writes (Elt F) f (runFirst c i a2 h2 a3 h3 a4 h4 a5 h5 a6 h6 a7 h7 hf hl x w).1.1) = (step x w (zero (F := F))).1 := by
  rw [View.read_writes_eq_canon _ _ _ (View.cover_of_tiledL _ S1x1x32.size (by sl_kernel_rfl))]
  unfold runFirst; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- First case: the second running sum after the body, from zeros. -/
theorem first_tot (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : isFirst i) (hl : ¬isLast i)
    (x : Vec F S100000x32 .f32) (w : Vec F S100000x1 .f32)
    (v : View sig .tc .vmem S1x1x1 .f32) (f : v.ty.Contents (Elt F)) :
    v.read (Elt F) (v.writes (Elt F) f (runFirst c i a2 h2 a3 h3 a4 h4 a5 h5 a6 h6 a7 h7 hf hl x w).1.2) = (step x w (zero (F := F))).2 := by
  rw [View.read_writes_eq_canon _ _ _ (View.cover_of_tiledL _ S1x1x1.size (by sl_kernel_rfl))]
  unfold runFirst; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Last case: the first running sum after the body. -/
theorem last_sum (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32)
    (v : View sig .tc .vmem S1x1x32 .f32) (f : v.ty.Contents (Elt F)) :
    v.read (Elt F) (v.writes (Elt F) f (runLast c i a2 h2 a3 h3 a4 h4 a5 h5 a6 h6 a7 h7 hf hl x w s6 s7).1.1.1) = (step x w (s6, s7)).1 := by
  rw [View.read_writes_eq_canon _ _ _ (View.cover_of_tiledL _ S1x1x32.size (by sl_kernel_rfl))]
  unfold runLast; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Last case: the second running sum after the body. -/
theorem last_tot (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32)
    (v : View sig .tc .vmem S1x1x1 .f32) (f : v.ty.Contents (Elt F)) :
    v.read (Elt F) (v.writes (Elt F) f (runLast c i a2 h2 a3 h3 a4 h4 a5 h5 a6 h6 a7 h7 hf hl x w s6 s7).1.1.2) = (step x w (s6, s7)).2 := by
  rw [View.read_writes_eq_canon _ _ _ (View.cover_of_tiledL _ S1x1x1.size (by sl_kernel_rfl))]
  unfold runLast; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Last case: the first output buffer holds the first running sum, copied out. -/
theorem last_out_sum (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32)
    (v : View sig .tc .vmem S1x1x32 .f32) (f : v.ty.Contents (Elt F)) :
    v.read (Elt F) (v.writes (Elt F) f (runLast c i a2 h2 a3 h3 a4 h4 a5 h5 a6 h6 a7 h7 hf hl x w s6 s7).1.2.1) = k0_pay5 (step x w (s6, s7)).1 := by
  rw [View.read_writes_eq_canon _ _ _ (View.cover_of_tiledL _ S1x1x32.size (by sl_kernel_rfl))]
  unfold runLast; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Last case: the second output buffer holds the second running sum, copied out. -/
theorem last_out_tot (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32)
    (v : View sig .tc .vmem S1x1x1 .f32) (f : v.ty.Contents (Elt F)) :
    v.read (Elt F) (v.writes (Elt F) f (runLast c i a2 h2 a3 h3 a4 h4 a5 h5 a6 h6 a7 h7 hf hl x w s6 s7).1.2.2) = k0_pay6 (step x w (s6, s7)).2 := by
  rw [View.read_writes_eq_canon _ _ _ (View.cover_of_tiledL _ S1x1x1.size (by sl_kernel_rfl))]
  unfold runLast; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

end Cert.Kernel.Reduce

end
-- ==== Proof.KReduceData.lean ====
/- The reduce region's proof data: what each of its ten grid points finds and leaves.

   The region walks the rows in ten blocks of 100000, five per half. Its two running sums live in scratch buffers
   that persist from point to point: after point n they hold the sums over the blocks of n's half up to n. At the
   last point of each half the sums are copied to that half's row of the two results. -/
import proofs.«119674_j41747082117850_2_alg».proof.Proof.KReduceLeaves
import Idealize.ShloMosaic.Lib.Pipeline.Frame
import Idealize.ShloMosaic.Lib.Pipeline.FrameBody

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at entry, and a window's block at a point -/

/-- The region is @main's first item: it finds every buffer as launched. -/
abbrev Vin (c : Dev nD) (b : Ref sig .tc) : Buf (Elt F) ((c : Thread nD τ).loc b) := m ((c : Thread nD τ).loc b)

/-- Window `w`'s block at point `t`, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (Vin m c (Pipeline.arrRef spec0 w))

/-- Point number `n` of the ten (numbers past the grid wrap round; only 0..9 are ever asked). -/
def pt (n : ℕ) : Fin cfg0.N := ⟨n % 10, lt_of_lt_of_eq (Nat.mod_lt _ (by decide)) (show (10 : ℕ) = cfg0.N from N_0.symm)⟩
theorem pt_val (t : Fin cfg0.N) : pt t.val = t :=
  Fin.ext (Nat.mod_eq_of_lt (lt_of_lt_of_eq t.isLt (show cfg0.N = 10 from N_0)))

/-! ## The running sums after each point -/

/-- The two running sums after point `n`: one step from zeros at the first point of a half, else one step from what
    the point before left. -/
def accN (c : Dev nD) : ℕ → Vec F S1x1x32 .f32 × Vec F S1x1x1 .f32
  | 0 => step (iblk m c 0 (pt 0)) (iblk m c 1 (pt 0)) (zero (F := F))
  | n + 1 => step (iblk m c 0 (pt (n + 1))) (iblk m c 1 (pt (n + 1))) (if (n + 1) % 5 = 0 then zero (F := F) else accN c n)

theorem accN_first (c : Dev nD) (n : ℕ) (h : n % 5 = 0) :
    accN m c n = step (iblk m c 0 (pt n)) (iblk m c 1 (pt n)) (zero (F := F)) := by
  cases n with
  | zero => rfl
  | succ k => show step _ _ (if (k + 1) % 5 = 0 then zero (F := F) else accN m c k) = _; rw [if_pos h]

theorem accN_next (c : Dev nD) (n : ℕ) (h : n % 5 ≠ 0) :
    accN m c n = step (iblk m c 0 (pt n)) (iblk m c 1 (pt n)) (accN m c (n - 1)) := by
  cases n with
  | zero => exact absurd (Nat.zero_mod _) h
  | succ k => show step _ _ (if (k + 1) % 5 = 0 then zero (F := F) else accN m c k) = _; rw [if_neg h]; rfl

/-! ## The invariant between points -/

/-- The two scratch buffers, whole. -/
abbrev sc0 : Memref sig .tc .vmem S1x1x32 .f32 := Memref.whole cc0_scratch0
abbrev sc1 : Memref sig .tc .vmem S1x1x1 .f32 := Memref.whole cc0_scratch1

/-- The scratch buffers before point `t`: anything before the first point, else the running sums the point before left. -/
def sums (c : Dev nD) (t : Fin (cfg0.N + 1)) : sProp 𝕄 :=
  if t.val = 0 then iprop((∃ d, owns (c : Thread nD τ) sc0 fullShare d) ∗ (∃ d, owns (c : Thread nD τ) sc1 fullShare d))
  else iprop(owns (c : Thread nD τ) sc0 fullShare (accN m c (t.val - 1)).1 ∗ owns (c : Thread nD τ) sc1 fullShare (accN m c (t.val - 1)).2)

/-- The core's other scoped buffers that this region stages nothing in (the second region's staging buffers), at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant before point `t`. -/
def inv (c : Dev nD) (t : Fin (cfg0.N + 1)) : sProp 𝕄 := iprop(sums m c t ∗ others c)

theorem sums_succ (c : Dev nD) (t : Fin cfg0.N) :
    sums m c t.succ = iprop(owns (c : Thread nD τ) sc0 fullShare (accN m c t.val).1 ∗ owns (c : Thread nD τ) sc1 fullShare (accN m c t.val).2) := by
  unfold sums; rw [if_neg (show ¬((t.succ : Fin (cfg0.N + 1)).val = 0) from by rw [Fin.val_succ]; exact Nat.succ_ne_zero _)]; rfl

theorem sums_pos (c : Dev nD) (t : Fin cfg0.N) (h : t.val ≠ 0) :
    sums m c t.castSucc = iprop(owns (c : Thread nD τ) sc0 fullShare (accN m c (t.val - 1)).1 ∗ owns (c : Thread nD τ) sc1 fullShare (accN m c (t.val - 1)).2) := by
  unfold sums; rw [if_neg (show ¬((t.castSucc : Fin (cfg0.N + 1)).val = 0) from h)]; rfl

theorem sums_any (c : Dev nD) (t : Fin (cfg0.N + 1)) :
    sums m c t ⊢ (iprop((∃ d, owns (c : Thread nD τ) sc0 fullShare d) ∗ (∃ d, owns (c : Thread nD τ) sc1 fullShare d)) : sProp 𝕄) := by
  unfold sums; split
  · exact .rfl
  · iintro ⟨H6, H7⟩
    isplitl [H6]; · iexists _; iexact H6
    iexists _; iexact H7

/-! ## The proof data -/

/-- On core `c`: the arrays as launched; after the body at point `t` each input's buffer at its block, each result's
    buffer at the matching running sum copied out (asked only at the last point of a half, where the body stores it);
    the invariant; nothing owed; full shares. -/
def dats (c : Dev nD) : Dat τ (Elt F) Unit ℕ (UR sig nD τ) ℕ cfg0 c where
  A w := Vin m c (Pipeline.arrRef spec0 w)
  after w t := match w with
    | ⟨0, _⟩ => iblk m c 0 t
    | ⟨1, _⟩ => iblk m c 1 t
    | ⟨2, _⟩ => k0_pay5 (accN m c t.val).1
    | ⟨3, _⟩ => k0_pay6 (accN m c t.val).2
  Φ t := inv m c t
  q _ := fullShare
  owed _ := 0

theorem A_eq (c : Dev nD) (w : Fin cfg0.W) : (dats m c).A w = Vin m c (Pipeline.arrRef spec0 w) := by dsimp only [dats]
theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = k0_pay5 (accN m c t.val).1 := by dsimp only [dats]
theorem after_3 (c : Dev nD) (t : Fin cfg0.N) : (dats m c).after 3 t = k0_pay6 (accN m c t.val).2 := by dsimp only [dats]

/-- Each input's current staging buffer holds its block at every point (both are fetched at every point). -/
theorem before_0 (c : Dev nD) (t : Fin cfg0.N) (d) : (dats m c).before 0 t d = iblk m c 0 t :=
  ((dats m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m c).before 1 t d = iblk m c 1 t :=
  ((dats m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation at a generic point -/

/-- A result window is idle (its buffer untouched by the body) exactly at the points that are not the last of a half. -/
theorem idle_of_not_last (w : Fin cfg0.W) (hw : w = 2 ∨ w = 3) (i : grid0.Coords) (hl : ¬isLast i) : cfg0.idle w i = true := by
  rcases hw with rfl | rfl <;>
  · show (!(k0_cond2 i == 1#1)) = true
    rw [Bool.not_eq_true', beq_eq_false_iff_ne]; exact hl
theorem live_of_last (w : Fin cfg0.W) (hw : w = 2 ∨ w = 3) (i : grid0.Coords) (hl : isLast i) : cfg0.idle w i = false := by
  rcases hw with rfl | rfl <;>
  · show (!(k0_cond2 i == 1#1)) = false
    rw [show k0_cond2 i = 1#1 from hl]; rfl

set_option maxHeartbeats 1600000 in
/-- The body at any point: the inputs' buffers hold their blocks; the point's position in its half says which case
    runs; the scratch buffers hold what the invariant says; the run applies, and what it leaves is what the next
    point's invariant and the windows' posts say. The core owes nothing throughout. -/
theorem sound_body (c : Dev nD) (t : Fin cfg0.N) :
    (iprop((dats m c).Φ t.castSucc ∗ (dats m c).owesAt () t.castSucc
      ∗ (∃ d, owns (c : Thread nD τ) (st0_0 t) fullShare ((dats m c).before 0 t d))
      ∗ (∃ d, owns (c : Thread nD τ) (st0_1 t) fullShare ((dats m c).before 1 t d))
      ∗ (∃ d, owns (c : Thread nD τ) (st0_2 t) fullShare ((dats m c).before 2 t d))
      ∗ (∃ d, owns (c : Thread nD τ) (st0_3 t) fullShare ((dats m c).before 3 t d))) : sProp 𝕄)
    ⊢ wp frame (wpE (defs₀ (F := F)) Variants.none c none) Set.univ (bodyAt0 t) (fun _ =>
      iprop((dats m c).Φ t.succ ∗ (dats m c).owesAt () t.succ
        ∗ owns (c : Thread nD τ) (st0_0 t) fullShare ((dats m c).after 0 t)
        ∗ owns (c : Thread nD τ) (st0_1 t) fullShare ((dats m c).after 1 t)
        ∗ (dats m c).leavesExact 2 t ∗ (dats m c).leavesExact 3 t)) := by
  unfold bodyAt0
  simp only [before_0, before_1]
  rw [show (dats m c).owesAt () t.succ = (dats m c).owesAt () t.castSucc from rfl, after_0, after_1,
    show (dats m c).Φ t.castSucc = inv m c t.castSucc from rfl, show (dats m c).Φ t.succ = inv m c t.succ from rfl]
  unfold inv
  rw [sums_succ]
  have hN : t.val < 10 := lt_of_lt_of_eq t.isLt (show cfg0.N = 10 from N_0)
  by_cases h0 : t.val % 5 = 0
  · -- the first point of a half
    have hf : isFirst (grid0.coords t) := (isFirst_iff t).mpr h0
    have hl : ¬isLast (grid0.coords t) := fun h => by have := (isLast_iff t).mp h; omega
    have hfl2 : (cfg0.win 2).flush t = false := Bool.eq_false_iff.mpr fun h => by have := (flush0_2 t).mp h; omega
    have hfl3 : (cfg0.win 3).flush t = false := Bool.eq_false_iff.mpr fun h => by have := (flush0_3 t).mp h; omega
    rw [Dat.leavesExact_idle _ 2 t (idle_of_not_last 2 (.inl rfl) _ hl) hfl2, Dat.leavesExact_idle _ 3 t (idle_of_not_last 3 (.inr rfl) _ hl) hfl3,
      accN_first m c t.val h0, pt_val]
    iintro ⟨⟨Hs, Hoth⟩, Ho, ⟨%d0, H0⟩, ⟨%d1, H1⟩, H2, H3⟩
    ihave Hs' := (sums_any m c t.castSucc) $$ Hs
    icases Hs' with ⟨H6, H7⟩
    iapply ((runFirst c (grid0.coords t) _ _ _ _ _ _ _ _ _ _ _ _ hf hl (iblk m c 0 t) (iblk m c 1 t)).2 Set.univ _)
    isplitl [H0]; · iexact H0
    isplitl [H1]; · iexact H1
    isplitl [H6]; · iexact H6
    isplitl [H7]; · iexact H7
    iintro ⟨H0, H1, ⟨%e6, H6⟩, ⟨%e7, H7⟩⟩
    isplitl [H6 H7 Hoth]
    · isplitr [Hoth]
      · isplitl [H6]
        · unfold owns; iexists _; isplitr
          swap; · iexact H6
          ipureintro; exact first_sum c _ _ _ _ _ _ _ _ _ _ _ _ _ hf hl _ _ _ _
        · unfold owns; iexists _; isplitr
          swap; · iexact H7
          ipureintro; exact first_tot c _ _ _ _ _ _ _ _ _ _ _ _ _ hf hl _ _ _ _
      · iexact Hoth
    isplitl [Ho]; · iexact Ho
    isplitl [H0]; · iexact H0
    isplitl [H1]; · iexact H1
    isplitl [H2]; · iexact H2
    iexact H3
  · have ht0 : t.val ≠ 0 := fun h => h0 (by rw [h])
    rw [sums_pos m c t ht0, accN_next m c t.val h0, pt_val]
    have hf : ¬isFirst (grid0.coords t) := fun h => h0 ((isFirst_iff t).mp h)
    by_cases h4 : t.val % 5 = 4
    · -- the last point of a half
      have hl : isLast (grid0.coords t) := (isLast_iff t).mpr h4
      have e2 : (dats m c).leavesExact 2 t = owns (c : Thread nD τ) (st0_2 t) fullShare ((dats m c).after 2 t) := by
        unfold Dat.leavesExact; rw [live_of_last 2 (.inl rfl) _ hl]
      have e3 : (dats m c).leavesExact 3 t = owns (c : Thread nD τ) (st0_3 t) fullShare ((dats m c).after 3 t) := by
        unfold Dat.leavesExact; rw [live_of_last 3 (.inr rfl) _ hl]
      rw [e2, e3, after_2, after_3, accN_next m c t.val h0, pt_val]
      iintro ⟨⟨⟨H6, H7⟩, Hoth⟩, Ho, ⟨%d0, H0⟩, ⟨%d1, H1⟩, ⟨%d2, H2⟩, ⟨%d3, H3⟩⟩
      iapply ((runLast c (grid0.coords t) _ _ _ _ _ _ _ _ _ _ _ _ hf hl (iblk m c 0 t) (iblk m c 1 t) (accN m c (t.val - 1)).1 (accN m c (t.val - 1)).2).2 Set.univ _)
      isplitl [H0]; · iexact H0
      isplitl [H1]; · iexact H1
      isplitl [H6]; · iexact H6
      isplitl [H7]; · iexact H7
      isplitl [H2]; · iexists _; iexact H2
      isplitl [H3]; · iexists _; iexact H3
      iintro ⟨H0, H1, ⟨%e6, H6⟩, ⟨%e7, H7⟩, ⟨%e4, H2⟩, ⟨%e5, H3⟩⟩
      isplitl [H6 H7 Hoth]
      · isplitr [Hoth]
        · isplitl [H6]
          · unfold owns; iexists _; isplitr
            swap; · iexact H6
            ipureintro; exact last_sum c _ _ _ _ _ _ _ _ _ _ _ _ _ hf hl _ _ _ _ _ _
          · unfold owns; iexists _; isplitr
            swap; · iexact H7
            ipureintro; exact last_tot c _ _ _ _ _ _ _ _ _ _ _ _ _ hf hl _ _ _ _ _ _
        · iexact Hoth
      isplitl [Ho]; · iexact Ho
      isplitl [H0]; · iexact H0
      isplitl [H1]; · iexact H1
      isplitl [H2]
      · unfold owns; iexists _; isplitr
        swap; · iexact H2
        ipureintro; exact last_out_sum c _ _ _ _ _ _ _ _ _ _ _ _ _ hf hl _ _ _ _ _ _
      · unfold owns; iexists _; isplitr
        swap; · iexact H3
        ipureintro; exact last_out_tot c _ _ _ _ _ _ _ _ _ _ _ _ _ hf hl _ _ _ _ _ _
    · -- a middle point
      have hl : ¬isLast (grid0.coords t) := fun h => h4 ((isLast_iff t).mp h)
      have hfl2 : (cfg0.win 2).flush t = false := Bool.eq_false_iff.mpr fun h => h4 ((flush0_2 t).mp h)
      have hfl3 : (cfg0.win 3).flush t = false := Bool.eq_false_iff.mpr fun h => h4 ((flush0_3 t).mp h)
      rw [Dat.leavesExact_idle _ 2 t (idle_of_not_last 2 (.inl rfl) _ hl) hfl2, Dat.leavesExact_idle _ 3 t (idle_of_not_last 3 (.inr rfl) _ hl) hfl3]
      iintro ⟨⟨⟨H6, H7⟩, Hoth⟩, Ho, ⟨%d0, H0⟩, ⟨%d1, H1⟩, H2, H3⟩
      iapply ((runMid c (grid0.coords t) _ _ _ _ _ _ _ _ _ _ _ _ hf hl (iblk m c 0 t) (iblk m c 1 t) (accN m c (t.val - 1)).1 (accN m c (t.val - 1)).2).2 Set.univ _)
      isplitl [H0]; · iexact H0
      isplitl [H1]; · iexact H1
      isplitl [H6]; · iexact H6
      isplitl [H7]; · iexact H7
      iintro ⟨H0, H1, ⟨%e6, H6⟩, ⟨%e7, H7⟩⟩
      isplitl [H6 H7 Hoth]
      · isplitr [Hoth]
        · isplitl [H6]
          · unfold owns; iexists _; isplitr
            swap; · iexact H6
            ipureintro; exact mid_sum c _ _ _ _ _ _ _ _ _ _ _ _ _ hf hl _ _ _ _ _ _
          · unfold owns; iexists _; isplitr
            swap; · iexact H7
            ipureintro; exact mid_tot c _ _ _ _ _ _ _ _ _ _ _ _ _ hf hl _ _ _ _ _ _
        · iexact Hoth
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m c) (defs₀ (F := F)) Variants.none () Set.univ := fun t => by
  rw [bigSep_W0, bigSep_W0]
  exact sound_body m c t

end Cert.Kernel.Reduce

end
-- ==== Proof.KAddRuns.lean ====
/- The add kernel's body, run once. -/
import proofs.«119674_j41747082117850_2_alg».proof.Proof.Gen.Kernel.Launch
import proofs.«119674_j41747082117850_2_alg».proof.Proof.Gen.Kernel.Skeleton
import proofs.«119674_j41747082117850_2_alg».proof.Proof.Gen.Kernel.Points

import Idealize.ShloMosaic.Lib.Pipeline.FrameBody
import Idealize.ShloMosaic.Lib.Ring
import Idealize.ShloMosaic.Lib.Tactic

set_option maxRecDepth 16384

noncomputable section

namespace Cert.Kernel.Add

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body: one block of rows plus the spread correction row

From a block of the re-laid input and the one-row correction, the body stores their sum (the row spread down the
block) into the output buffer, which comes in holding anything (a dead load precedes the store). -/

set_option maxHeartbeats 1000000 in
noncomputable def runAdd (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole)
    (x : Vec F S10000x128 .f32) (d : Vec F S1x128 .f32) :
    { L : List (View.Piece (Elt F) S10000x128 .f32) //
      ∀ (E : Set ℕ) (K : PUnit → sProp 𝕄),
        iprop(owns (c : Thread nD τ) a1 fullShare x ∗ owns (c : Thread nD τ) a2 fullShare d
            ∗ (∃ e, owns (c : Thread nD τ) a3 fullShare e)
            ∗ (iprop(owns (c : Thread nD τ) a1 fullShare x ∗ owns (c : Thread nD τ) a2 fullShare d
                ∗ (∃ f, a3.view.loc (c : Thread nD τ) ↦[a3.view.set]{fullShare} a3.view.writes (Elt F) f L)) -∗ K ⟨⟩))
          ⊢ wp frame (wpE (defs₀ (F := F)) Variants.none c none) E (cc1__add_kernel i a1 h1 a2 h2 a3 h3) K } := by
  refine ⟨?_, fun E K => ?run⟩
  case run =>
    simp only [cc1__add_kernel_eq_skeleton]; unfold cc1__add_kernel_skel
    unfold owns
    iintro ⟨⟨%f1, %hf1, H1⟩, ⟨%f2, %hf2, H2⟩, ⟨%e3, %f3, -, H3⟩, Hk⟩
    obtain rfl := h1.eq_unread hf1
    obtain rfl := h2.eq_unread hf2
    sl_exec
    sl_step
    iapply Hk
    isplitl [H1]
    · iexists _; isplitr; · ipureintro; exact h1.read_unread _
      iexact H1
    isplitl [H2]
    · iexists _; isplitr; · ipureintro; exact h2.read_unread _
      iexact H2
    iexists _; iexact H3

end Cert.Kernel.Add

end
-- ==== Proof.KAddLeaves.lean ====
/- What the add kernel's body leaves in its output buffer: the body's own arithmetic of what it loaded. -/
import proofs.«119674_j41747082117850_2_alg».proof.Proof.KAddRuns
import Idealize.ShloMosaic.Lib.Pipeline.Value

set_option maxRecDepth 16384

noncomputable section

namespace Cert.Kernel.Add

open Cert.Kernel Cert.Kernel.Gen
open Idealize.ShloMosaic Idealize.ShloMosaic.TcCoe Idealize.ShloMosaic.Tactic
open Idealize.SL Idealize.SL.Sem

variable {F : FTy → Type} [FloatOps F]

/-- Every store and load of the body goes through a buffer's whole rectangle: offset zero on each axis. -/
theorem off2 : (![0, 0] : Fin 2 → ℕ) = fun _ => 0 := by funext a; fin_cases a <;> rfl

/-- The output buffer after the body: the block plus the correction row spread down it. -/
theorem add_out (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole)
    (x : Vec F S10000x128 .f32) (d : Vec F S1x128 .f32)
    (v : View sig .tc .vmem S10000x128 .f32) (f : v.ty.Contents (Elt F)) :
    v.read (Elt F) (v.writes (Elt F) f (runAdd c i a1 h1 a2 h2 a3 h3 x d).1) = k1_pay1 x d := by
  rw [View.read_writes_eq_canon _ _ _ (View.cover_of_tiledL _ S10000x128.size (by sl_kernel_rfl))]
  unfold runAdd; dsimp only; sl_unfold_words
  simp only [View.canon_unit_zero (S := S10000x128) off2, View.readAt_eq_ld, Memref.IsWhole.read_unread,
    View.ld_unit_zero (S := S10000x128) off2, View.ld_unit_zero (S := S1x128) off2]

end Cert.Kernel.Add

end
-- ==== Proof.KAddData.lean ====
/- The add region's proof data: what each of its 25 grid points finds and leaves.

   The region walks the re-laid input in 25 blocks of 10000 rows; at every point it writes the block plus the
   one-row correction (spread down the block) to the same block of the result. -/
import proofs.«119674_j41747082117850_2_alg».proof.Proof.KAddLeaves
import Idealize.ShloMosaic.Lib.Pipeline.Frame
import Idealize.ShloMosaic.Lib.Pipeline.FrameBody

set_option maxRecDepth 16384

noncomputable section

namespace Cert.Kernel.Add

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Every buffer as the region finds it (the host operations before it have run).
variable (Vent : (c : Dev nD) → (b : Ref sig .tc) → Buf (Elt F) ((c : Thread nD τ).loc b))

/-- Window `w`'s block at point `t`, read off its array at entry. -/
def iblk (c : Dev nD) (w : Fin cfg1.W) (t : Fin cfg1.N) : ((cfg1.win w).xblock (cfg1.grid.coords t)).Idx → Elt F (cfg1.win w).elt :=
  ((cfg1.win w).blk t).view.read (Elt F) (Vent c (Pipeline.arrRef spec1 w))

/-- The invariant between points: the core's scoped buffers that this region stages nothing in, at anything. -/
abbrev inv (c : Dev nD) : sProp 𝕄 :=
  Pipeline.scopedRest (Ix := Unit) (Name := ℕ) (U := UR sig nD τ) (Lvl := ℕ) (Val := Elt F) spec1 c

/-- On core `c`: the arrays as the region finds them; after the body at point `t` each input's buffer at its block and
    the result's at the block plus the spread correction row; nothing owed; full shares. -/
def dats (c : Dev nD) : Dat τ (Elt F) Unit ℕ (UR sig nD τ) ℕ cfg1 c where
  A w := Vent c (Pipeline.arrRef spec1 w)
  after w t := match w with
    | ⟨0, _⟩ => iblk Vent c 0 t
    | ⟨1, _⟩ => iblk Vent c 1 t
    | ⟨2, _⟩ => k1_pay1 (iblk Vent c 0 t) (iblk Vent c 1 t)
  Φ _ := inv c
  q _ := fullShare
  owed _ := 0

theorem A_eq (c : Dev nD) (w : Fin cfg1.W) : (dats Vent c).A w = Vent c (Pipeline.arrRef spec1 w) := by dsimp only [dats]
theorem after_0 (c : Dev nD) (t : Fin cfg1.N) : (dats Vent c).after 0 t = iblk Vent c 0 t := by dsimp only [dats]
theorem after_1 (c : Dev nD) (t : Fin cfg1.N) : (dats Vent c).after 1 t = iblk Vent c 1 t := by dsimp only [dats]
theorem after_2 (c : Dev nD) (t : Fin cfg1.N) : (dats Vent c).after 2 t = k1_pay1 (iblk Vent c 0 t) (iblk Vent c 1 t) := by dsimp only [dats]

/-- Each input's current staging buffer holds its block at every point, fetched there or not (the correction row is
    fetched once, at the first point, and its block never moves). -/
theorem before_0 (c : Dev nD) (t : Fin cfg1.N) (d) : (dats Vent c).before 0 t d = iblk Vent c 0 t :=
  ((dats Vent c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats Vent c).before 1 t d = iblk Vent c 1 t :=
  ((dats Vent c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

set_option maxHeartbeats 800000 in
/-- The body at any point: the inputs' buffers hold their blocks, the run applies, and the result's buffer ends at the
    sum. The invariant passes through unread; the core owes nothing throughout. -/
theorem sound_body (c : Dev nD) (t : Fin cfg1.N) :
    (iprop((dats Vent c).Φ t.castSucc ∗ (dats Vent c).owesAt () t.castSucc
      ∗ (∃ d, owns (c : Thread nD τ) (st1_0 t) fullShare ((dats Vent c).before 0 t d))
      ∗ (∃ d, owns (c : Thread nD τ) (st1_1 t) fullShare ((dats Vent c).before 1 t d))
      ∗ (∃ d, owns (c : Thread nD τ) (st1_2 t) fullShare ((dats Vent c).before 2 t d))) : sProp 𝕄)
    ⊢ wp frame (wpE (defs₀ (F := F)) Variants.none c none) Set.univ (bodyAt1 t) (fun _ =>
      iprop((dats Vent c).Φ t.succ ∗ (dats Vent c).owesAt () t.succ
        ∗ owns (c : Thread nD τ) (st1_0 t) fullShare ((dats Vent c).after 0 t)
        ∗ owns (c : Thread nD τ) (st1_1 t) fullShare ((dats Vent c).after 1 t)
        ∗ owns (c : Thread nD τ) (st1_2 t) fullShare ((dats Vent c).after 2 t))) := by
  unfold bodyAt1
  simp only [before_0, before_1]
  rw [show (dats Vent c).owesAt () t.succ = (dats Vent c).owesAt () t.castSucc from rfl,
    show (dats Vent c).Φ t.succ = (dats Vent c).Φ t.castSucc from rfl, after_0, after_1, after_2]
  iintro ⟨HΦ, Ho, ⟨%d0, H0⟩, ⟨%d1, H1⟩, ⟨%d2, H2⟩⟩
  iapply ((runAdd c (grid1.coords t) _ _ _ _ _ _ (iblk Vent c 0 t) (iblk Vent c 1 t)).2 Set.univ _)
  isplitl [H0]; · iexact H0
  isplitl [H1]; · iexact H1
  isplitl [H2]; · iexists _; iexact H2
  iintro ⟨H0, H1, ⟨%e, H2⟩⟩
  isplitl [HΦ]; · iexact HΦ
  isplitl [Ho]; · iexact Ho
  isplitl [H0]; · iexact H0
  isplitl [H1]; · iexact H1
  unfold owns; iexists _; isplitr
  swap; · iexact H2
  ipureintro; exact add_out c _ _ _ _ _ _ _ _ _ _ _

/-- The library's body obligation, at every point. -/
theorem body_obligation (c : Dev nD) : BodyObligation (dats (F := F) Vent c) (defs₀ (F := F)) Variants.none () Set.univ := fun t => by
  rw [bigSep_W1, bigSep_W1]
  exact sound_body Vent c t

end Cert.Kernel.Add

end
-- ==== Proof.KWhole.lean ====
/- The whole run of @main: the reduce region, three stretches of host operations, the add region, one more host
   operation — as the pipeline library's list of segments, each entered from what the one before left.

   Between items every unscoped buffer of the core is held at a named valuation: as launched; after the reduce
   region (its two results written back); after each host stretch; after the add region (its result written
   back); after the last reshape. The run ends with every unscoped buffer at the last valuation. -/
import proofs.«119674_j41747082117850_2_alg».proof.Proof.KReduceData
import proofs.«119674_j41747082117850_2_alg».proof.Proof.KAddData
import proofs.«119674_j41747082117850_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the reduce region: its arrays at what the pipeline leaves, every other buffer as before. -/
def W1 (c : Dev nD) : Valuation τ sig (Elt F) :=
  Pipeline.withArrays spec0 c (W0 m c) fun w => (Reduce.dats m c).arrAt w cfg0.N
theorem W1_arr (c : Dev nD) (w : Fin cfg0.W) :
    W1 m c (Proc.devRef .tc (Pipeline.arrRef spec0 w)) = (Reduce.dats m c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Reduce.dats m c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After each of the three host stretches between the regions. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev V4 : (c : Dev nD) → (b : Ref sig .tc) → Buf (Elt F) ((c : Thread nD τ).loc b) := fun c b => W4 m c b

/-- After the add region: its arrays at what the pipeline leaves, every other buffer as before. -/
def W5 (c : Dev nD) : Valuation τ sig (Elt F) :=
  Pipeline.withArrays spec1 c (W4 m c) fun w => (Add.dats (V4 m) c).arrAt w cfg1.N
theorem W5_arr (c : Dev nD) (w : Fin cfg1.W) :
    W5 m c (Proc.devRef .tc (Pipeline.arrRef spec1 w)) = (Add.dats (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (Add.dats (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the last reshape: the end. -/
abbrev W6 : Dev nD → Valuation τ sig (Elt F) := fun c => StableHlo.after hostOps2 (W5 m c)

/-! ## The proof data family and the thread state -/

/-- No pipeline has a prefetched table. -/
abbrev adm : (p : Fin 2) → (pcfgs (F := F) p).Adm := fun p => (cfgs p).toPCfg_adm
/-- Each pipeline's proof data, at its region's entry contents. -/
def pdats : (p : Fin 2) → (c : Dev nD) → Dat τ (Elt F) Unit ℕ (UR sig nD τ) ℕ (Pipeline.pin (pcfgs (F := F)) adm p) c
  | ⟨0, _⟩ => fun c => Reduce.dats m c
  | ⟨1, _⟩ => fun c => Add.dats (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's `owes`, at nothing. -/
abbrev R (c : Dev nD) : sProp 𝕄 := iprop(∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option maxHeartbeats 1600000 in
set_option backward.isDefEq.respectTransparency.types false in
/-- THE REDUCE REGION: entered from every unscoped buffer at `W0`, left at `W1`. Its arrays are split out of the
    unscoped buffers and put back at the exit contents; the scoped rest enters the invariant with the two scratch
    buffers at anything and comes back out of it the same way; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reduce.body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Reduce.inv m c 0 from rfl]
    have e := scopedRest0_eq (Ix := Unit) (Val := Elt F) (Name := ℕ) (U := UR sig nD τ) (Lvl := ℕ) c
    rw [show (Pipeline.scopedRest (Pipeline.pin (pcfgs (F := F)) adm 0).spec c : sProp 𝕄) = _ from e]
    unfold Reduce.inv Reduce.sums Reduce.others
    rw [if_pos (Fin.val_zero _)]
    simp only [owns_whole_eq]
    iintro ⟨-, -, ⟨%f6, H6⟩, ⟨%f7, H7⟩, Hr⟩
    isplitr [Hr]
    · isplitl [H6]
      · iexists f6; iexists f6; isplitr; · ipureintro; rfl
        iexact H6
      · iexists f7; iexists f7; isplitr; · ipureintro; rfl
        iexact H7
    · iexact Hr
  hout c := by
    rw [Pipeline.ownSems0_none, show (pdats m 0 c).Φ (Fin.last _) = Reduce.inv m c (Fin.last _) from rfl]
    have e := scopedRest0_eq (Ix := Unit) (Val := Elt F) (Name := ℕ) (U := UR sig nD τ) (Lvl := ℕ) c
    rw [show (Pipeline.scopedRest (Pipeline.pin (pcfgs (F := F)) adm 0).spec c : sProp 𝕄) = _ from e]
    unfold Reduce.inv Reduce.others
    iintro ⟨Hs, Hr⟩
    ihave Hs' := (Reduce.sums_any m c (Fin.last _)) $$ Hs
    simp only [owns_whole_eq]
    icases Hs' with ⟨⟨%d6, %f6, -, H6⟩, ⟨%d7, %f7, -, H7⟩⟩
    isplitr; · iempintro
    isplitr; · iempintro
    isplitl [H6]; · iexists f6; iexact H6
    isplitl [H7]; · iexists f7; iexact H7
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 1600000 in
set_option backward.isDefEq.respectTransparency.types false in
/-- THE ADD REGION: entered from every unscoped buffer at `W4`, left at `W5`; the scoped rest is its invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Add.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(emp)
  Y c := iprop(emp)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Add.inv c from rfl]
    iintro ⟨-, -, Hr⟩
    iexact Hr
  hout c := by
    rw [Pipeline.ownSems0_none, show (pdats m 1 c).Φ (Fin.last _) = Add.inv c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)) ]

/-- @main IS the run of the segments. -/
theorem main_run (c : Dev nD) : main (F := F) c = Pipeline.Seg.run (segs m) := by
  rw [main_chain c, Pipeline.Seg.run_eq_chain]; rfl

set_option maxHeartbeats 1600000 in
set_option backward.isDefEq.respectTransparency.types false in
/-- THE RUN. At the compiled mesh, from any memory with zero counters, every weakly fair execution of @main on the
    TensorCores terminates, nothing faulting, and every final state holds every unscoped buffer of every core at the
    last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W6 m c b)
    (hfin := fun c s' => by
      iintro ⟨Hh, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Whole

end
-- ==== Proof.KFrames.lean ====
/- The arguments end as launched: read off the last valuation of the whole run. No host operation writes an argument;
   the reduce region stages the first two as input windows, which the pipeline leaves as it found them, and neither
   region touches the other two. -/
import proofs.«119674_j41747082117850_2_alg».proof.Proof.KWhole

set_option maxRecDepth 16384

noncomputable section

namespace Cert.Kernel.Whole

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- A buffer no host stretch writes and that is no array of the add region is, at the end, what it was after the reduce
    region. -/
theorem W6_eq_W1 (c : Dev nD) (r : Ref sig .tc) (h2 : r ∉ hostOps2_W) (h5 : ∀ w, Pipeline.arrRef spec1 w ≠ r)
    (h12 : r ∉ hostOps1_2_W) (h11 : r ∉ hostOps1_1_W) (h1 : r ∉ hostOps1_W) :
    W6 m c (Proc.devRef .tc r) = W1 m c (Proc.devRef .tc r) :=
  (StableHlo.after_of_writes_sub hostOps2 (W5 m c) hostOps2_writes h2).trans <|
  (W5_of_ne m c r h5).trans <|
  (StableHlo.after_of_writes_sub hostOps1_2 (W3 m c) hostOps1_2_writes h12).trans <|
  (StableHlo.after_of_writes_sub hostOps1_1 (W2 m c) hostOps1_1_writes h11).trans <|
  (StableHlo.after_of_writes_sub hostOps1 (W1 m c) hostOps1_writes h1)

theorem spec1_ne (r : Ref sig .tc) (h : r ≠ main_v12 ∧ r ≠ main_v15 ∧ r ≠ main_v16) : ∀ w, Pipeline.arrRef spec1 w ≠ r := by
  intro w
  match w with
  | ⟨0, _⟩ => exact fun e => h.1 e.symm
  | ⟨1, _⟩ => exact fun e => h.2.1 e.symm
  | ⟨2, _⟩ => exact fun e => h.2.2 e.symm

theorem spec0_ne (r : Ref sig .tc) (h : r ≠ main_arg0 ∧ r ≠ main_arg1 ∧ r ≠ main_v0_0 ∧ r ≠ main_v0_1) : ∀ w, Pipeline.arrRef spec0 w ≠ r := by
  intro w
  match w with
  | ⟨0, _⟩ => exact fun e => h.1 e.symm
  | ⟨1, _⟩ => exact fun e => h.2.1 e.symm
  | ⟨2, _⟩ => exact fun e => h.2.2.1 e.symm
  | ⟨3, _⟩ => exact fun e => h.2.2.2 e.symm

theorem W6_arg0 (c : Dev nD) : W6 m c (Proc.devRef .tc main_arg0) = m ((c : Thread nD τ).loc main_arg0) :=
  (W6_eq_W1 m c main_arg0 (by decide) (spec1_ne _ (by decide)) (by decide) (by decide) (by decide)).trans <|
  (W1_arr m c 0).trans ((Reduce.dats m c).arrAt_in 0 rfl _)
theorem W6_arg1 (c : Dev nD) : W6 m c (Proc.devRef .tc main_arg1) = m ((c : Thread nD τ).loc main_arg1) :=
  (W6_eq_W1 m c main_arg1 (by decide) (spec1_ne _ (by decide)) (by decide) (by decide) (by decide)).trans <|
  (W1_arr m c 1).trans ((Reduce.dats m c).arrAt_in 1 rfl _)
theorem W6_arg2 (c : Dev nD) : W6 m c (Proc.devRef .tc main_arg2) = m ((c : Thread nD τ).loc main_arg2) :=
  (W6_eq_W1 m c main_arg2 (by decide) (spec1_ne _ (by decide)) (by decide) (by decide) (by decide)).trans <|
  (W1_of_ne m c main_arg2 (spec0_ne _ (by decide)))
theorem W6_arg3 (c : Dev nD) : W6 m c (Proc.devRef .tc main_arg3) = m ((c : Thread nD τ).loc main_arg3) :=
  (W6_eq_W1 m c main_arg3 (by decide) (spec1_ne _ (by decide)) (by decide) (by decide) (by decide)).trans <|
  (W1_of_ne m c main_arg3 (spec0_ne _ (by decide)))

/-- THE FRAME, at any float values: every weakly fair execution of @main terminates, nothing faulting, and every
    final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_arg0 m c),
     (h c _ (mem_uc main_arg1 (by decide))).trans (W6_arg1 m c),
     (h c _ (mem_uc main_arg2 (by decide))).trans (W6_arg2 m c),
     (h c _ (mem_uc main_arg3 (by decide))).trans (W6_arg3 m c)⟩) (run m ρ)

end Cert.Kernel.Whole

end
-- ==== Proof.ReduceRuns.lean ====
/- The reduce kernel's body, run once per control case. -/
import proofs.«119674_j41747082117850_2_alg».proof.Proof.Gen.KernelIdeal.Launch
import proofs.«119674_j41747082117850_2_alg».proof.Proof.Gen.KernelIdeal.Skeleton
import proofs.«119674_j41747082117850_2_alg».proof.Proof.Gen.KernelIdeal.Points

import Idealize.ShloMosaic.Lib.Pipeline.FrameBody
import Idealize.ShloMosaic.Lib.Ring
import Idealize.ShloMosaic.Lib.Tactic

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the reduce kernel, over the grid

The kernel walks a 2 × 5 grid: the first coordinate picks a half of the rows, the second a fifth of that half.
It zeroes its two running sums when the second coordinate is 0 and copies them out when it is 4. -/

/-- "The second grid coordinate is 0", as the body computes it. -/
abbrev isFirst (i : grid0.Coords) : Prop :=
  (Scalar.cmpi .ne (Scalar.extui (Scalar.cmpi .eq (BitVec.ofNat 32 (i 1).val) 0#32)) 0#32) = 1#1
/-- "The second grid coordinate is 4", as the body computes it. -/
abbrev isLast (i : grid0.Coords) : Prop := k0_cond2 i = 1#1

/-- Point `t` has second coordinate 0 exactly when `t ≡ 0 (mod 5)`. -/
theorem isFirst_iff : ∀ t : Fin cfg0.N, isFirst (grid0.coords t) ↔ t.val % 5 = 0 :=
  (by decide +kernel : ∀ t : Fin grid0.N, isFirst (grid0.coords t) ↔ t.val % 5 = 0)
/-- Point `t` has second coordinate 4 exactly when `t ≡ 4 (mod 5)`. -/
theorem isLast_iff : ∀ t : Fin cfg0.N, isLast (grid0.coords t) ↔ t.val % 5 = 4 :=
  (by decide +kernel : ∀ t : Fin grid0.N, isLast (grid0.coords t) ↔ t.val % 5 = 4)

/-! ## The body in the middle case: neither branch taken

From the two input blocks and the two running sums, the body adds the block's weighted column sums to the first
running sum and the block's weight total to the second; the output buffers are not touched. -/

set_option maxHeartbeats 1000000 in
noncomputable def runMid (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : ¬isLast i)
    (x : Vec F S100000x32 .f32) (w : Vec F S100000x1 .f32) (s6 : Vec F S1x1x32 .f32) (s7 : Vec F S1x1x1 .f32) :
    { L : List (View.Piece (Elt F) S1x1x32 .f32) × List (View.Piece (Elt F) S1x1x1 .f32) //
      ∀ (E : Set ℕ) (K : PUnit → sProp 𝕄),
        iprop(owns (c : Thread nD τ) a2 fullShare x ∗ owns (c : Thread nD τ) a3 fullShare w
            ∗ owns (c : Thread nD τ) a6 fullShare s6 ∗ owns (c : Thread nD τ) a7 fullShare s7
            ∗ (iprop(owns (c : Thread nD τ) a2 fullShare x ∗ owns (c : Thread nD τ) a3 fullShare w
                ∗ (∃ f, a6.view.loc (c : Thread nD τ) ↦[a6.view.set]{fullShare} a6.view.writes (Elt F) f L.1)
                ∗ (∃ f, a7.view.loc (c : Thread nD τ) ↦[a7.view.set]{fullShare} a7.view.writes (Elt F) f L.2)) -∗ K ⟨⟩))
          ⊢ wp frame (wpE (defs₀ (F := F)) Variants.none c none) E (cc0__reduce_kernel i a2 h2 a3 h3 a4 h4 a5 h5 a6 h6 a7 h7) K } := by
  refine ⟨(?_, ?_), fun E K => ?run⟩
  case run =>
    simp only [cc0__reduce_kernel_eq_skeleton]; unfold cc0__reduce_kernel_skel
    unfold owns
    iintro ⟨⟨%f2, %hf2, H2⟩, ⟨%f3, %hf3, H3⟩, ⟨%f6, %hf6, H6⟩, ⟨%f7, %hf7, H7⟩, Hk⟩
    obtain rfl := h2.eq_unread hf2
    obtain rfl := h3.eq_unread hf3
    obtain rfl := h6.eq_unread hf6
    obtain rfl := h7.eq_unread hf7
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H6]
    · iexists _; iexact H6
    iexists _; iexact H7

/-! ## The body in the first case: the running sums zeroed, then added to

The running sums come in holding anything; the body zeroes them (a dead load, then the store) and adds this block's
contribution. The output buffers are not touched. -/

set_option maxHeartbeats 1000000 in
noncomputable def runFirst (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : isFirst i) (hl : ¬isLast i)
    (x : Vec F S100000x32 .f32) (w : Vec F S100000x1 .f32) :
    { L : List (View.Piece (Elt F) S1x1x32 .f32) × List (View.Piece (Elt F) S1x1x1 .f32) //
      ∀ (E : Set ℕ) (K : PUnit → sProp 𝕄),
        iprop(owns (c : Thread nD τ) a2 fullShare x ∗ owns (c : Thread nD τ) a3 fullShare w
            ∗ (∃ d, owns (c : Thread nD τ) a6 fullShare d) ∗ (∃ d, owns (c : Thread nD τ) a7 fullShare d)
            ∗ (iprop(owns (c : Thread nD τ) a2 fullShare x ∗ owns (c : Thread nD τ) a3 fullShare w
                ∗ (∃ f, a6.view.loc (c : Thread nD τ) ↦[a6.view.set]{fullShare} a6.view.writes (Elt F) f L.1)
                ∗ (∃ f, a7.view.loc (c : Thread nD τ) ↦[a7.view.set]{fullShare} a7.view.writes (Elt F) f L.2)) -∗ K ⟨⟩))
          ⊢ wp frame (wpE (defs₀ (F := F)) Variants.none c none) E (cc0__reduce_kernel i a2 h2 a3 h3 a4 h4 a5 h5 a6 h6 a7 h7) K } := by
  refine ⟨(?_, ?_), fun E K => ?run⟩
  case run =>
    simp only [cc0__reduce_kernel_eq_skeleton]; unfold cc0__reduce_kernel_skel
    unfold owns
    iintro ⟨⟨%f2, %hf2, H2⟩, ⟨%f3, %hf3, H3⟩, ⟨%d6, %f6, -, H6⟩, ⟨%d7, %f7, -, H7⟩, Hk⟩
    obtain rfl := h2.eq_unread hf2
    obtain rfl := h3.eq_unread hf3
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H6]
    · iexists _; iexact H6
    iexists _; iexact H7

/-! ## The body in the last case: added to, then copied out

The body adds this block's contribution to the running sums and then stores each running sum into its output
buffer (a dead load of the output buffer first), which comes in holding anything. -/

set_option maxHeartbeats 1000000 in
noncomputable def runLast (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32) :
    { L : (List (View.Piece (Elt F) S1x1x32 .f32) × List (View.Piece (Elt F) S1x1x1 .f32))
          × (List (View.Piece (Elt F) S1x1x32 .f32) × List (View.Piece (Elt F) S1x1x1 .f32)) //
      ∀ (E : Set ℕ) (K : PUnit → sProp 𝕄),
        iprop(owns (c : Thread nD τ) a2 fullShare x ∗ owns (c : Thread nD τ) a3 fullShare w
            ∗ owns (c : Thread nD τ) a6 fullShare s6 ∗ owns (c : Thread nD τ) a7 fullShare s7
            ∗ (∃ d, owns (c : Thread nD τ) a4 fullShare d) ∗ (∃ d, owns (c : Thread nD τ) a5 fullShare d)
            ∗ (iprop(owns (c : Thread nD τ) a2 fullShare x ∗ owns (c : Thread nD τ) a3 fullShare w
                ∗ (∃ f, a6.view.loc (c : Thread nD τ) ↦[a6.view.set]{fullShare} a6.view.writes (Elt F) f L.1.1)
                ∗ (∃ f, a7.view.loc (c : Thread nD τ) ↦[a7.view.set]{fullShare} a7.view.writes (Elt F) f L.1.2)
                ∗ (∃ f, a4.view.loc (c : Thread nD τ) ↦[a4.view.set]{fullShare} a4.view.writes (Elt F) f L.2.1)
                ∗ (∃ f, a5.view.loc (c : Thread nD τ) ↦[a5.view.set]{fullShare} a5.view.writes (Elt F) f L.2.2)) -∗ K ⟨⟩))
          ⊢ wp frame (wpE (defs₀ (F := F)) Variants.none c none) E (cc0__reduce_kernel i a2 h2 a3 h3 a4 h4 a5 h5 a6 h6 a7 h7) K } := by
  refine ⟨((?_, ?_), (?_, ?_)), fun E K => ?run⟩
  case run =>
    simp only [cc0__reduce_kernel_eq_skeleton]; unfold cc0__reduce_kernel_skel
    unfold owns
    iintro ⟨⟨%f2, %hf2, H2⟩, ⟨%f3, %hf3, H3⟩, ⟨%f6, %hf6, H6⟩, ⟨%f7, %hf7, H7⟩, ⟨%d4, %f4, -, H4⟩, ⟨%d5, %f5, -, H5⟩, Hk⟩
    obtain rfl := h2.eq_unread hf2
    obtain rfl := h3.eq_unread hf3
    obtain rfl := h6.eq_unread hf6
    obtain rfl := h7.eq_unread hf7
    sl_exec (disch := first | exact hf | exact hl)
    sl_step
    iapply Hk
    isplitl [H2]
    · iexists _; isplitr; · ipureintro; exact h2.read_unread _
      iexact H2
    isplitl [H3]
    · iexists _; isplitr; · ipureintro; exact h3.read_unread _
      iexact H3
    isplitl [H6]
    · iexists _; iexact H6
    isplitl [H7]
    · iexists _; iexact H7
    isplitl [H4]
    · iexists _; iexact H4
    iexists _; iexact H5

end Cert.KernelIdeal.Reduce

end
-- ==== Proof.ReduceLeaves.lean ====
/- What the reduce kernel's body leaves in its running sums and output buffers, in each control case, as the
   body's own arithmetic of what it loaded. -/
import proofs.«119674_j41747082117850_2_alg».proof.Proof.ReduceRuns
import Idealize.ShloMosaic.Lib.Pipeline.Value

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.Sem

variable {F : FTy → Type} [FloatOps F]

/-- Every store and load of the body goes through a buffer's whole rectangle: offset zero on each axis. -/
theorem off3 : (![0, 0, 0] : Fin 3 → ℕ) = fun _ => 0 := by funext a; fin_cases a <;> rfl
theorem off2 : (![0, 0] : Fin 2 → ℕ) = fun _ => 0 := by funext a; fin_cases a <;> rfl

/-- One step of the two running sums: the first gains the block's weighted column sums, the second the block's
    weight total. -/
def step (x : Vec F S100000x32 .f32) (w : Vec F S100000x1 .f32) (s : Vec F S1x1x32 .f32 × Vec F S1x1x1 .f32) :
    Vec F S1x1x32 .f32 × Vec F S1x1x1 .f32 := (k0_pay3 x w s.1, k0_pay4 w s.2)
/-- The running sums as the first point of a half resets them: all zeros. -/
def zero : Vec F S1x1x32 .f32 × Vec F S1x1x1 .f32 := (k0_pay1 (F := F), k0_pay2 (F := F))

/-- Middle case: the first running sum after the body. -/
theorem mid_sum (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : ¬isLast i)
    (x : Vec F S100000x32 .f32) (w : Vec F S100000x1 .f32) (s6 : Vec F S1x1x32 .f32) (s7 : Vec F S1x1x1 .f32)
    (v : View sig .tc .vmem S1x1x32 .f32) (f : v.ty.Contents (Elt F)) :
    v.read (Elt F) (v.writes (Elt F) f (runMid c i a2 h2 a3 h3 a4 h4 a5 h5 a6 h6 a7 h7 hf hl x w s6 s7).1.1) = (step x w (s6, s7)).1 := by
  rw [View.read_writes_eq_canon _ _ _ (View.cover_of_tiledL _ S1x1x32.size (by sl_kernel_rfl))]
  unfold runMid; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Middle case: the second running sum after the body. -/
theorem mid_tot (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : ¬isLast i)
    (x : Vec F S100000x32 .f32) (w : Vec F S100000x1 .f32) (s6 : Vec F S1x1x32 .f32) (s7 : Vec F S1x1x1 .f32)
    (v : View sig .tc .vmem S1x1x1 .f32) (f : v.ty.Contents (Elt F)) :
    v.read (Elt F) (v.writes (Elt F) f (runMid c i a2 h2 a3 h3 a4 h4 a5 h5 a6 h6 a7 h7 hf hl x w s6 s7).1.2) = (step x w (s6, s7)).2 := by
  rw [View.read_writes_eq_canon _ _ _ (View.cover_of_tiledL _ S1x1x1.size (by sl_kernel_rfl))]
  unfold runMid; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- First case: the first running sum after the body, from zeros. -/
theorem first_sum (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : isFirst i) (hl : ¬isLast i)
    (x : Vec F S100000x32 .f32) (w : Vec F S100000x1 .f32)
    (v : View sig .tc .vmem S1x1x32 .f32) (f : v.ty.Contents (Elt F)) :
    v.read (Elt F) (v.writes (Elt F) f (runFirst c i a2 h2 a3 h3 a4 h4 a5 h5 a6 h6 a7 h7 hf hl x w).1.1) = (step x w (zero (F := F))).1 := by
  rw [View.read_writes_eq_canon _ _ _ (View.cover_of_tiledL _ S1x1x32.size (by sl_kernel_rfl))]
  unfold runFirst; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- First case: the second running sum after the body, from zeros. -/
theorem first_tot (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : isFirst i) (hl : ¬isLast i)
    (x : Vec F S100000x32 .f32) (w : Vec F S100000x1 .f32)
    (v : View sig .tc .vmem S1x1x1 .f32) (f : v.ty.Contents (Elt F)) :
    v.read (Elt F) (v.writes (Elt F) f (runFirst c i a2 h2 a3 h3 a4 h4 a5 h5 a6 h6 a7 h7 hf hl x w).1.2) = (step x w (zero (F := F))).2 := by
  rw [View.read_writes_eq_canon _ _ _ (View.cover_of_tiledL _ S1x1x1.size (by sl_kernel_rfl))]
  unfold runFirst; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Last case: the first running sum after the body. -/
theorem last_sum (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32)
    (v : View sig .tc .vmem S1x1x32 .f32) (f : v.ty.Contents (Elt F)) :
    v.read (Elt F) (v.writes (Elt F) f (runLast c i a2 h2 a3 h3 a4 h4 a5 h5 a6 h6 a7 h7 hf hl x w s6 s7).1.1.1) = (step x w (s6, s7)).1 := by
  rw [View.read_writes_eq_canon _ _ _ (View.cover_of_tiledL _ S1x1x32.size (by sl_kernel_rfl))]
  unfold runLast; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Last case: the second running sum after the body. -/
theorem last_tot (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32)
    (v : View sig .tc .vmem S1x1x1 .f32) (f : v.ty.Contents (Elt F)) :
    v.read (Elt F) (v.writes (Elt F) f (runLast c i a2 h2 a3 h3 a4 h4 a5 h5 a6 h6 a7 h7 hf hl x w s6 s7).1.1.2) = (step x w (s6, s7)).2 := by
  rw [View.read_writes_eq_canon _ _ _ (View.cover_of_tiledL _ S1x1x1.size (by sl_kernel_rfl))]
  unfold runLast; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Last case: the first output buffer holds the first running sum, copied out. -/
theorem last_out_sum (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32)
    (v : View sig .tc .vmem S1x1x32 .f32) (f : v.ty.Contents (Elt F)) :
    v.read (Elt F) (v.writes (Elt F) f (runLast c i a2 h2 a3 h3 a4 h4 a5 h5 a6 h6 a7 h7 hf hl x w s6 s7).1.2.1) = k0_pay5 (step x w (s6, s7)).1 := by
  rw [View.read_writes_eq_canon _ _ _ (View.cover_of_tiledL _ S1x1x32.size (by sl_kernel_rfl))]
  unfold runLast; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

/-- Last case: the second output buffer holds the second running sum, copied out. -/
theorem last_out_tot (c : Dev nD) (i : grid0.Coords)
    (a2 : Memref sig .tc .vmem S100000x32 .f32) (h2 : a2.IsWhole) (a3 : Memref sig .tc .vmem S100000x1 .f32) (h3 : a3.IsWhole)
    (a4 : Memref sig .tc .vmem S1x1x32 .f32) (h4 : a4.IsWhole) (a5 : Memref sig .tc .vmem S1x1x1 .f32) (h5 : a5.IsWhole)
    (a6 : Memref sig .tc .vmem S1x1x32 .f32) (h6 : a6.IsWhole) (a7 : Memref sig .tc .vmem S1x1x1 .f32) (h7 : a7.IsWhole)
    (hf : ¬isFirst i) (hl : isLast i)
    (x : Vec F S100000x32 .f32) (w : Vec F S100000x1 .f32) (s6 : Vec F S1x1x32 .f32) (s7 : Vec F S1x1x1 .f32)
    (v : View sig .tc .vmem S1x1x1 .f32) (f : v.ty.Contents (Elt F)) :
    v.read (Elt F) (v.writes (Elt F) f (runLast c i a2 h2 a3 h3 a4 h4 a5 h5 a6 h6 a7 h7 hf hl x w s6 s7).1.2.2) = k0_pay6 (step x w (s6, s7)).2 := by
  rw [View.read_writes_eq_canon _ _ _ (View.cover_of_tiledL _ S1x1x1.size (by sl_kernel_rfl))]
  unfold runLast; dsimp only; sl_unfold_words
  simp only [View.canon_unit_zero (S := S1x1x32) off3, View.canon_unit_zero (S := S1x1x1) off3,
    View.canon_cons_unit_zero (S := S1x1x32) off3, View.canon_cons_unit_zero (S := S1x1x1) off3,
    View.readCov_unit_zero (S := S1x1x32) _ off3, View.readCov_unit_zero (S := S1x1x1) _ off3,
    View.readAt_eq_ld, Memref.IsWhole.read_unread,
    View.ld_unit_zero (S := S100000x32) off2, View.ld_unit_zero (S := S100000x1) off2,
    View.ld_unit_zero (S := S1x1x32) off3, View.ld_unit_zero (S := S1x1x1) off3]
  rfl

end Cert.KernelIdeal.Reduce

end
-- ==== Proof.ReduceData.lean ====
/- The reduce region's proof data: what each of its ten grid points finds and leaves.

   The region walks the rows in ten blocks of 100000, five per half. Its two running sums live in scratch buffers
   that persist from point to point: after point n they hold the sums over the blocks of n's half up to n. At the
   last point of each half the sums are copied to that half's row of the two results. -/
import proofs.«119674_j41747082117850_2_alg».proof.Proof.ReduceLeaves
import Idealize.ShloMosaic.Lib.Pipeline.Frame
import Idealize.ShloMosaic.Lib.Pipeline.FrameBody

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at entry, and a window's block at a point -/

/-- The region is @main's first item: it finds every buffer as launched. -/
abbrev Vin (c : Dev nD) (b : Ref sig .tc) : Buf (Elt F) ((c : Thread nD τ).loc b) := m ((c : Thread nD τ).loc b)

/-- Window `w`'s block at point `t`, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (Vin m c (Pipeline.arrRef spec0 w))

/-- Point number `n` of the ten (numbers past the grid wrap round; only 0..9 are ever asked). -/
def pt (n : ℕ) : Fin cfg0.N := ⟨n % 10, lt_of_lt_of_eq (Nat.mod_lt _ (by decide)) (show (10 : ℕ) = cfg0.N from N_0.symm)⟩
theorem pt_val (t : Fin cfg0.N) : pt t.val = t :=
  Fin.ext (Nat.mod_eq_of_lt (lt_of_lt_of_eq t.isLt (show cfg0.N = 10 from N_0)))

/-! ## The running sums after each point -/

/-- The two running sums after point `n`: one step from zeros at the first point of a half, else one step from what
    the point before left. -/
def accN (c : Dev nD) : ℕ → Vec F S1x1x32 .f32 × Vec F S1x1x1 .f32
  | 0 => step (iblk m c 0 (pt 0)) (iblk m c 1 (pt 0)) (zero (F := F))
  | n + 1 => step (iblk m c 0 (pt (n + 1))) (iblk m c 1 (pt (n + 1))) (if (n + 1) % 5 = 0 then zero (F := F) else accN c n)

theorem accN_first (c : Dev nD) (n : ℕ) (h : n % 5 = 0) :
    accN m c n = step (iblk m c 0 (pt n)) (iblk m c 1 (pt n)) (zero (F := F)) := by
  cases n with
  | zero => rfl
  | succ k => show step _ _ (if (k + 1) % 5 = 0 then zero (F := F) else accN m c k) = _; rw [if_pos h]

theorem accN_next (c : Dev nD) (n : ℕ) (h : n % 5 ≠ 0) :
    accN m c n = step (iblk m c 0 (pt n)) (iblk m c 1 (pt n)) (accN m c (n - 1)) := by
  cases n with
  | zero => exact absurd (Nat.zero_mod _) h
  | succ k => show step _ _ (if (k + 1) % 5 = 0 then zero (F := F) else accN m c k) = _; rw [if_neg h]; rfl

/-! ## The invariant between points -/

/-- The two scratch buffers, whole. -/
abbrev sc0 : Memref sig .tc .vmem S1x1x32 .f32 := Memref.whole cc0_scratch0
abbrev sc1 : Memref sig .tc .vmem S1x1x1 .f32 := Memref.whole cc0_scratch1

/-- The scratch buffers before point `t`: anything before the first point, else the running sums the point before left. -/
def sums (c : Dev nD) (t : Fin (cfg0.N + 1)) : sProp 𝕄 :=
  if t.val = 0 then iprop((∃ d, owns (c : Thread nD τ) sc0 fullShare d) ∗ (∃ d, owns (c : Thread nD τ) sc1 fullShare d))
  else iprop(owns (c : Thread nD τ) sc0 fullShare (accN m c (t.val - 1)).1 ∗ owns (c : Thread nD τ) sc1 fullShare (accN m c (t.val - 1)).2)

/-- The core's other scoped buffers that this region stages nothing in (the second region's staging buffers), at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant before point `t`. -/
def inv (c : Dev nD) (t : Fin (cfg0.N + 1)) : sProp 𝕄 := iprop(sums m c t ∗ others c)

theorem sums_succ (c : Dev nD) (t : Fin cfg0.N) :
    sums m c t.succ = iprop(owns (c : Thread nD τ) sc0 fullShare (accN m c t.val).1 ∗ owns (c : Thread nD τ) sc1 fullShare (accN m c t.val).2) := by
  unfold sums; rw [if_neg (show ¬((t.succ : Fin (cfg0.N + 1)).val = 0) from by rw [Fin.val_succ]; exact Nat.succ_ne_zero _)]; rfl

theorem sums_pos (c : Dev nD) (t : Fin cfg0.N) (h : t.val ≠ 0) :
    sums m c t.castSucc = iprop(owns (c : Thread nD τ) sc0 fullShare (accN m c (t.val - 1)).1 ∗ owns (c : Thread nD τ) sc1 fullShare (accN m c (t.val - 1)).2) := by
  unfold sums; rw [if_neg (show ¬((t.castSucc : Fin (cfg0.N + 1)).val = 0) from h)]; rfl

theorem sums_any (c : Dev nD) (t : Fin (cfg0.N + 1)) :
    sums m c t ⊢ (iprop((∃ d, owns (c : Thread nD τ) sc0 fullShare d) ∗ (∃ d, owns (c : Thread nD τ) sc1 fullShare d)) : sProp 𝕄) := by
  unfold sums; split
  · exact .rfl
  · iintro ⟨H6, H7⟩
    isplitl [H6]; · iexists _; iexact H6
    iexists _; iexact H7

/-! ## The proof data -/

/-- On core `c`: the arrays as launched; after the body at point `t` each input's buffer at its block, each result's
    buffer at the matching running sum copied out (asked only at the last point of a half, where the body stores it);
    the invariant; nothing owed; full shares. -/
def dats (c : Dev nD) : Dat τ (Elt F) Unit ℕ (UR sig nD τ) ℕ cfg0 c where
  A w := Vin m c (Pipeline.arrRef spec0 w)
  after w t := match w with
    | ⟨0, _⟩ => iblk m c 0 t
    | ⟨1, _⟩ => iblk m c 1 t
    | ⟨2, _⟩ => k0_pay5 (accN m c t.val).1
    | ⟨3, _⟩ => k0_pay6 (accN m c t.val).2
  Φ t := inv m c t
  q _ := fullShare
  owed _ := 0

theorem A_eq (c : Dev nD) (w : Fin cfg0.W) : (dats m c).A w = Vin m c (Pipeline.arrRef spec0 w) := by dsimp only [dats]
theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = k0_pay5 (accN m c t.val).1 := by dsimp only [dats]
theorem after_3 (c : Dev nD) (t : Fin cfg0.N) : (dats m c).after 3 t = k0_pay6 (accN m c t.val).2 := by dsimp only [dats]

/-- Each input's current staging buffer holds its block at every point (both are fetched at every point). -/
theorem before_0 (c : Dev nD) (t : Fin cfg0.N) (d) : (dats m c).before 0 t d = iblk m c 0 t :=
  ((dats m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m c).before 1 t d = iblk m c 1 t :=
  ((dats m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation at a generic point -/

/-- A result window is idle (its buffer untouched by the body) exactly at the points that are not the last of a half. -/
theorem idle_of_not_last (w : Fin cfg0.W) (hw : w = 2 ∨ w = 3) (i : grid0.Coords) (hl : ¬isLast i) : cfg0.idle w i = true := by
  rcases hw with rfl | rfl <;>
  · show (!(k0_cond2 i == 1#1)) = true
    rw [Bool.not_eq_true', beq_eq_false_iff_ne]; exact hl
theorem live_of_last (w : Fin cfg0.W) (hw : w = 2 ∨ w = 3) (i : grid0.Coords) (hl : isLast i) : cfg0.idle w i = false := by
  rcases hw with rfl | rfl <;>
  · show (!(k0_cond2 i == 1#1)) = false
    rw [show k0_cond2 i = 1#1 from hl]; rfl

set_option maxHeartbeats 1600000 in
/-- The body at any point: the inputs' buffers hold their blocks; the point's position in its half says which case
    runs; the scratch buffers hold what the invariant says; the run applies, and what it leaves is what the next
    point's invariant and the windows' posts say. The core owes nothing throughout. -/
theorem sound_body (c : Dev nD) (t : Fin cfg0.N) :
    (iprop((dats m c).Φ t.castSucc ∗ (dats m c).owesAt () t.castSucc
      ∗ (∃ d, owns (c : Thread nD τ) (st0_0 t) fullShare ((dats m c).before 0 t d))
      ∗ (∃ d, owns (c : Thread nD τ) (st0_1 t) fullShare ((dats m c).before 1 t d))
      ∗ (∃ d, owns (c : Thread nD τ) (st0_2 t) fullShare ((dats m c).before 2 t d))
      ∗ (∃ d, owns (c : Thread nD τ) (st0_3 t) fullShare ((dats m c).before 3 t d))) : sProp 𝕄)
    ⊢ wp frame (wpE (defs₀ (F := F)) Variants.none c none) Set.univ (bodyAt0 t) (fun _ =>
      iprop((dats m c).Φ t.succ ∗ (dats m c).owesAt () t.succ
        ∗ owns (c : Thread nD τ) (st0_0 t) fullShare ((dats m c).after 0 t)
        ∗ owns (c : Thread nD τ) (st0_1 t) fullShare ((dats m c).after 1 t)
        ∗ (dats m c).leavesExact 2 t ∗ (dats m c).leavesExact 3 t)) := by
  unfold bodyAt0
  simp only [before_0, before_1]
  rw [show (dats m c).owesAt () t.succ = (dats m c).owesAt () t.castSucc from rfl, after_0, after_1,
    show (dats m c).Φ t.castSucc = inv m c t.castSucc from rfl, show (dats m c).Φ t.succ = inv m c t.succ from rfl]
  unfold inv
  rw [sums_succ]
  have hN : t.val < 10 := lt_of_lt_of_eq t.isLt (show cfg0.N = 10 from N_0)
  by_cases h0 : t.val % 5 = 0
  · -- the first point of a half
    have hf : isFirst (grid0.coords t) := (isFirst_iff t).mpr h0
    have hl : ¬isLast (grid0.coords t) := fun h => by have := (isLast_iff t).mp h; omega
    have hfl2 : (cfg0.win 2).flush t = false := Bool.eq_false_iff.mpr fun h => by have := (flush0_2 t).mp h; omega
    have hfl3 : (cfg0.win 3).flush t = false := Bool.eq_false_iff.mpr fun h => by have := (flush0_3 t).mp h; omega
    rw [Dat.leavesExact_idle _ 2 t (idle_of_not_last 2 (.inl rfl) _ hl) hfl2, Dat.leavesExact_idle _ 3 t (idle_of_not_last 3 (.inr rfl) _ hl) hfl3,
      accN_first m c t.val h0, pt_val]
    iintro ⟨⟨Hs, Hoth⟩, Ho, ⟨%d0, H0⟩, ⟨%d1, H1⟩, H2, H3⟩
    ihave Hs' := (sums_any m c t.castSucc) $$ Hs
    icases Hs' with ⟨H6, H7⟩
    iapply ((runFirst c (grid0.coords t) _ _ _ _ _ _ _ _ _ _ _ _ hf hl (iblk m c 0 t) (iblk m c 1 t)).2 Set.univ _)
    isplitl [H0]; · iexact H0
    isplitl [H1]; · iexact H1
    isplitl [H6]; · iexact H6
    isplitl [H7]; · iexact H7
    iintro ⟨H0, H1, ⟨%e6, H6⟩, ⟨%e7, H7⟩⟩
    isplitl [H6 H7 Hoth]
    · isplitr [Hoth]
      · isplitl [H6]
        · unfold owns; iexists _; isplitr
          swap; · iexact H6
          ipureintro; exact first_sum c _ _ _ _ _ _ _ _ _ _ _ _ _ hf hl _ _ _ _
        · unfold owns; iexists _; isplitr
          swap; · iexact H7
          ipureintro; exact first_tot c _ _ _ _ _ _ _ _ _ _ _ _ _ hf hl _ _ _ _
      · iexact Hoth
    isplitl [Ho]; · iexact Ho
    isplitl [H0]; · iexact H0
    isplitl [H1]; · iexact H1
    isplitl [H2]; · iexact H2
    iexact H3
  · have ht0 : t.val ≠ 0 := fun h => h0 (by rw [h])
    rw [sums_pos m c t ht0, accN_next m c t.val h0, pt_val]
    have hf : ¬isFirst (grid0.coords t) := fun h => h0 ((isFirst_iff t).mp h)
    by_cases h4 : t.val % 5 = 4
    · -- the last point of a half
      have hl : isLast (grid0.coords t) := (isLast_iff t).mpr h4
      have e2 : (dats m c).leavesExact 2 t = owns (c : Thread nD τ) (st0_2 t) fullShare ((dats m c).after 2 t) := by
        unfold Dat.leavesExact; rw [live_of_last 2 (.inl rfl) _ hl]
      have e3 : (dats m c).leavesExact 3 t = owns (c : Thread nD τ) (st0_3 t) fullShare ((dats m c).after 3 t) := by
        unfold Dat.leavesExact; rw [live_of_last 3 (.inr rfl) _ hl]
      rw [e2, e3, after_2, after_3, accN_next m c t.val h0, pt_val]
      iintro ⟨⟨⟨H6, H7⟩, Hoth⟩, Ho, ⟨%d0, H0⟩, ⟨%d1, H1⟩, ⟨%d2, H2⟩, ⟨%d3, H3⟩⟩
      iapply ((runLast c (grid0.coords t) _ _ _ _ _ _ _ _ _ _ _ _ hf hl (iblk m c 0 t) (iblk m c 1 t) (accN m c (t.val - 1)).1 (accN m c (t.val - 1)).2).2 Set.univ _)
      isplitl [H0]; · iexact H0
      isplitl [H1]; · iexact H1
      isplitl [H6]; · iexact H6
      isplitl [H7]; · iexact H7
      isplitl [H2]; · iexists _; iexact H2
      isplitl [H3]; · iexists _; iexact H3
      iintro ⟨H0, H1, ⟨%e6, H6⟩, ⟨%e7, H7⟩, ⟨%e4, H2⟩, ⟨%e5, H3⟩⟩
      isplitl [H6 H7 Hoth]
      · isplitr [Hoth]
        · isplitl [H6]
          · unfold owns; iexists _; isplitr
            swap; · iexact H6
            ipureintro; exact last_sum c _ _ _ _ _ _ _ _ _ _ _ _ _ hf hl _ _ _ _ _ _
          · unfold owns; iexists _; isplitr
            swap; · iexact H7
            ipureintro; exact last_tot c _ _ _ _ _ _ _ _ _ _ _ _ _ hf hl _ _ _ _ _ _
        · iexact Hoth
      isplitl [Ho]; · iexact Ho
      isplitl [H0]; · iexact H0
      isplitl [H1]; · iexact H1
      isplitl [H2]
      · unfold owns; iexists _; isplitr
        swap; · iexact H2
        ipureintro; exact last_out_sum c _ _ _ _ _ _ _ _ _ _ _ _ _ hf hl _ _ _ _ _ _
      · unfold owns; iexists _; isplitr
        swap; · iexact H3
        ipureintro; exact last_out_tot c _ _ _ _ _ _ _ _ _ _ _ _ _ hf hl _ _ _ _ _ _
    · -- a middle point
      have hl : ¬isLast (grid0.coords t) := fun h => h4 ((isLast_iff t).mp h)
      have hfl2 : (cfg0.win 2).flush t = false := Bool.eq_false_iff.mpr fun h => h4 ((flush0_2 t).mp h)
      have hfl3 : (cfg0.win 3).flush t = false := Bool.eq_false_iff.mpr fun h => h4 ((flush0_3 t).mp h)
      rw [Dat.leavesExact_idle _ 2 t (idle_of_not_last 2 (.inl rfl) _ hl) hfl2, Dat.leavesExact_idle _ 3 t (idle_of_not_last 3 (.inr rfl) _ hl) hfl3]
      iintro ⟨⟨⟨H6, H7⟩, Hoth⟩, Ho, ⟨%d0, H0⟩, ⟨%d1, H1⟩, H2, H3⟩
      iapply ((runMid c (grid0.coords t) _ _ _ _ _ _ _ _ _ _ _ _ hf hl (iblk m c 0 t) (iblk m c 1 t) (accN m c (t.val - 1)).1 (accN m c (t.val - 1)).2).2 Set.univ _)
      isplitl [H0]; · iexact H0
      isplitl [H1]; · iexact H1
      isplitl [H6]; · iexact H6
      isplitl [H7]; · iexact H7
      iintro ⟨H0, H1, ⟨%e6, H6⟩, ⟨%e7, H7⟩⟩
      isplitl [H6 H7 Hoth]
      · isplitr [Hoth]
        · isplitl [H6]
          · unfold owns; iexists _; isplitr
            swap; · iexact H6
            ipureintro; exact mid_sum c _ _ _ _ _ _ _ _ _ _ _ _ _ hf hl _ _ _ _ _ _
          · unfold owns; iexists _; isplitr
            swap; · iexact H7
            ipureintro; exact mid_tot c _ _ _ _ _ _ _ _ _ _ _ _ _ hf hl _ _ _ _ _ _
        · iexact Hoth
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m c) (defs₀ (F := F)) Variants.none () Set.univ := fun t => by
  rw [bigSep_W0, bigSep_W0]
  exact sound_body m c t

end Cert.KernelIdeal.Reduce

end
-- ==== Proof.AddRuns.lean ====
/- The add kernel's body, run once. -/
import proofs.«119674_j41747082117850_2_alg».proof.Proof.Gen.KernelIdeal.Launch
import proofs.«119674_j41747082117850_2_alg».proof.Proof.Gen.KernelIdeal.Skeleton
import proofs.«119674_j41747082117850_2_alg».proof.Proof.Gen.KernelIdeal.Points

import Idealize.ShloMosaic.Lib.Pipeline.FrameBody
import Idealize.ShloMosaic.Lib.Ring
import Idealize.ShloMosaic.Lib.Tactic

set_option maxRecDepth 16384

noncomputable section

namespace Cert.KernelIdeal.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body: one block of rows plus the spread correction row

From a block of the re-laid input and the one-row correction, the body stores their sum (the row spread down the
block) into the output buffer, which comes in holding anything (a dead load precedes the store). -/

set_option maxHeartbeats 1000000 in
noncomputable def runAdd (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole)
    (x : Vec F S10000x128 .f32) (d : Vec F S1x128 .f32) :
    { L : List (View.Piece (Elt F) S10000x128 .f32) //
      ∀ (E : Set ℕ) (K : PUnit → sProp 𝕄),
        iprop(owns (c : Thread nD τ) a1 fullShare x ∗ owns (c : Thread nD τ) a2 fullShare d
            ∗ (∃ e, owns (c : Thread nD τ) a3 fullShare e)
            ∗ (iprop(owns (c : Thread nD τ) a1 fullShare x ∗ owns (c : Thread nD τ) a2 fullShare d
                ∗ (∃ f, a3.view.loc (c : Thread nD τ) ↦[a3.view.set]{fullShare} a3.view.writes (Elt F) f L)) -∗ K ⟨⟩))
          ⊢ wp frame (wpE (defs₀ (F := F)) Variants.none c none) E (cc1__add_kernel i a1 h1 a2 h2 a3 h3) K } := by
  refine ⟨?_, fun E K => ?run⟩
  case run =>
    simp only [cc1__add_kernel_eq_skeleton]; unfold cc1__add_kernel_skel
    unfold owns
    iintro ⟨⟨%f1, %hf1, H1⟩, ⟨%f2, %hf2, H2⟩, ⟨%e3, %f3, -, H3⟩, Hk⟩
    obtain rfl := h1.eq_unread hf1
    obtain rfl := h2.eq_unread hf2
    sl_exec
    sl_step
    iapply Hk
    isplitl [H1]
    · iexists _; isplitr; · ipureintro; exact h1.read_unread _
      iexact H1
    isplitl [H2]
    · iexists _; isplitr; · ipureintro; exact h2.read_unread _
      iexact H2
    iexists _; iexact H3

end Cert.KernelIdeal.Add

end
-- ==== Proof.AddLeaves.lean ====
/- What the add kernel's body leaves in its output buffer: the body's own arithmetic of what it loaded. -/
import proofs.«119674_j41747082117850_2_alg».proof.Proof.AddRuns
import Idealize.ShloMosaic.Lib.Pipeline.Value

set_option maxRecDepth 16384

noncomputable section

namespace Cert.KernelIdeal.Add

open Cert.KernelIdeal Cert.KernelIdeal.Gen
open Idealize.ShloMosaic Idealize.ShloMosaic.TcCoe Idealize.ShloMosaic.Tactic
open Idealize.SL Idealize.SL.Sem

variable {F : FTy → Type} [FloatOps F]

/-- Every store and load of the body goes through a buffer's whole rectangle: offset zero on each axis. -/
theorem off2 : (![0, 0] : Fin 2 → ℕ) = fun _ => 0 := by funext a; fin_cases a <;> rfl

/-- The output buffer after the body: the block plus the correction row spread down it. -/
theorem add_out (c : Dev nD) (i : grid1.Coords)
    (a1 : Memref sig .tc .vmem S10000x128 .f32) (h1 : a1.IsWhole) (a2 : Memref sig .tc .vmem S1x128 .f32) (h2 : a2.IsWhole)
    (a3 : Memref sig .tc .vmem S10000x128 .f32) (h3 : a3.IsWhole)
    (x : Vec F S10000x128 .f32) (d : Vec F S1x128 .f32)
    (v : View sig .tc .vmem S10000x128 .f32) (f : v.ty.Contents (Elt F)) :
    v.read (Elt F) (v.writes (Elt F) f (runAdd c i a1 h1 a2 h2 a3 h3 x d).1) = k1_pay1 x d := by
  rw [View.read_writes_eq_canon _ _ _ (View.cover_of_tiledL _ S10000x128.size (by sl_kernel_rfl))]
  unfold runAdd; dsimp only; sl_unfold_words
  simp only [View.canon_unit_zero (S := S10000x128) off2, View.readAt_eq_ld, Memref.IsWhole.read_unread,
    View.ld_unit_zero (S := S10000x128) off2, View.ld_unit_zero (S := S1x128) off2]

end Cert.KernelIdeal.Add

end
-- ==== Proof.AddData.lean ====
/- The add region's proof data: what each of its 25 grid points finds and leaves.

   The region walks the re-laid input in 25 blocks of 10000 rows; at every point it writes the block plus the
   one-row correction (spread down the block) to the same block of the result. -/
import proofs.«119674_j41747082117850_2_alg».proof.Proof.AddLeaves
import Idealize.ShloMosaic.Lib.Pipeline.Frame
import Idealize.ShloMosaic.Lib.Pipeline.FrameBody

set_option maxRecDepth 16384

noncomputable section

namespace Cert.KernelIdeal.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Every buffer as the region finds it (the host operations before it have run).
variable (Vent : (c : Dev nD) → (b : Ref sig .tc) → Buf (Elt F) ((c : Thread nD τ).loc b))

/-- Window `w`'s block at point `t`, read off its array at entry. -/
def iblk (c : Dev nD) (w : Fin cfg1.W) (t : Fin cfg1.N) : ((cfg1.win w).xblock (cfg1.grid.coords t)).Idx → Elt F (cfg1.win w).elt :=
  ((cfg1.win w).blk t).view.read (Elt F) (Vent c (Pipeline.arrRef spec1 w))

/-- The invariant between points: the core's scoped buffers that this region stages nothing in, at anything. -/
abbrev inv (c : Dev nD) : sProp 𝕄 :=
  Pipeline.scopedRest (Ix := Unit) (Name := ℕ) (U := UR sig nD τ) (Lvl := ℕ) (Val := Elt F) spec1 c

/-- On core `c`: the arrays as the region finds them; after the body at point `t` each input's buffer at its block and
    the result's at the block plus the spread correction row; nothing owed; full shares. -/
def dats (c : Dev nD) : Dat τ (Elt F) Unit ℕ (UR sig nD τ) ℕ cfg1 c where
  A w := Vent c (Pipeline.arrRef spec1 w)
  after w t := match w with
    | ⟨0, _⟩ => iblk Vent c 0 t
    | ⟨1, _⟩ => iblk Vent c 1 t
    | ⟨2, _⟩ => k1_pay1 (iblk Vent c 0 t) (iblk Vent c 1 t)
  Φ _ := inv c
  q _ := fullShare
  owed _ := 0

theorem A_eq (c : Dev nD) (w : Fin cfg1.W) : (dats Vent c).A w = Vent c (Pipeline.arrRef spec1 w) := by dsimp only [dats]
theorem after_0 (c : Dev nD) (t : Fin cfg1.N) : (dats Vent c).after 0 t = iblk Vent c 0 t := by dsimp only [dats]
theorem after_1 (c : Dev nD) (t : Fin cfg1.N) : (dats Vent c).after 1 t = iblk Vent c 1 t := by dsimp only [dats]
theorem after_2 (c : Dev nD) (t : Fin cfg1.N) : (dats Vent c).after 2 t = k1_pay1 (iblk Vent c 0 t) (iblk Vent c 1 t) := by dsimp only [dats]

/-- Each input's current staging buffer holds its block at every point, fetched there or not (the correction row is
    fetched once, at the first point, and its block never moves). -/
theorem before_0 (c : Dev nD) (t : Fin cfg1.N) (d) : (dats Vent c).before 0 t d = iblk Vent c 0 t :=
  ((dats Vent c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats Vent c).before 1 t d = iblk Vent c 1 t :=
  ((dats Vent c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

set_option maxHeartbeats 800000 in
/-- The body at any point: the inputs' buffers hold their blocks, the run applies, and the result's buffer ends at the
    sum. The invariant passes through unread; the core owes nothing throughout. -/
theorem sound_body (c : Dev nD) (t : Fin cfg1.N) :
    (iprop((dats Vent c).Φ t.castSucc ∗ (dats Vent c).owesAt () t.castSucc
      ∗ (∃ d, owns (c : Thread nD τ) (st1_0 t) fullShare ((dats Vent c).before 0 t d))
      ∗ (∃ d, owns (c : Thread nD τ) (st1_1 t) fullShare ((dats Vent c).before 1 t d))
      ∗ (∃ d, owns (c : Thread nD τ) (st1_2 t) fullShare ((dats Vent c).before 2 t d))) : sProp 𝕄)
    ⊢ wp frame (wpE (defs₀ (F := F)) Variants.none c none) Set.univ (bodyAt1 t) (fun _ =>
      iprop((dats Vent c).Φ t.succ ∗ (dats Vent c).owesAt () t.succ
        ∗ owns (c : Thread nD τ) (st1_0 t) fullShare ((dats Vent c).after 0 t)
        ∗ owns (c : Thread nD τ) (st1_1 t) fullShare ((dats Vent c).after 1 t)
        ∗ owns (c : Thread nD τ) (st1_2 t) fullShare ((dats Vent c).after 2 t))) := by
  unfold bodyAt1
  simp only [before_0, before_1]
  rw [show (dats Vent c).owesAt () t.succ = (dats Vent c).owesAt () t.castSucc from rfl,
    show (dats Vent c).Φ t.succ = (dats Vent c).Φ t.castSucc from rfl, after_0, after_1, after_2]
  iintro ⟨HΦ, Ho, ⟨%d0, H0⟩, ⟨%d1, H1⟩, ⟨%d2, H2⟩⟩
  iapply ((runAdd c (grid1.coords t) _ _ _ _ _ _ (iblk Vent c 0 t) (iblk Vent c 1 t)).2 Set.univ _)
  isplitl [H0]; · iexact H0
  isplitl [H1]; · iexact H1
  isplitl [H2]; · iexists _; iexact H2
  iintro ⟨H0, H1, ⟨%e, H2⟩⟩
  isplitl [HΦ]; · iexact HΦ
  isplitl [Ho]; · iexact Ho
  isplitl [H0]; · iexact H0
  isplitl [H1]; · iexact H1
  unfold owns; iexists _; isplitr
  swap; · iexact H2
  ipureintro; exact add_out c _ _ _ _ _ _ _ _ _ _ _

/-- The library's body obligation, at every point. -/
theorem body_obligation (c : Dev nD) : BodyObligation (dats (F := F) Vent c) (defs₀ (F := F)) Variants.none () Set.univ := fun t => by
  rw [bigSep_W1, bigSep_W1]
  exact sound_body Vent c t

end Cert.KernelIdeal.Add

end
-- ==== Proof.Whole.lean ====
/- The whole run of @main: the reduce region, three stretches of host operations, the add region, one more host
   operation — as the pipeline library's list of segments, each entered from what the one before left.

   Between items every unscoped buffer of the core is held at a named valuation: as launched; after the reduce
   region (its two results written back); after each host stretch; after the add region (its result written
   back); after the last reshape. The run ends with every unscoped buffer at the last valuation. -/
import proofs.«119674_j41747082117850_2_alg».proof.Proof.ReduceData
import proofs.«119674_j41747082117850_2_alg».proof.Proof.AddData
import proofs.«119674_j41747082117850_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the reduce region: its arrays at what the pipeline leaves, every other buffer as before. -/
def W1 (c : Dev nD) : Valuation τ sig (Elt F) :=
  Pipeline.withArrays spec0 c (W0 m c) fun w => (Reduce.dats m c).arrAt w cfg0.N
theorem W1_arr (c : Dev nD) (w : Fin cfg0.W) :
    W1 m c (Proc.devRef .tc (Pipeline.arrRef spec0 w)) = (Reduce.dats m c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Reduce.dats m c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After each of the three host stretches between the regions. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev V4 : (c : Dev nD) → (b : Ref sig .tc) → Buf (Elt F) ((c : Thread nD τ).loc b) := fun c b => W4 m c b

/-- After the add region: its arrays at what the pipeline leaves, every other buffer as before. -/
def W5 (c : Dev nD) : Valuation τ sig (Elt F) :=
  Pipeline.withArrays spec1 c (W4 m c) fun w => (Add.dats (V4 m) c).arrAt w cfg1.N
theorem W5_arr (c : Dev nD) (w : Fin cfg1.W) :
    W5 m c (Proc.devRef .tc (Pipeline.arrRef spec1 w)) = (Add.dats (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (Add.dats (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the last reshape: the end. -/
abbrev W6 : Dev nD → Valuation τ sig (Elt F) := fun c => StableHlo.after hostOps2 (W5 m c)

/-! ## The proof data family and the thread state -/

/-- No pipeline has a prefetched table. -/
abbrev adm : (p : Fin 2) → (pcfgs (F := F) p).Adm := fun p => (cfgs p).toPCfg_adm
/-- Each pipeline's proof data, at its region's entry contents. -/
def pdats : (p : Fin 2) → (c : Dev nD) → Dat τ (Elt F) Unit ℕ (UR sig nD τ) ℕ (Pipeline.pin (pcfgs (F := F)) adm p) c
  | ⟨0, _⟩ => fun c => Reduce.dats m c
  | ⟨1, _⟩ => fun c => Add.dats (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's `owes`, at nothing. -/
abbrev R (c : Dev nD) : sProp 𝕄 := iprop(∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option maxHeartbeats 1600000 in
set_option backward.isDefEq.respectTransparency.types false in
/-- THE REDUCE REGION: entered from every unscoped buffer at `W0`, left at `W1`. Its arrays are split out of the
    unscoped buffers and put back at the exit contents; the scoped rest enters the invariant with the two scratch
    buffers at anything and comes back out of it the same way; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reduce.body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Reduce.inv m c 0 from rfl]
    have e := scopedRest0_eq (Ix := Unit) (Val := Elt F) (Name := ℕ) (U := UR sig nD τ) (Lvl := ℕ) c
    rw [show (Pipeline.scopedRest (Pipeline.pin (pcfgs (F := F)) adm 0).spec c : sProp 𝕄) = _ from e]
    unfold Reduce.inv Reduce.sums Reduce.others
    rw [if_pos (Fin.val_zero _)]
    simp only [owns_whole_eq]
    iintro ⟨-, -, ⟨%f6, H6⟩, ⟨%f7, H7⟩, Hr⟩
    isplitr [Hr]
    · isplitl [H6]
      · iexists f6; iexists f6; isplitr; · ipureintro; rfl
        iexact H6
      · iexists f7; iexists f7; isplitr; · ipureintro; rfl
        iexact H7
    · iexact Hr
  hout c := by
    rw [Pipeline.ownSems0_none, show (pdats m 0 c).Φ (Fin.last _) = Reduce.inv m c (Fin.last _) from rfl]
    have e := scopedRest0_eq (Ix := Unit) (Val := Elt F) (Name := ℕ) (U := UR sig nD τ) (Lvl := ℕ) c
    rw [show (Pipeline.scopedRest (Pipeline.pin (pcfgs (F := F)) adm 0).spec c : sProp 𝕄) = _ from e]
    unfold Reduce.inv Reduce.others
    iintro ⟨Hs, Hr⟩
    ihave Hs' := (Reduce.sums_any m c (Fin.last _)) $$ Hs
    simp only [owns_whole_eq]
    icases Hs' with ⟨⟨%d6, %f6, -, H6⟩, ⟨%d7, %f7, -, H7⟩⟩
    isplitr; · iempintro
    isplitr; · iempintro
    isplitl [H6]; · iexists f6; iexact H6
    isplitl [H7]; · iexists f7; iexact H7
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 1600000 in
set_option backward.isDefEq.respectTransparency.types false in
/-- THE ADD REGION: entered from every unscoped buffer at `W4`, left at `W5`; the scoped rest is its invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Add.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(emp)
  Y c := iprop(emp)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Add.inv c from rfl]
    iintro ⟨-, -, Hr⟩
    iexact Hr
  hout c := by
    rw [Pipeline.ownSems0_none, show (pdats m 1 c).Φ (Fin.last _) = Add.inv c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)) ]

/-- @main IS the run of the segments. -/
theorem main_run (c : Dev nD) : main (F := F) c = Pipeline.Seg.run (segs m) := by
  rw [main_chain c, Pipeline.Seg.run_eq_chain]; rfl

set_option maxHeartbeats 1600000 in
set_option backward.isDefEq.respectTransparency.types false in
/-- THE RUN. At the compiled mesh, from any memory with zero counters, every weakly fair execution of @main on the
    TensorCores terminates, nothing faulting, and every final state holds every unscoped buffer of every core at the
    last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W6 m c b)
    (hfin := fun c s' => by
      iintro ⟨Hh, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Whole

end
-- ==== Proof.Frames.lean ====
/- The arguments end as launched: read off the last valuation of the whole run. No host operation writes an argument;
   the reduce region stages the first two as input windows, which the pipeline leaves as it found them, and neither
   region touches the other two. -/
import proofs.«119674_j41747082117850_2_alg».proof.Proof.Whole

set_option maxRecDepth 16384

noncomputable section

namespace Cert.KernelIdeal.Whole

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- A buffer no host stretch writes and that is no array of the add region is, at the end, what it was after the reduce
    region. -/
theorem W6_eq_W1 (c : Dev nD) (r : Ref sig .tc) (h2 : r ∉ hostOps2_W) (h5 : ∀ w, Pipeline.arrRef spec1 w ≠ r)
    (h12 : r ∉ hostOps1_2_W) (h11 : r ∉ hostOps1_1_W) (h1 : r ∉ hostOps1_W) :
    W6 m c (Proc.devRef .tc r) = W1 m c (Proc.devRef .tc r) :=
  (StableHlo.after_of_writes_sub hostOps2 (W5 m c) hostOps2_writes h2).trans <|
  (W5_of_ne m c r h5).trans <|
  (StableHlo.after_of_writes_sub hostOps1_2 (W3 m c) hostOps1_2_writes h12).trans <|
  (StableHlo.after_of_writes_sub hostOps1_1 (W2 m c) hostOps1_1_writes h11).trans <|
  (StableHlo.after_of_writes_sub hostOps1 (W1 m c) hostOps1_writes h1)

theorem spec1_ne (r : Ref sig .tc) (h : r ≠ main_v12 ∧ r ≠ main_v15 ∧ r ≠ main_v16) : ∀ w, Pipeline.arrRef spec1 w ≠ r := by
  intro w
  match w with
  | ⟨0, _⟩ => exact fun e => h.1 e.symm
  | ⟨1, _⟩ => exact fun e => h.2.1 e.symm
  | ⟨2, _⟩ => exact fun e => h.2.2 e.symm

theorem spec0_ne (r : Ref sig .tc) (h : r ≠ main_arg0 ∧ r ≠ main_arg1 ∧ r ≠ main_v0_0 ∧ r ≠ main_v0_1) : ∀ w, Pipeline.arrRef spec0 w ≠ r := by
  intro w
  match w with
  | ⟨0, _⟩ => exact fun e => h.1 e.symm
  | ⟨1, _⟩ => exact fun e => h.2.1 e.symm
  | ⟨2, _⟩ => exact fun e => h.2.2.1 e.symm
  | ⟨3, _⟩ => exact fun e => h.2.2.2 e.symm

theorem W6_arg0 (c : Dev nD) : W6 m c (Proc.devRef .tc main_arg0) = m ((c : Thread nD τ).loc main_arg0) :=
  (W6_eq_W1 m c main_arg0 (by decide) (spec1_ne _ (by decide)) (by decide) (by decide) (by decide)).trans <|
  (W1_arr m c 0).trans ((Reduce.dats m c).arrAt_in 0 rfl _)
theorem W6_arg1 (c : Dev nD) : W6 m c (Proc.devRef .tc main_arg1) = m ((c : Thread nD τ).loc main_arg1) :=
  (W6_eq_W1 m c main_arg1 (by decide) (spec1_ne _ (by decide)) (by decide) (by decide) (by decide)).trans <|
  (W1_arr m c 1).trans ((Reduce.dats m c).arrAt_in 1 rfl _)
theorem W6_arg2 (c : Dev nD) : W6 m c (Proc.devRef .tc main_arg2) = m ((c : Thread nD τ).loc main_arg2) :=
  (W6_eq_W1 m c main_arg2 (by decide) (spec1_ne _ (by decide)) (by decide) (by decide) (by decide)).trans <|
  (W1_of_ne m c main_arg2 (spec0_ne _ (by decide)))
theorem W6_arg3 (c : Dev nD) : W6 m c (Proc.devRef .tc main_arg3) = m ((c : Thread nD τ).loc main_arg3) :=
  (W6_eq_W1 m c main_arg3 (by decide) (spec1_ne _ (by decide)) (by decide) (by decide) (by decide)).trans <|
  (W1_of_ne m c main_arg3 (spec0_ne _ (by decide)))

/-- THE FRAME, at any float values: every weakly fair execution of @main terminates, nothing faulting, and every
    final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_arg0 m c),
     (h c _ (mem_uc main_arg1 (by decide))).trans (W6_arg1 m c),
     (h c _ (mem_uc main_arg2 (by decide))).trans (W6_arg2 m c),
     (h c _ (mem_uc main_arg3 (by decide))).trans (W6_arg3 m c)⟩) (run m ρ)

end Cert.KernelIdeal.Whole

end
-- ==== Proof.ReduceFinal.lean ====
/- The reduce region's two results after the region, as whole arrays: each row is the matching running sum at the
   last point of its half, because the write-backs at those two points cover the result. -/
import proofs.«119674_j41747082117850_2_alg».proof.Proof.ReduceData
import Idealize.ShloMosaic.Lib.Pipeline.Value
import Idealize.ShloMosaic.Lib.ValueIdx

set_option maxRecDepth 16384

noncomputable section

namespace Cert.KernelIdeal.Reduce

open Cert.KernelIdeal Cert.KernelIdeal.Gen
open Idealize.ShloMosaic Idealize.ShloMosaic.TcCoe ValueIdx
open Idealize.SL Idealize.SL.Sem
open Idealize.ShloMosaic.Pipeline (Dat)

variable {F : FTy → Type} [FloatOps F]
variable (m : (ℓ : Loc nD τ sig) → Buf (Elt F) ℓ)

/-! ## Where the two result windows' blocks sit, decided over the grid

Both results have one row per half; point t writes back row t / 5 (at the last point of the half). -/

theorem idx2_facts : ∀ t : Fin cfg0.N, win0_2.index t 0 = t.val / 5 ∧ win0_2.index t 1 = 0 ∧ win0_2.index t 2 = 0 :=
  (by decide +kernel : ∀ t : Fin grid0.N, win0_2.index t 0 = t.val / 5 ∧ win0_2.index t 1 = 0 ∧ win0_2.index t 2 = 0)
theorem idx3_facts : ∀ t : Fin cfg0.N, win0_3.index t 0 = t.val / 5 ∧ win0_3.index t 1 = 0 ∧ win0_3.index t 2 = 0 :=
  (by decide +kernel : ∀ t : Fin grid0.N, win0_3.index t 0 = t.val / 5 ∧ win0_3.index t 1 = 0 ∧ win0_3.index t 2 = 0)
theorem xs2_facts : ∀ t : Fin cfg0.N, win0_2.xsize (grid0.coords t) 0 = 1 ∧ win0_2.xsize (grid0.coords t) 1 = 1 ∧ win0_2.xsize (grid0.coords t) 2 = 32 :=
  (by decide +kernel : ∀ t : Fin grid0.N, win0_2.xsize (grid0.coords t) 0 = 1 ∧ win0_2.xsize (grid0.coords t) 1 = 1 ∧ win0_2.xsize (grid0.coords t) 2 = 32)
theorem xs3_facts : ∀ t : Fin cfg0.N, win0_3.xsize (grid0.coords t) 0 = 1 ∧ win0_3.xsize (grid0.coords t) 1 = 1 ∧ win0_3.xsize (grid0.coords t) 2 = 1 :=
  (by decide +kernel : ∀ t : Fin grid0.N, win0_3.xsize (grid0.coords t) 0 = 1 ∧ win0_3.xsize (grid0.coords t) 1 = 1 ∧ win0_3.xsize (grid0.coords t) 2 = 1)

/-! ## The two results as whole arrays -/

/-- The first result: row h holds the first running sum after the last point of half h. -/
def G2 (c : Dev nD) : Buf (Elt F) ((c : Thread nD τ).loc main_v0_0) :=
  fun (i : S2x1x32.Idx) => (k0_pay5 (accN m c (5 * (i 0).val + 4)).1 (ix3 (0 : Fin 1) (0 : Fin 1) (i 2)) : Elt F .f32)
/-- The second result: row h holds the second running sum after the last point of half h. -/
def G3 (c : Dev nD) : Buf (Elt F) ((c : Thread nD τ).loc main_v0_1) :=
  fun (i : S2x1x1.Idx) => (k0_pay6 (accN m c (5 * (i 0).val + 4)).2 (ix3 (0 : Fin 1) (0 : Fin 1) (i 2)) : Elt F .f32)

/-- What a write-back of the first result writes is its row of `G2`. -/
theorem flushed_eq2 (c : Dev nD) (t : Fin cfg0.N) (hf : (cfg0.win 2).flush t = true) :
    (dats m c).flushed 2 t = ((cfg0.win 2).blk t).view.read (Elt F) (G2 m c) := by
  have h4 : t.val % 5 = 4 := (flush0_2 t).mp hf
  show (cfg0.win 2).cut (grid0.coords t) ((dats m c).after 2 t) = _
  rw [after_2]
  funext y
  have hy0 : (y 0).val < 1 := (y 0).isLt
  have hy1 : (y 1).val < 1 := (y 1).isLt
  have e0 : ((((cfg0.win 2).blk t).view.emb y) 0).val = t.val / 5 := by
    show win0_2.index t 0 * 1 + 1 * (y 0).val = t.val / 5
    rw [(idx2_facts t).1]; omega
  have e2 : ((((cfg0.win 2).blk t).view.emb y) 2).val = (y 2).val := by
    show win0_2.index t 2 * 32 + 1 * (y 2).val = (y 2).val
    rw [(idx2_facts t).2.2]; omega
  show k0_pay5 (accN m c t.val).1 y
    = k0_pay5 (accN m c (5 * ((((cfg0.win 2).blk t).view.emb y) 0).val + 4)).1 (ix3 (0 : Fin 1) (0 : Fin 1) ((((cfg0.win 2).blk t).view.emb y) 2))
  rw [e0, show 5 * (t.val / 5) + 4 = t.val from by omega]
  exact congrArg (k0_pay5 (accN m c t.val).1) (funext fun a => Fin.ext (by
    match a with
    | ⟨0, _⟩ => show (y 0).val = 0; omega
    | ⟨1, _⟩ => show (y 1).val = 0; omega
    | ⟨2, _⟩ => exact e2.symm))

/-- What a write-back of the second result writes is its row of `G3`. -/
theorem flushed_eq3 (c : Dev nD) (t : Fin cfg0.N) (hf : (cfg0.win 3).flush t = true) :
    (dats m c).flushed 3 t = ((cfg0.win 3).blk t).view.read (Elt F) (G3 m c) := by
  have h4 : t.val % 5 = 4 := (flush0_3 t).mp hf
  show (cfg0.win 3).cut (grid0.coords t) ((dats m c).after 3 t) = _
  rw [after_3]
  funext y
  have hy0 : (y 0).val < 1 := (y 0).isLt
  have hy1 : (y 1).val < 1 := (y 1).isLt
  have e0 : ((((cfg0.win 3).blk t).view.emb y) 0).val = t.val / 5 := by
    show win0_3.index t 0 * 1 + 1 * (y 0).val = t.val / 5
    rw [(idx3_facts t).1]; omega
  have e2 : ((((cfg0.win 3).blk t).view.emb y) 2).val = (y 2).val := by
    show win0_3.index t 2 * 1 + 1 * (y 2).val = (y 2).val
    rw [(idx3_facts t).2.2]; omega
  show k0_pay6 (accN m c t.val).2 y
    = k0_pay6 (accN m c (5 * ((((cfg0.win 3).blk t).view.emb y) 0).val + 4)).2 (ix3 (0 : Fin 1) (0 : Fin 1) ((((cfg0.win 3).blk t).view.emb y) 2))
  rw [e0, show 5 * (t.val / 5) + 4 = t.val from by omega]
  exact congrArg (k0_pay6 (accN m c t.val).2) (funext fun a => Fin.ext (by
    match a with
    | ⟨0, _⟩ => show (y 0).val = 0; omega
    | ⟨1, _⟩ => show (y 1).val = 0; omega
    | ⟨2, _⟩ => exact e2.symm))

/-- The last point of half h. -/
def lastOf (h : ℕ) : Fin cfg0.N := pt (5 * h + 4)
theorem lastOf_val (h : ℕ) (hh : h < 2) : (lastOf h).val = 5 * h + 4 := by
  show (5 * h + 4) % 10 = 5 * h + 4; omega

/-- The two rows of the first result are written back at points 4 and 9: together they cover it. -/
theorem final2 (c : Dev nD) : (dats m c).arrAt 2 cfg0.N = G2 m c :=
  (dats m c).arrAt_eq_of_cover 2 (G2 m c) (flushed_eq2 m c) fun i => by
    have h0 : (i 0 : ℕ) < 2 := (i 0).isLt
    have h1 : (i 1 : ℕ) < 1 := (i 1).isLt
    have h2 : (i 2 : ℕ) < 32 := (i 2).isLt
    have hv := lastOf_val (i 0).val h0
    refine ⟨lastOf (i 0).val, (flush0_2 _).mpr (by rw [hv]; omega), ?_⟩
    show i ∈ ((View.whole main_v0_0).slice (win0_2.rect (lastOf (i 0).val))).set
    rw [View.set_slice_whole, Rect.mem_set_unit]
    intro a
    match a with
    | ⟨0, _⟩ =>
      show win0_2.index (lastOf (i 0).val) 0 * win0_2.size 0 ≤ (i 0 : ℕ) ∧ (i 0 : ℕ) < win0_2.index (lastOf (i 0).val) 0 * win0_2.size 0 + win0_2.xsize (grid0.coords (lastOf (i 0).val)) 0
      rw [(idx2_facts _).1, (xs2_facts _).1, hv, show win0_2.size 0 = 1 from rfl]; omega
    | ⟨1, _⟩ =>
      show win0_2.index (lastOf (i 0).val) 1 * win0_2.size 1 ≤ (i 1 : ℕ) ∧ (i 1 : ℕ) < win0_2.index (lastOf (i 0).val) 1 * win0_2.size 1 + win0_2.xsize (grid0.coords (lastOf (i 0).val)) 1
      rw [(idx2_facts _).2.1, (xs2_facts _).2.1]; omega
    | ⟨2, _⟩ =>
      show win0_2.index (lastOf (i 0).val) 2 * win0_2.size 2 ≤ (i 2 : ℕ) ∧ (i 2 : ℕ) < win0_2.index (lastOf (i 0).val) 2 * win0_2.size 2 + win0_2.xsize (grid0.coords (lastOf (i 0).val)) 2
      rw [(idx2_facts _).2.2, (xs2_facts _).2.2]; omega

/-- Likewise the second result. -/
theorem final3 (c : Dev nD) : (dats m c).arrAt 3 cfg0.N = G3 m c :=
  (dats m c).arrAt_eq_of_cover 3 (G3 m c) (flushed_eq3 m c) fun i => by
    have h0 : (i 0 : ℕ) < 2 := (i 0).isLt
    have h1 : (i 1 : ℕ) < 1 := (i 1).isLt
    have h2 : (i 2 : ℕ) < 1 := (i 2).isLt
    have hv := lastOf_val (i 0).val h0
    refine ⟨lastOf (i 0).val, (flush0_3 _).mpr (by rw [hv]; omega), ?_⟩
    show i ∈ ((View.whole main_v0_1).slice (win0_3.rect (lastOf (i 0).val))).set
    rw [View.set_slice_whole, Rect.mem_set_unit]
    intro a
    match a with
    | ⟨0, _⟩ =>
      show win0_3.index (lastOf (i 0).val) 0 * win0_3.size 0 ≤ (i 0 : ℕ) ∧ (i 0 : ℕ) < win0_3.index (lastOf (i 0).val) 0 * win0_3.size 0 + win0_3.xsize (grid0.coords (lastOf (i 0).val)) 0
      rw [(idx3_facts _).1, (xs3_facts _).1, hv, show win0_3.size 0 = 1 from rfl]; omega
    | ⟨1, _⟩ =>
      show win0_3.index (lastOf (i 0).val) 1 * win0_3.size 1 ≤ (i 1 : ℕ) ∧ (i 1 : ℕ) < win0_3.index (lastOf (i 0).val) 1 * win0_3.size 1 + win0_3.xsize (grid0.coords (lastOf (i 0).val)) 1
      rw [(idx3_facts _).2.1, (xs3_facts _).2.1]; omega
    | ⟨2, _⟩ =>
      show win0_3.index (lastOf (i 0).val) 2 * win0_3.size 2 ≤ (i 2 : ℕ) ∧ (i 2 : ℕ) < win0_3.index (lastOf (i 0).val) 2 * win0_3.size 2 + win0_3.xsize (grid0.coords (lastOf (i 0).val)) 2
      rw [(idx3_facts _).2.2, (xs3_facts _).2.2]; omega

end Cert.KernelIdeal.Reduce

end
-- ==== Proof.AddFinal.lean ====
/- The add region's result after the region, as a whole array: row r of the re-laid result is what point r / 10000
   wrote at row r mod 10000 of its block, because every point writes its block back and the 25 blocks cover the array.
   Also: each input block of both regions, read at an index, is the array's entry at the block's offset. -/
import proofs.«119674_j41747082117850_2_alg».proof.Proof.AddData
import proofs.«119674_j41747082117850_2_alg».proof.Proof.ReduceData
import Idealize.ShloMosaic.Lib.Pipeline.Value
import Idealize.ShloMosaic.Lib.ValueIdx

set_option maxRecDepth 16384

noncomputable section

namespace Cert.KernelIdeal.Add

open Cert.KernelIdeal Cert.KernelIdeal.Gen
open Idealize.ShloMosaic Idealize.ShloMosaic.TcCoe ValueIdx
open Idealize.SL Idealize.SL.Sem
open Idealize.ShloMosaic.Pipeline (Dat)

variable {F : FTy → Type} [FloatOps F]
variable (Vent : (c : Dev nD) → (b : Ref sig .tc) → Buf (Elt F) ((c : Thread nD τ).loc b))

theorem N1 : cfg1.N = 25 := N_1

theorem idxO_facts : ∀ t : Fin cfg1.N, win1_2.index t 0 = t.val ∧ win1_2.index t 1 = 0 :=
  (by decide +kernel : ∀ t : Fin grid1.N, win1_2.index t 0 = t.val ∧ win1_2.index t 1 = 0)
theorem xsO_facts : ∀ t : Fin cfg1.N, win1_2.xsize (grid1.coords t) 0 = 10000 ∧ win1_2.xsize (grid1.coords t) 1 = 128 :=
  (by decide +kernel : ∀ t : Fin grid1.N, win1_2.xsize (grid1.coords t) 0 = 10000 ∧ win1_2.xsize (grid1.coords t) 1 = 128)
theorem idxX_facts : ∀ t : Fin cfg1.N, win1_0.index t 0 = t.val ∧ win1_0.index t 1 = 0 :=
  (by decide +kernel : ∀ t : Fin grid1.N, win1_0.index t 0 = t.val ∧ win1_0.index t 1 = 0)
theorem idxD_facts : ∀ t : Fin cfg1.N, win1_1.index t 0 = 0 ∧ win1_1.index t 1 = 0 :=
  (by decide +kernel : ∀ t : Fin grid1.N, win1_1.index t 0 = 0 ∧ win1_1.index t 1 = 0)

/-- The point whose block holds row r. -/
def ptOfRow (r : ℕ) : Fin cfg1.N := ⟨(r / 10000) % 25, lt_of_lt_of_eq (Nat.mod_lt _ (by decide)) N1.symm⟩
theorem ptOfRow_val (r : ℕ) (hr : r < 250000) : (ptOfRow r).val = r / 10000 := by
  show (r / 10000) % 25 = r / 10000; omega

/-- The result as a whole array. -/
def Gout (c : Dev nD) : Buf (Elt F) ((c : Thread nD τ).loc main_v16) :=
  fun (i : S250000x128.Idx) =>
    (k1_pay1 (iblk Vent c 0 (ptOfRow (i 0).val)) (iblk Vent c 1 (ptOfRow (i 0).val))
      (ix2 (⟨(i 0).val % 10000, Nat.mod_lt _ (by decide)⟩ : Fin 10000) (i 1)) : Elt F .f32)

/-- What point t writes back is its block of `Gout`. -/
theorem flushed_eq (c : Dev nD) (t : Fin cfg1.N) (hf : (cfg1.win 2).flush t = true) :
    (dats Vent c).flushed 2 t = ((cfg1.win 2).blk t).view.read (Elt F) (Gout Vent c) := by
  have hN : t.val < 25 := lt_of_lt_of_eq t.isLt N1
  show (cfg1.win 2).cut (grid1.coords t) ((dats Vent c).after 2 t) = _
  rw [after_2]
  funext y
  have hy0 : (y 0).val < 10000 := (y 0).isLt
  have hy1 : (y 1).val < 128 := (y 1).isLt
  have e0 : ((((cfg1.win 2).blk t).view.emb y) 0).val = t.val * 10000 + (y 0).val := by
    show win1_2.index t 0 * 10000 + 1 * (y 0).val = _
    rw [(idxO_facts t).1]; omega
  have e1 : ((((cfg1.win 2).blk t).view.emb y) 1).val = (y 1).val := by
    show win1_2.index t 1 * 128 + 1 * (y 1).val = _
    rw [(idxO_facts t).2]; omega
  have ept : ptOfRow ((((cfg1.win 2).blk t).view.emb y) 0).val = t := Fin.ext (by
    show (((((cfg1.win 2).blk t).view.emb y) 0).val / 10000) % 25 = t.val
    rw [e0]; omega)
  show k1_pay1 (iblk Vent c 0 t) (iblk Vent c 1 t) y
    = k1_pay1 (iblk Vent c 0 (ptOfRow ((((cfg1.win 2).blk t).view.emb y) 0).val)) (iblk Vent c 1 (ptOfRow ((((cfg1.win 2).blk t).view.emb y) 0).val))
        (ix2 (⟨((((cfg1.win 2).blk t).view.emb y) 0).val % 10000, Nat.mod_lt _ (by decide)⟩ : Fin 10000) ((((cfg1.win 2).blk t).view.emb y) 1))
  rw [ept]
  exact congrArg (k1_pay1 (iblk Vent c 0 t) (iblk Vent c 1 t)) (funext fun a => Fin.ext (by
    match a with
    | ⟨0, _⟩ => show (y 0).val = ((((cfg1.win 2).blk t).view.emb y) 0).val % 10000; rw [e0]; omega
    | ⟨1, _⟩ => exact e1.symm))

/-- The 25 blocks cover the result: it ends holding `Gout`. -/
theorem final (c : Dev nD) : (dats Vent c).arrAt 2 cfg1.N = Gout Vent c :=
  (dats Vent c).arrAt_eq_of_cover 2 (Gout Vent c) (flushed_eq Vent c) fun i => by
    have h0 : (i 0 : ℕ) < 250000 := (i 0).isLt
    have h1 : (i 1 : ℕ) < 128 := (i 1).isLt
    have hv := ptOfRow_val (i 0).val h0
    refine ⟨ptOfRow (i 0).val, flush1_2 _, ?_⟩
    show i ∈ ((View.whole main_v16).slice (win1_2.rect (ptOfRow (i 0).val))).set
    rw [View.set_slice_whole, Rect.mem_set_unit]
    intro a
    match a with
    | ⟨0, _⟩ =>
      show win1_2.index (ptOfRow (i 0).val) 0 * win1_2.size 0 ≤ (i 0 : ℕ) ∧ (i 0 : ℕ) < win1_2.index (ptOfRow (i 0).val) 0 * win1_2.size 0 + win1_2.xsize (grid1.coords (ptOfRow (i 0).val)) 0
      rw [(idxO_facts _).1, (xsO_facts _).1, hv, show win1_2.size 0 = 10000 from rfl]; omega
    | ⟨1, _⟩ =>
      show win1_2.index (ptOfRow (i 0).val) 1 * win1_2.size 1 ≤ (i 1 : ℕ) ∧ (i 1 : ℕ) < win1_2.index (ptOfRow (i 0).val) 1 * win1_2.size 1 + win1_2.xsize (grid1.coords (ptOfRow (i 0).val)) 1
      rw [(idxO_facts _).2, (xsO_facts _).2]; omega

/-! ## The add region's input blocks at an index -/

/-- Row r of point t's block of the re-laid input is row t·10000 + r of the array. -/
theorem iblk0_apply (c : Dev nD) (t : Fin cfg1.N) (r : Fin 10000) (l : Fin 128) (h : t.val * 10000 + r.val < 250000) :
    iblk Vent c 0 t (ix2 r l) = (Vent c main_v12 : S250000x128.Idx → Elt F .f32) (ix2 (⟨t.val * 10000 + r.val, h⟩ : Fin 250000) l) := by
  show (Vent c main_v12 : S250000x128.Idx → Elt F .f32) (((cfg1.win 0).blk t).view.emb (ix2 r l)) = _
  refine congrArg _ (funext fun a => Fin.ext ?_)
  match a with
  | ⟨0, _⟩ => show win1_0.index t 0 * 10000 + 1 * r.val = t.val * 10000 + r.val; rw [(idxX_facts t).1]; omega
  | ⟨1, _⟩ => show win1_0.index t 1 * 128 + 1 * l.val = l.val; rw [(idxX_facts t).2]; omega

/-- Every point's block of the one-row correction is the correction. -/
theorem iblk1_apply (c : Dev nD) (t : Fin cfg1.N) (l : Fin 128) :
    iblk Vent c 1 t (ix2 (0 : Fin 1) l) = (Vent c main_v15 : S1x128.Idx → Elt F .f32) (ix2 (0 : Fin 1) l) := by
  show (Vent c main_v15 : S1x128.Idx → Elt F .f32) (((cfg1.win 1).blk t).view.emb (ix2 (0 : Fin 1) l)) = _
  refine congrArg _ (funext fun a => Fin.ext ?_)
  match a with
  | ⟨0, _⟩ => show win1_1.index t 0 * 1 + 1 * 0 = 0; rw [(idxD_facts t).1]
  | ⟨1, _⟩ => show win1_1.index t 1 * 128 + 1 * l.val = l.val; rw [(idxD_facts t).2]; omega

end Cert.KernelIdeal.Add

namespace Cert.KernelIdeal.Reduce

open Cert.KernelIdeal Cert.KernelIdeal.Gen
open Idealize.ShloMosaic Idealize.ShloMosaic.TcCoe ValueIdx
open Idealize.SL Idealize.SL.Sem

variable {F : FTy → Type} [FloatOps F]
variable (m : (ℓ : Loc nD τ sig) → Buf (Elt F) ℓ)

/-! ## The reduce region's input blocks at an index -/

theorem idxX_facts : ∀ t : Fin cfg0.N, win0_0.index t 0 = t.val ∧ win0_0.index t 1 = 0 :=
  (by decide +kernel : ∀ t : Fin grid0.N, win0_0.index t 0 = t.val ∧ win0_0.index t 1 = 0)
theorem idxW_facts : ∀ t : Fin cfg0.N, win0_1.index t 0 = t.val ∧ win0_1.index t 1 = 0 :=
  (by decide +kernel : ∀ t : Fin grid0.N, win0_1.index t 0 = t.val ∧ win0_1.index t 1 = 0)

/-- Row r of point t's block of the input is row t·100000 + r of the array. -/
theorem iblk0_apply (c : Dev nD) (t : Fin cfg0.N) (r : Fin 100000) (d : Fin 32) (h : t.val * 100000 + r.val < 1000000) :
    iblk m c 0 t (ix2 r d) = (m ((c : Thread nD τ).loc main_arg0) : S1000000x32.Idx → Elt F .f32) (ix2 (⟨t.val * 100000 + r.val, h⟩ : Fin 1000000) d) := by
  show (m ((c : Thread nD τ).loc main_arg0) : S1000000x32.Idx → Elt F .f32) (((cfg0.win 0).blk t).view.emb (ix2 r d)) = _
  refine congrArg _ (funext fun a => Fin.ext ?_)
  match a with
  | ⟨0, _⟩ => show win0_0.index t 0 * 100000 + 1 * r.val = t.val * 100000 + r.val; rw [(idxX_facts t).1]; omega
  | ⟨1, _⟩ => show win0_0.index t 1 * 32 + 1 * d.val = d.val; rw [(idxX_facts t).2]; omega

/-- Row r of point t's block of the weights is row t·100000 + r of the column. -/
theorem iblk1_apply (c : Dev nD) (t : Fin cfg0.N) (r : Fin 100000) (h : t.val * 100000 + r.val < 1000000) :
    iblk m c 1 t (ix2 r (0 : Fin 1)) = (m ((c : Thread nD τ).loc main_arg1) : S1000000x1.Idx → Elt F .f32) (ix2 (⟨t.val * 100000 + r.val, h⟩ : Fin 1000000) (0 : Fin 1)) := by
  show (m ((c : Thread nD τ).loc main_arg1) : S1000000x1.Idx → Elt F .f32) (((cfg0.win 1).blk t).view.emb (ix2 r (0 : Fin 1))) = _
  refine congrArg _ (funext fun a => Fin.ext ?_)
  match a with
  | ⟨0, _⟩ => show win0_1.index t 0 * 100000 + 1 * r.val = t.val * 100000 + r.val; rw [(idxW_facts t).1]; omega
  | ⟨1, _⟩ => show win0_1.index t 1 * 1 + 1 * 0 = 0; rw [(idxW_facts t).2]

end Cert.KernelIdeal.Reduce

end
-- ==== Proof.Glue.lean ====
/- The host operations between and after the two regions, as pure functions of what they read, and the buffers the
   add region and the end of the program read, in their terms.

   From the reduce region's two results n0 (2 × 1 × 32) and n1 (2 × 1 × 1) and the two weight matrices: the column
   sums are n0 summed over its two rows; the total weight is n1 summed over everything; the hidden layer is
   max(((column sums) · aᵀ) / total, 0); the correction row is (hidden) · bᵀ; it is tiled four times into a 128-wide
   row. The input is re-laid from 1000000 × 32 to 250000 × 128 for the add region, and the result re-laid back. -/
import proofs.«119674_j41747082117850_2_alg».proof.Proof.Frames
import proofs.«119674_j41747082117850_2_alg».proof.Proof.ReduceFinal
import proofs.«119674_j41747082117850_2_alg».proof.Proof.AddFinal
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe

variable {F : FTy → Type} [FloatOps F]

/-- The column sums as a 1 × 32 row: the first result summed over its two rows. -/
def gNum (n0 : FVec F S2x1x32 .f32) : FVec F S1x32 .f32 :=
  broadcastInDim S1x32 ![1] bcast_S32_S1x32_1
    (Host.reduceAdd (shapeCast S2x32 n0 shapeCasts_S2x1x32_S2x32) (constant S_ .f32 0x00000000#32) reducesTo_S2x32_S32_d0 h_S_)
/-- The total weight spread over a 1 × 128 row: the second result summed over everything. -/
def gDen (n1 : FVec F S2x1x1 .f32) : FVec F S1x128 .f32 :=
  broadcastInDim S1x128 ![] bcast_S_S1x128 (Host.reduceAdd n1 (constant S_ .f32 0x00000000#32) reducesTo_S2x1x1_S_d0_1_2 h_S_)
/-- The hidden layer. -/
def gHid (n0 : FVec F S2x1x32 .f32) (n1 : FVec F S2x1x1 .f32) (a : FVec F S128x32 .f32) : FVec F S1x128 .f32 :=
  maximumf
    (Host.divf (Host.dotGeneral dot_S1x32_S32x128_S1x128_1_0_0_1_n_n none (gNum n0) (transpose S32x128 [1, 0] a transposes_S128x32_S32x128_1_0)) (gDen n1))
    (broadcastInDim S1x128 ![] bcast_S_S1x128 (constant S_ .f32 0x00000000#32))
/-- The correction row. -/
def gCorr (n0 : FVec F S2x1x32 .f32) (n1 : FVec F S2x1x1 .f32) (a : FVec F S128x32 .f32) (b : FVec F S32x128 .f32) : FVec F S1x32 .f32 :=
  Host.dotGeneral dot_S1x128_S128x32_S1x32_1_0_0_1_n_n none (gHid n0 n1 a) (transpose S128x32 [1, 0] b transposes_S32x128_S128x32_1_0)
/-- A 32-wide row tiled four times into a 128-wide row. -/
def gTile (v : FVec F S1x32 .f32) : FVec F S1x128 .f32 :=
  shapeCast S1x128 (broadcastInDim S1x1x4x32 ![0, 1, 2, 3] bcast_S1x1x1x32_S1x1x4x32_0_1_2_3 (shapeCast S1x1x1x32 v shapeCasts_S1x32_S1x1x1x32)) shapeCasts_S1x1x4x32_S1x128
/-- The input re-laid, four rows to a row. -/
def gRelay (x : FVec F S1000000x32 .f32) : FVec F S250000x128 .f32 := shapeCast S250000x128 x shapeCasts_S1000000x32_S250000x128
/-- And back. -/
def gBack (y : FVec F S250000x128 .f32) : FVec F S1000000x32 .f32 := shapeCast S1000000x32 y shapeCasts_S250000x128_S1000000x32

end Cert.KernelIdeal.Glue

namespace Cert.KernelIdeal.Whole

open Cert.KernelIdeal Cert.KernelIdeal.Gen Cert.KernelIdeal.Glue
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-! ## What the reduce region leaves, by name -/

theorem W1_v0_0 (c : Dev nD) : W1 m c (Proc.devRef .tc main_v0_0) = Reduce.G2 m c :=
  (W1_arr m c 2).trans (Reduce.final2 m c)
theorem W1_v0_1 (c : Dev nD) : W1 m c (Proc.devRef .tc main_v0_1) = Reduce.G3 m c :=
  (W1_arr m c 3).trans (Reduce.final3 m c)
theorem W1_arg0 (c : Dev nD) : W1 m c (Proc.devRef .tc main_arg0) = m ((c : Thread nD τ).loc main_arg0) :=
  (W1_arr m c 0).trans ((Reduce.dats m c).arrAt_in 0 rfl _)
theorem W1_arg2 (c : Dev nD) : W1 m c (Proc.devRef .tc main_arg2) = m ((c : Thread nD τ).loc main_arg2) :=
  W1_of_ne m c main_arg2 (spec0_ne _ (by decide))
theorem W1_arg3 (c : Dev nD) : W1 m c (Proc.devRef .tc main_arg3) = m ((c : Thread nD τ).loc main_arg3) :=
  W1_of_ne m c main_arg3 (spec0_ne _ (by decide))

/-! ## What the add region reads, and what the program returns -/

set_option maxHeartbeats 1600000 in
/-- The one-row correction the add region reads. -/
theorem W4_v15 (c : Dev nD) : (W4 m c (Proc.devRef .tc main_v15) : S1x128.Idx → Elt F .f32)
    = gTile (gCorr (Reduce.G2 m c) (Reduce.G3 m c) (m ((c : Thread nD τ).loc main_arg2)) (m ((c : Thread nD τ).loc main_arg3))) := by
  have e : (W4 m c (Proc.devRef .tc main_v15) : S1x128.Idx → Elt F .f32)
      = gTile (gCorr (W1 m c (Proc.devRef .tc main_v0_0) : S2x1x32.Idx → Elt F .f32) (W1 m c (Proc.devRef .tc main_v0_1) : S2x1x1.Idx → Elt F .f32)
          (W1 m c (Proc.devRef .tc main_arg2) : S128x32.Idx → Elt F .f32) (W1 m c (Proc.devRef .tc main_arg3) : S32x128.Idx → Elt F .f32)) := by
    show StableHlo.after hostOps1_2 (StableHlo.after hostOps1_1 (StableHlo.after hostOps1 (W1 m c))) (Proc.devRef .tc main_v15) = _
    after_results
    rfl
  rw [e, W1_v0_0 m c, W1_v0_1 m c, W1_arg2 m c, W1_arg3 m c]

set_option maxHeartbeats 1600000 in
/-- The re-laid input the add region reads. -/
theorem W4_v12 (c : Dev nD) : (W4 m c (Proc.devRef .tc main_v12) : S250000x128.Idx → Elt F .f32)
    = gRelay (m ((c : Thread nD τ).loc main_arg0)) := by
  have e : (W4 m c (Proc.devRef .tc main_v12) : S250000x128.Idx → Elt F .f32)
      = gRelay (W1 m c (Proc.devRef .tc main_arg0) : S1000000x32.Idx → Elt F .f32) := by
    show StableHlo.after hostOps1_2 (StableHlo.after hostOps1_1 (StableHlo.after hostOps1 (W1 m c))) (Proc.devRef .tc main_v12) = _
    after_results
    rfl
  rw [e, W1_arg0 m c]

/-- The program's result: the add region's result, re-laid back. -/
theorem W6_v17 (c : Dev nD) : (W6 m c (Proc.devRef .tc main_v17) : S1000000x32.Idx → Elt F .f32)
    = gBack (Add.Gout (V4 m) c) := by
  have e : (W6 m c (Proc.devRef .tc main_v17) : S1000000x32.Idx → Elt F .f32)
      = gBack (W5 m c (Proc.devRef .tc main_v16) : S250000x128.Idx → Elt F .f32) := by
    show StableHlo.after hostOps2 (W5 m c) (Proc.devRef .tc main_v17) = _
    after_results
    rfl
  rw [e, show W5 m c (Proc.devRef .tc main_v16) = Add.Gout (V4 m) c from (W5_arr m c 2).trans (Add.final (V4 m) c)]

end Cert.KernelIdeal.Whole

end
-- ==== Proof.LibLeadingAxis.lean ====
/-
  A float sum along the leading axis, and four changes of layout, read at an index, at exact (extended-real) arithmetic.

  A vector sum over axis 0 of an n0 × n1 × n2 array from the zero word, at (b, c), is Σ_a of the entries (a, b, c)
  (sumLead3), and the same one rank lower (sumLead2).  An [a, b] array cast to [a, b, 1] and an [a] array cast to
  [1, 1, a] keep their entries (cast_ab_ab1, cast_a_11a); an [a, b, 1] array broadcast along a new last extent and a
  [1, b, c] array broadcast along a new first extent repeat theirs (bcast_ab1_abc, bcast_1bc_abc).
-/
import Idealize.ShloMosaic.PureOps.Ideal.Laws
import Idealize.ShloMosaic.Lib.Pipeline.Value
import Idealize.ShloMosaic.Lib.ValueIdx

noncomputable section

open scoped BigOperators

namespace Cert.LibLeadingAxis

open Idealize.ShloMosaic Idealize.ShloMosaic.ValueIdx

variable {α : Type}

/-! ## Sums along the leading axis -/

/-- Putting coordinate k back in front of (b, c) gives (k, b, c). -/
theorem lift3 {n0 n1 n2 : ℕ} (h : (⟨3, ![n0, n1, n2]⟩ : Shape).Reduces [0] (⟨2, ![n1, n2]⟩ : Shape)) (b : Fin n1) (c : Fin n2)
    (k : Fin ((⟨3, ![n0, n1, n2]⟩ : Shape).size 0)) : h.lift (ix2 b c) k = ix3 (⟨k.val, k.isLt⟩ : Fin n0) b c := by
  funext d; apply Fin.ext
  fin_cases d <;> rfl

/-- Putting coordinate k back in front of c gives (k, c). -/
theorem lift2 {n0 n1 : ℕ} (h : (⟨2, ![n0, n1]⟩ : Shape).Reduces [0] (⟨1, ![n1]⟩ : Shape)) (c : Fin n1)
    (k : Fin ((⟨2, ![n0, n1]⟩ : Shape).size 0)) : h.lift (ix1 c) k = ix2 (⟨k.val, k.isLt⟩ : Fin n0) c := by
  funext d; apply Fin.ext
  fin_cases d <;> rfl

/-- A sum over the leading axis of an n0 × n1 × n2 array, at (b, c), is the sum of the entries (a, b, c). -/
theorem sumLead3 {n0 n1 n2 : ℕ} (src : FVec Ideal ⟨3, ![n0, n1, n2]⟩ .f32)
    (h : (⟨3, ![n0, n1, n2]⟩ : Shape).Reduces [0] (⟨2, ![n1, n2]⟩ : Shape)) (hφ : FKind.Formats .f32)
    (hacc : (0x00000000#32 : BitVec 32) = FKind.add.neutral .f32 hφ) (b : Fin n1) (c : Fin n2) :
    multiReduction (F := Ideal) .add [0] ⟨2, ![n1, n2]⟩ src 0x00000000#32 h hφ hacc (ix2 b c) = ∑ a : Fin n0, src (ix3 a b c) := by
  refine (Ideal.multiReduction_add_single src 0x00000000#32 h hφ hacc (ix2 b c)).trans ?_
  exact Finset.sum_congr rfl fun k _ => congrArg src (lift3 h b c k)

/-- A sum over the leading axis of an n0 × n1 array, at c, is the sum of the entries (a, c). -/
theorem sumLead2 {n0 n1 : ℕ} (src : FVec Ideal ⟨2, ![n0, n1]⟩ .f32)
    (h : (⟨2, ![n0, n1]⟩ : Shape).Reduces [0] (⟨1, ![n1]⟩ : Shape)) (hφ : FKind.Formats .f32)
    (hacc : (0x00000000#32 : BitVec 32) = FKind.add.neutral .f32 hφ) (c : Fin n1) :
    multiReduction (F := Ideal) .add [0] ⟨1, ![n1]⟩ src 0x00000000#32 h hφ hacc (ix1 c) = ∑ a : Fin n0, src (ix2 a c) := by
  refine (Ideal.multiReduction_add_single src 0x00000000#32 h hφ hacc (ix1 c)).trans ?_
  exact Finset.sum_congr rfl fun k _ => congrArg src (lift2 h c k)

/-! ## Layout changes read at an index -/

/-- An [a, b] array cast to [a, b, 1] reads, at (i, j, u), the operand at (i, j). -/
theorem cast_ab_ab1 {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [1, 1, a] reads, at (u, v, i), the operand at i. -/
theorem cast_a_11a {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- An [a, b, 1] array broadcast to [a, b, c] reads, at (i, j, k), the operand at (i, j, 0). -/
theorem bcast_ab1_abc {a b c : ℕ} (ha : a ≠ 1) (hb : b ≠ 1) (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ => show i.val = if a = 1 then 0 else i.val; rw [if_neg ha]
  | ⟨1, _⟩ => show j.val = if b = 1 then 0 else j.val; rw [if_neg hb]
  | ⟨2, _⟩ => rfl

/-- A [1, b, c] array broadcast to [a, b, c] reads, at (i, j, k), the operand at (0, j, k). -/
theorem bcast_1bc_abc {a b c : ℕ} (hb : b ≠ 1) (hc : c ≠ 1) (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ => show j.val = if b = 1 then 0 else j.val; rw [if_neg hb]
  | ⟨2, _⟩ => show k.val = if c = 1 then 0 else k.val; rw [if_neg hc]

end Cert.LibLeadingAxis

end
-- ==== Proof.GlueRead.lean ====
/-
  The host operations between the two regions, read at an index at the extended reals: the column sums and the total
  weight as finite sums of the reduce region's results, the hidden layer and the correction row as finite sums of
  products (the two matrix products against transposed weights), and the three changes of layout (tiling a 32-wide row
  four times, and re-laying 1000000 × 32 as 250000 × 128 and back) as reads at the row-major position.
-/
import proofs.«119674_j41747082117850_2_alg».proof.Proof.Glue
import Idealize.ShloMosaic.Lib.ValueIdx
import Idealize.ShloMosaic.Lib.ValueLayout
import Idealize.ShloMosaic.Lib.Pipeline.Value
import Idealize.ShloMosaic.PureOps.Ideal.Laws
import proofs.«119674_j41747082117850_2_alg».proof.Proof.LibLeadingAxis

set_option maxRecDepth 16384

noncomputable section

namespace Cert.KernelIdeal.GlueRead

open Cert.KernelIdeal Cert.KernelIdeal.Gen Cert.KernelIdeal.Glue
open Idealize.ShloMosaic Idealize.ShloMosaic.ValueIdx

/-! ## The layout changes, at any float instance -/

section Layout
variable {F : FTy → Type} [FloatOps F]

/-- Entry l of the tiled row is entry l mod 32 of the row. -/
theorem gTile_apply (v : FVec F S1x32 .f32) (l : Fin 128) :
    gTile v (ix2 (0 : Fin 1) l) = v (ix2 (0 : Fin 1) (⟨l.val % 32, Nat.mod_lt _ (by decide)⟩ : Fin 32)) := by
  unfold gTile
  rw [shapeCast_apply _ shapeCasts_S1x1x4x32_S1x128 (ix2 (0 : Fin 1) l)
    (ix4 (0 : Fin 1) (0 : Fin 1) (⟨l.val / 32, by omega⟩ : Fin 4) (⟨l.val % 32, Nat.mod_lt _ (by decide)⟩ : Fin 32)) (by
      rw [Shape.rowMajor_val_four, Shape.rowMajor_val_two]
      show ((0 * 1 + 0) * 4 + l.val / 32) * 32 + l.val % 32 = 0 * 128 + l.val
      omega)]
  rw [broadcastInDim_apply ![0, 1, 2, 3] bcast_S1x1x1x32_S1x1x4x32_0_1_2_3 _ _
    (ix4 (0 : Fin 1) (0 : Fin 1) (0 : Fin 1) (⟨l.val % 32, Nat.mod_lt _ (by decide)⟩ : Fin 32)) (fun a => match a with
      | ⟨0, _⟩ => by show 0 = if (1 : Nat) = 1 then 0 else _; rw [if_pos rfl]
      | ⟨1, _⟩ => by show 0 = if (1 : Nat) = 1 then 0 else _; rw [if_pos rfl]
      | ⟨2, _⟩ => by show 0 = if (1 : Nat) = 1 then 0 else _; rw [if_pos rfl]
      | ⟨3, _⟩ => by show l.val % 32 = if (32 : Nat) = 1 then 0 else l.val % 32; rw [if_neg (by decide)])]
  exact shapeCast_apply v shapeCasts_S1x32_S1x1x1x32 _ _ (by
    rw [Shape.rowMajor_val_four, Shape.rowMajor_val_two]
    show 0 * 32 + l.val % 32 = ((0 * 1 + 0) * 1 + 0) * 32 + l.val % 32
    omega)

/-- Entry (r, l) of the re-laid input is the input at row-major position 128 r + l. -/
theorem gRelay_apply (x : FVec F S1000000x32 .f32) (r : Fin 250000) (l : Fin 128) :
    gRelay x (ix2 r l) = x (ix2 (⟨(r.val * 128 + l.val) / 32, by omega⟩ : Fin 1000000)
      (⟨(r.val * 128 + l.val) % 32, Nat.mod_lt _ (by decide)⟩ : Fin 32)) := by
  unfold gRelay
  exact shapeCast_apply x shapeCasts_S1000000x32_S250000x128 _ _ (by
    rw [Shape.rowMajor_val_two, Shape.rowMajor_val_two]
    show (r.val * 128 + l.val) / 32 * 32 + (r.val * 128 + l.val) % 32 = r.val * 128 + l.val
    omega)

/-- Entry (n, d) of the result re-laid back is the add region's result at row-major position 32 n + d. -/
theorem gBack_apply (y : FVec F S250000x128 .f32) (n : Fin 1000000) (d : Fin 32) :
    gBack y (ix2 n d) = y (ix2 (⟨(n.val * 32 + d.val) / 128, by omega⟩ : Fin 250000)
      (⟨(n.val * 32 + d.val) % 128, Nat.mod_lt _ (by decide)⟩ : Fin 128)) := by
  unfold gBack
  exact shapeCast_apply y shapeCasts_S250000x128_S1000000x32 _ _ (by
    rw [Shape.rowMajor_val_two, Shape.rowMajor_val_two]
    show (n.val * 32 + d.val) / 128 * 128 + (n.val * 32 + d.val) % 128 = n.val * 32 + d.val
    omega)

end Layout

/-! ## The two sums -/

/-- The column sums: entry d is the sum over the two rows of the first result. -/
theorem gNum_apply (n0 : FVec Ideal S2x1x32 .f32) (d : Fin 32) :
    gNum n0 (ix2 (0 : Fin 1) d) = ∑ h : Fin 2, n0 (ix3 h (0 : Fin 1) d) := by
  unfold gNum
  rw [broadcastInDim_apply ![1] bcast_S32_S1x32_1 _ (ix2 (0 : Fin 1) d) (ix1 d) (fun a => match a with
    | ⟨0, _⟩ => by show d.val = if (32 : Nat) = 1 then 0 else d.val; rw [if_neg (by decide)])]
  simp only [Host.reduceAdd, Ideal.hostReduceAdd_def]
  rw [Ideal.hostReduceAdd_single reducesTo_S2x32_S32_d0 (by decide), constant_apply, Ideal.ofBits_zero_f32, zero_add]
  refine Finset.sum_congr rfl fun k _ => ?_
  rw [Cert.LibLeadingAxis.lift2]
  exact shapeCast_apply n0 shapeCasts_S2x1x32_S2x32 _ (ix3 k (0 : Fin 1) d) (by
    rw [Shape.rowMajor_val_three, Shape.rowMajor_val_two]
    show (k.val * 1 + 0) * 32 + d.val = k.val * 32 + d.val
    omega)

/-- The total weight: every entry is the sum over the two rows of the second result. -/
theorem gDen_apply (n1 : FVec Ideal S2x1x1 .f32) (k : Fin 128) :
    gDen n1 (ix2 (0 : Fin 1) k) = ∑ h : Fin 2, n1 (ix3 h (0 : Fin 1) (0 : Fin 1)) := by
  unfold gDen
  rw [broadcastInDim_apply ![] bcast_S_S1x128 _ (ix2 (0 : Fin 1) k) ix0 (fun a => a.elim0)]
  simp only [Host.reduceAdd, Ideal.hostReduceAdd_def]
  rw [Ideal.hostReduceAdd_total reducesTo_S2x1x1_S_d0_1_2 (fun b => b.elim0) n1 _ _, constant_apply,
    Ideal.ofBits_zero_f32, zero_add]
  have hi : ∀ i : S2x1x1.Idx, ix3 (i 0 : Fin 2) (0 : Fin 1) (0 : Fin 1) = i := fun i => funext fun a => match a with
    | ⟨0, _⟩ => rfl
    | ⟨1, _⟩ => Fin.ext (by have h1 : (i 1).val < 1 := (i 1).isLt; show 0 = (i 1).val; omega)
    | ⟨2, _⟩ => Fin.ext (by have h2 : (i 2).val < 1 := (i 2).isLt; show 0 = (i 2).val; omega)
  exact Fintype.sum_equiv (⟨fun (i : S2x1x1.Idx) => (i 0 : Fin 2), fun h => ix3 h (0 : Fin 1) (0 : Fin 1), hi, fun h => rfl⟩ : S2x1x1.Idx ≃ Fin 2) _ _
    (fun i => congrArg n1 (hi i).symm)

/-! ## The two matrix products -/

/-! The operand indices of the two products, coordinate by coordinate: at output index i and contraction coordinate q
    the left operand is read at (i 0, q) and the right at (q, i 1). -/

theorem lhs1_0 (i : S1x128.Idx) (q : dot_S1x32_S32x128_S1x128_1_0_0_1_n_n.contr.Idx) : (dot_S1x32_S32x128_S1x128_1_0_0_1_n_n.lhsIdx i q 0).val = (i 0).val := by
  unfold DotDims.lhsIdx
  rw [dif_neg (show ¬(0 : Fin S1x32.rank) ∈ dot_S1x32_S32x128_S1x128_1_0_0_1_n_n.lhsBatch by decide),
    dif_pos (show (0 : Fin S1x32.rank) ∈ dot_S1x32_S32x128_S1x128_1_0_0_1_n_n.lhsNonContracting by decide)]
  rfl
theorem lhs1_1 (i : S1x128.Idx) (q : dot_S1x32_S32x128_S1x128_1_0_0_1_n_n.contr.Idx) : (dot_S1x32_S32x128_S1x128_1_0_0_1_n_n.lhsIdx i q 1).val = (q ⟨0, by decide⟩).val :=
  dot_S1x32_S32x128_S1x128_1_0_0_1_n_n.lhsIdx_val_of_single rfl i q
theorem rhs1_0 (i : S1x128.Idx) (q : dot_S1x32_S32x128_S1x128_1_0_0_1_n_n.contr.Idx) : (dot_S1x32_S32x128_S1x128_1_0_0_1_n_n.rhsIdx i q 0).val = (q ⟨0, by decide⟩).val :=
  dot_S1x32_S32x128_S1x128_1_0_0_1_n_n.rhsIdx_val_of_single rfl i q
theorem rhs1_1 (i : S1x128.Idx) (q : dot_S1x32_S32x128_S1x128_1_0_0_1_n_n.contr.Idx) : (dot_S1x32_S32x128_S1x128_1_0_0_1_n_n.rhsIdx i q 1).val = (i 1).val := by
  unfold DotDims.rhsIdx
  rw [dif_neg (show ¬(1 : Fin S32x128.rank) ∈ dot_S1x32_S32x128_S1x128_1_0_0_1_n_n.rhsBatch by decide),
    dif_pos (show (1 : Fin S32x128.rank) ∈ dot_S1x32_S32x128_S1x128_1_0_0_1_n_n.rhsNonContracting by decide)]
  rfl

theorem lhs2_0 (i : S1x32.Idx) (q : dot_S1x128_S128x32_S1x32_1_0_0_1_n_n.contr.Idx) : (dot_S1x128_S128x32_S1x32_1_0_0_1_n_n.lhsIdx i q 0).val = (i 0).val := by
  unfold DotDims.lhsIdx
  rw [dif_neg (show ¬(0 : Fin S1x128.rank) ∈ dot_S1x128_S128x32_S1x32_1_0_0_1_n_n.lhsBatch by decide),
    dif_pos (show (0 : Fin S1x128.rank) ∈ dot_S1x128_S128x32_S1x32_1_0_0_1_n_n.lhsNonContracting by decide)]
  rfl
theorem lhs2_1 (i : S1x32.Idx) (q : dot_S1x128_S128x32_S1x32_1_0_0_1_n_n.contr.Idx) : (dot_S1x128_S128x32_S1x32_1_0_0_1_n_n.lhsIdx i q 1).val = (q ⟨0, by decide⟩).val :=
  dot_S1x128_S128x32_S1x32_1_0_0_1_n_n.lhsIdx_val_of_single rfl i q
theorem rhs2_0 (i : S1x32.Idx) (q : dot_S1x128_S128x32_S1x32_1_0_0_1_n_n.contr.Idx) : (dot_S1x128_S128x32_S1x32_1_0_0_1_n_n.rhsIdx i q 0).val = (q ⟨0, by decide⟩).val :=
  dot_S1x128_S128x32_S1x32_1_0_0_1_n_n.rhsIdx_val_of_single rfl i q
theorem rhs2_1 (i : S1x32.Idx) (q : dot_S1x128_S128x32_S1x32_1_0_0_1_n_n.contr.Idx) : (dot_S1x128_S128x32_S1x32_1_0_0_1_n_n.rhsIdx i q 1).val = (i 1).val := by
  unfold DotDims.rhsIdx
  rw [dif_neg (show ¬(1 : Fin S128x32.rank) ∈ dot_S1x128_S128x32_S1x32_1_0_0_1_n_n.rhsBatch by decide),
    dif_pos (show (1 : Fin S128x32.rank) ∈ dot_S1x128_S128x32_S1x32_1_0_0_1_n_n.rhsNonContracting by decide)]
  rfl

/-- The hidden layer: entry k is max((Σ_d (column sum d) · a(k, d)) / total, 0). -/
theorem gHid_apply (n0 : FVec Ideal S2x1x32 .f32) (n1 : FVec Ideal S2x1x1 .f32) (a : FVec Ideal S128x32 .f32) (k : Fin 128) :
    gHid n0 n1 a (ix2 (0 : Fin 1) k)
      = max (Ideal.div (∑ d : Fin 32, gNum n0 (ix2 (0 : Fin 1) d) * a (ix2 k d)) (gDen n1 (ix2 (0 : Fin 1) k))) 0 := by
  unfold gHid
  generalize gNum n0 = u
  generalize gDen n1 = w
  show max (Ideal.div (Host.dotGeneral dot_S1x32_S32x128_S1x128_1_0_0_1_n_n none u
    (transpose S32x128 [1, 0] a transposes_S128x32_S32x128_1_0) (ix2 (0 : Fin 1) k)) (w (ix2 (0 : Fin 1) k)))
    (Ideal.ofBits .f32 0x00000000#32) = _
  rw [Ideal.ofBits_zero_f32]
  refine congrArg (fun t => max (Ideal.div t _) 0) ?_
  simp only [Host.dotGeneral]
  rw [Ideal.dotGeneral_apply, ← Equiv.sum_comp (contrEquiv1 dot_S1x32_S32x128_S1x128_1_0_0_1_n_n 32 rfl rfl).symm]
  refine Finset.sum_congr rfl fun q _ => ?_
  have hk := contrEquiv1_symm_val dot_S1x32_S32x128_S1x128_1_0_0_1_n_n 32 rfl rfl q
  have el : dot_S1x32_S32x128_S1x128_1_0_0_1_n_n.lhsIdx (ix2 (0 : Fin 1) k)
      ((contrEquiv1 dot_S1x32_S32x128_S1x128_1_0_0_1_n_n 32 rfl rfl).symm q) = ix2 (0 : Fin 1) q :=
    funext fun c => Fin.ext (by
      match c with
      | ⟨0, _⟩ => exact lhs1_0 _ _
      | ⟨1, _⟩ => exact (lhs1_1 _ _).trans hk)
  have er : dot_S1x32_S32x128_S1x128_1_0_0_1_n_n.rhsIdx (ix2 (0 : Fin 1) k)
      ((contrEquiv1 dot_S1x32_S32x128_S1x128_1_0_0_1_n_n 32 rfl rfl).symm q) = ix2 q k :=
    funext fun c => Fin.ext (by
      match c with
      | ⟨0, _⟩ => exact (rhs1_0 _ _).trans hk
      | ⟨1, _⟩ => exact rhs1_1 _ _)
  rw [el, er]
  refine congrArg (u _ * ·) ?_
  exact transpose_apply [1, 0] a transposes_S128x32_S32x128_1_0 _ (ix2 k q) (fun b => match b with
    | ⟨0, _⟩ => rfl
    | ⟨1, _⟩ => rfl)

/-- The correction row: entry d is Σ_k (hidden k) · b(d, k). -/
theorem gCorr_apply (n0 : FVec Ideal S2x1x32 .f32) (n1 : FVec Ideal S2x1x1 .f32) (a : FVec Ideal S128x32 .f32)
    (b : FVec Ideal S32x128 .f32) (d : Fin 32) :
    gCorr n0 n1 a b (ix2 (0 : Fin 1) d) = ∑ k : Fin 128, gHid n0 n1 a (ix2 (0 : Fin 1) k) * b (ix2 d k) := by
  unfold gCorr
  generalize gHid n0 n1 a = u
  simp only [Host.dotGeneral]
  rw [Ideal.dotGeneral_apply, ← Equiv.sum_comp (contrEquiv1 dot_S1x128_S128x32_S1x32_1_0_0_1_n_n 128 rfl rfl).symm]
  refine Finset.sum_congr rfl fun q _ => ?_
  have hk := contrEquiv1_symm_val dot_S1x128_S128x32_S1x32_1_0_0_1_n_n 128 rfl rfl q
  have el : dot_S1x128_S128x32_S1x32_1_0_0_1_n_n.lhsIdx (ix2 (0 : Fin 1) d)
      ((contrEquiv1 dot_S1x128_S128x32_S1x32_1_0_0_1_n_n 128 rfl rfl).symm q) = ix2 (0 : Fin 1) q :=
    funext fun c => Fin.ext (by
      match c with
      | ⟨0, _⟩ => exact lhs2_0 _ _
      | ⟨1, _⟩ => exact (lhs2_1 _ _).trans hk)
  have er : dot_S1x128_S128x32_S1x32_1_0_0_1_n_n.rhsIdx (ix2 (0 : Fin 1) d)
      ((contrEquiv1 dot_S1x128_S128x32_S1x32_1_0_0_1_n_n 128 rfl rfl).symm q) = ix2 q d :=
    funext fun c => Fin.ext (by
      match c with
      | ⟨0, _⟩ => exact (rhs2_0 _ _).trans hk
      | ⟨1, _⟩ => exact rhs2_1 _ _)
  rw [el, er]
  refine congrArg (u _ * ·) ?_
  exact transpose_apply [1, 0] b transposes_S32x128_S128x32_1_0 _ (ix2 d q) (fun c => match c with
    | ⟨0, _⟩ => rfl
    | ⟨1, _⟩ => rfl)

end Cert.KernelIdeal.GlueRead

end
-- ==== Proof.PayloadRead.lean ====
/-
  The two kernels' arithmetic read at an index, at exact (extended-real) arithmetic.

  One step of the reduce kernel's two running sums adds, to the first at column d, the sum over the block's rows r of
  x(r, d) · w(r, 0), and to the second the sum over the rows of w(r, 0); the reset values are zero; the two final
  copies are pairs of reshapes that undo each other; and the add kernel's result at (r, l) is x(r, l) + dl(0, l).
-/
import proofs.«119674_j41747082117850_2_alg».proof.Proof.ReduceLeaves
import proofs.«119674_j41747082117850_2_alg».proof.Proof.AddLeaves
import proofs.«119674_j41747082117850_2_alg».proof.Proof.LibLeadingAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadRead

open Cert.KernelIdeal Cert.KernelIdeal.Gen Idealize.ShloMosaic Idealize.ShloMosaic.ValueIdx

variable {α : Type}

/-- An [a, 1] array broadcast to [a, b] reads, at (p, c), the operand's one column at row p. -/
theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first running sum after a step, at column d: what it was plus the block's weighted column sum. -/
theorem step_sum (x : Vec Ideal S100000x32 .f32) (w : Vec Ideal S100000x1 .f32)
    (s : Vec Ideal S1x1x32 .f32 × Vec Ideal S1x1x1 .f32) (d : Fin 32) :
    (Reduce.step x w s).1 (ix3 (0 : Fin 1) (0 : Fin 1) d)
      = s.1 (ix3 (0 : Fin 1) (0 : Fin 1) d) + ∑ r : Fin 100000, x (ix2 r d) * w (ix2 r (0 : Fin 1)) := by
  show k0_pay3 x w s.1 (ix3 (0 : Fin 1) (0 : Fin 1) d) = _
  unfold k0_pay3
  refine (shapeCast_ab_1ab_apply _ shapeCasts_S1x32_S1x1x32 (0 : Fin 1) (0 : Fin 1) d).trans ?_
  rw [addf_apply]
  refine congrArg₂ (· + ·) (shapeCast_1ab_ab_apply s.1 shapeCasts_S1x1x32_S1x32 (0 : Fin 1) d) ?_
  refine (shapeCast_a_1a_apply _ shapeCasts_S32_S1x32 (0 : Fin 1) d).trans ?_
  refine (LibLeadingAxis.sumLead2 (n0 := 100000) (n1 := 32) _ reduces_S100000x32_S32 _ _ d).trans ?_
  refine Finset.sum_congr rfl fun r _ => ?_
  rw [mulf_apply, bcast_a1_ab]

/-- The second running sum after a step: what it was plus the block's weight total. -/
theorem step_tot (x : Vec Ideal S100000x32 .f32) (w : Vec Ideal S100000x1 .f32)
    (s : Vec Ideal S1x1x32 .f32 × Vec Ideal S1x1x1 .f32) :
    (Reduce.step x w s).2 (ix3 (0 : Fin 1) (0 : Fin 1) (0 : Fin 1))
      = s.2 (ix3 (0 : Fin 1) (0 : Fin 1) (0 : Fin 1)) + ∑ r : Fin 100000, w (ix2 r (0 : Fin 1)) := by
  show k0_pay4 w s.2 (ix3 (0 : Fin 1) (0 : Fin 1) (0 : Fin 1)) = _
  unfold k0_pay4
  refine (shapeCast_ab_1ab_apply _ shapeCasts_S1x1_S1x1x1 (0 : Fin 1) (0 : Fin 1) (0 : Fin 1)).trans ?_
  rw [addf_apply]
  refine congrArg₂ (· + ·) (shapeCast_1ab_ab_apply s.2 shapeCasts_S1x1x1_S1x1 (0 : Fin 1) (0 : Fin 1)) ?_
  refine (shapeCast_a_1a_apply _ shapeCasts_S1_S1x1 (0 : Fin 1) (0 : Fin 1)).trans ?_
  exact LibLeadingAxis.sumLead2 (n0 := 100000) (n1 := 1) w reduces_S100000x1_S1 _ _ (0 : Fin 1)

/-- The first running sum's reset value is zero at every column. -/
theorem zero_sum (d : Fin 32) : (Reduce.zero (F := Ideal)).1 (ix3 (0 : Fin 1) (0 : Fin 1) d) = 0 := by
  show k0_pay1 (F := Ideal) (ix3 (0 : Fin 1) (0 : Fin 1) d) = 0
  unfold k0_pay1
  rw [shapeCast_self]
  show Ideal.ofBits .f32 0x00000000#32 = 0
  exact Ideal.ofBits_zero_f32

/-- The second running sum's reset value is zero. -/
theorem zero_tot : (Reduce.zero (F := Ideal)).2 (ix3 (0 : Fin 1) (0 : Fin 1) (0 : Fin 1)) = 0 := by
  show k0_pay2 (F := Ideal) (ix3 (0 : Fin 1) (0 : Fin 1) (0 : Fin 1)) = 0
  unfold k0_pay2
  rw [shapeCast_self]
  show Ideal.ofBits .f32 0x00000000#32 = 0
  exact Ideal.ofBits_zero_f32

/-- The first output copy is two reshapes that undo each other. -/
theorem copy_sum (v : Vec Ideal S1x1x32 .f32) : k0_pay5 v = v := by
  unfold k0_pay5
  exact shapeCast_shapeCast v shapeCasts_S1x1x32_S1x32 shapeCasts_S1x32_S1x1x32

/-- The second output copy is two reshapes that undo each other. -/
theorem copy_tot (v : Vec Ideal S1x1x1 .f32) : k0_pay6 v = v := by
  unfold k0_pay6
  exact shapeCast_shapeCast v shapeCasts_S1x1x1_S1x1 shapeCasts_S1x1_S1x1x1

/-- The add kernel's result at (r, l): the block's entry plus the one row's entry at column l. -/
theorem add_row (x : Vec Ideal S10000x128 .f32) (dl : Vec Ideal S1x128 .f32) (r : Fin 10000) (l : Fin 128) :
    k1_pay1 x dl (ix2 r l) = x (ix2 r l) + dl (ix2 (0 : Fin 1) l) := by
  unfold k1_pay1
  rw [shapeCast_self, shapeCast_self, addf_apply, broadcastTo_1b_ab_apply]

end Cert.KernelIdeal.PayloadRead

end
-- ==== Proof.LibBlockSum.lean ====
import Mathlib.Algebra.BigOperators.Fin
import Mathlib.Logic.Equiv.Fin.Basic

/-!
# A finite sum cut into consecutive blocks

A sum over `Fin (B * n)` is the sum over the `B` consecutive blocks of length `n` of the sums inside each block,
and a sum over `Finset.range B` is the sum over `Fin B`. Both hold in every commutative additive monoid: no
subtraction, no finiteness of the terms and no order is used, so they apply to the extended reals as they stand.
The three instances at the end state the first one with literal extents, so that they rewrite a sum whose index
type is written `Fin 8192` or `Fin 16384` and not as a product.
-/

open scoped BigOperators

namespace Cert.LibBlockSum

variable {M : Type*} [AddCommMonoid M]

/-- The `r`-th position of the `j`-th block of length `n` lies below `B * n` when there are `B` blocks. -/
theorem block_lt {B n : ℕ} (j : Fin B) (r : Fin n) : j.val * n + r.val < B * n :=
  calc j.val * n + r.val < j.val * n + n := Nat.add_lt_add_left r.isLt _
    _ = (j.val + 1) * n := (Nat.succ_mul _ _).symm
    _ ≤ B * n := Nat.mul_le_mul_right n j.isLt

/-- A sum of `B * n` terms is the sum over `B` consecutive blocks of the sum of the `n` terms of the block:
    position `k = j * n + r` is the `r`-th term of block `j`, and `(j, r) ↦ j * n + r` is a bijection of
    `Fin B × Fin n` with `Fin (B * n)`. -/
theorem sum_blocks (B n : ℕ) (f : Fin (B * n) → M) :
    ∑ k, f k = ∑ j : Fin B, ∑ r : Fin n, f ⟨j.val * n + r.val, block_lt j r⟩ := by
  rw [← Equiv.sum_comp finProdFinEquiv f, Fintype.sum_prod_type]
  refine Finset.sum_congr rfl fun j _ => Finset.sum_congr rfl fun r _ => ?_
  refine congrArg f (Fin.ext ?_)
  show r.val + n * j.val = j.val * n + r.val
  rw [Nat.add_comm, Nat.mul_comm]

/-- A sum over the naturals below `B` is the sum over `Fin B` of the same terms. -/
theorem sum_range_eq_fin (B : ℕ) (g : ℕ → M) :
    ∑ s ∈ Finset.range B, g s = ∑ j : Fin B, g j.val :=
  (Fin.sum_univ_eq_sum_range g B).symm

/-- A sum of 8192 terms as 8 consecutive blocks of 1024. -/
theorem sum_8192_as_8x1024 (f : Fin 8192 → M) :
    ∑ k, f k = ∑ j : Fin 8, ∑ r : Fin 1024, f ⟨1024 * j.val + r.val, by omega⟩ := by
  refine (sum_blocks 8 1024 f).trans ?_
  refine Finset.sum_congr rfl fun j _ => Finset.sum_congr rfl fun r _ => ?_
  exact congrArg f (Fin.ext (Nat.add_right_cancel_iff.mpr (Nat.mul_comm _ _)))

/-- A sum of 8192 terms as 4 consecutive blocks of 2048. -/
theorem sum_8192_as_4x2048 (f : Fin 8192 → M) :
    ∑ k, f k = ∑ j : Fin 4, ∑ r : Fin 2048, f ⟨2048 * j.val + r.val, by omega⟩ := by
  refine (sum_blocks 4 2048 f).trans ?_
  refine Finset.sum_congr rfl fun j _ => Finset.sum_congr rfl fun r _ => ?_
  exact congrArg f (Fin.ext (Nat.add_right_cancel_iff.mpr (Nat.mul_comm _ _)))

/-- A sum of 16384 terms as 8 consecutive blocks of 2048. -/
theorem sum_16384_as_8x2048 (f : Fin 16384 → M) :
    ∑ k, f k = ∑ j : Fin 8, ∑ r : Fin 2048, f ⟨2048 * j.val + r.val, by omega⟩ := by
  refine (sum_blocks 8 2048 f).trans ?_
  refine Finset.sum_congr rfl fun j _ => Finset.sum_congr rfl fun r _ => ?_
  exact congrArg f (Fin.ext (Nat.add_right_cancel_iff.mpr (Nat.mul_comm _ _)))

end Cert.LibBlockSum
-- ==== Proof.KernelSums.lean ====
/-
  The reduce region's two results, summed over their two rows, are the whole-column sums, at exact (extended-real)
  arithmetic.

  The region walks the 1000000 rows in ten blocks of 100000, five per half. Each point adds its block's sum to the
  running sum of its half (from zero at the first point of a half), and each half's last running sum is one row of the
  result. So the two rows together are the ten block sums, which is the sum over all rows. Only associativity of
  addition is used: the extended reals are an additive commutative monoid.
-/
import proofs.«119674_j41747082117850_2_alg».proof.Proof.ReduceFinal
import proofs.«119674_j41747082117850_2_alg».proof.Proof.AddFinal
import proofs.«119674_j41747082117850_2_alg».proof.Proof.PayloadRead
import proofs.«119674_j41747082117850_2_alg».proof.Proof.LibBlockSum
import Idealize.ShloMosaic.Lib.ValueIdx

set_option maxRecDepth 16384

noncomputable section

open scoped BigOperators

namespace Cert.KernelIdeal.KernelSums

open Cert.KernelIdeal Cert.KernelIdeal.Gen
open Idealize.ShloMosaic Idealize.ShloMosaic.TcCoe ValueIdx
open Idealize.SL Idealize.SL.Sem

/-! ## Ten blocks in two halves, in any additive commutative monoid -/

section Blocks
variable {M : Type*} [AddCommMonoid M]

/-- The sum of the j-th block of 100000 consecutive terms of a sequence. -/
def blockOf (t : ℕ → M) (j : ℕ) : M := ∑ r : Fin 100000, t (j * 100000 + r.val)

/-- A sum of 1000000 terms is the sum of its ten blocks, written as two halves of five. -/
theorem sum_ten_blocks (t : ℕ → M) :
    ∑ k : Fin 1000000, t k.val
      = (blockOf t 0 + blockOf t 1 + blockOf t 2 + blockOf t 3 + blockOf t 4)
        + (blockOf t 5 + blockOf t 6 + blockOf t 7 + blockOf t 8 + blockOf t 9) := by
  have h1 : ∑ k : Fin 1000000, t k.val = ∑ j : Fin 10, blockOf t j.val :=
    LibBlockSum.sum_blocks 10 100000 (fun k => t k.val)
  have h2 : ∑ j : Fin 10, blockOf t j.val = ∑ h : Fin 2, ∑ j : Fin 5, blockOf t (h.val * 5 + j.val) :=
    LibBlockSum.sum_blocks 2 5 (fun j => blockOf t j.val)
  rw [h1, h2, Fin.sum_univ_two, Fin.sum_univ_five, Fin.sum_univ_five]
  rfl

/-- Running sums that restart at the first point of each half and otherwise gain their point's block: the two
    halves' last running sums together are the ten blocks. -/
theorem two_halves (a b : ℕ → M)
    (h0 : ∀ n, n < 10 → n % 5 = 0 → a n = b n)
    (h1 : ∀ n, n < 10 → n % 5 ≠ 0 → a n = a (n - 1) + b n) :
    a 4 + a 9 = (b 0 + b 1 + b 2 + b 3 + b 4) + (b 5 + b 6 + b 7 + b 8 + b 9) := by
  have e0 : a 0 = b 0 := h0 0 (by norm_num) (by norm_num)
  have e1 : a 1 = a 0 + b 1 := h1 1 (by norm_num) (by norm_num)
  have e2 : a 2 = a 1 + b 2 := h1 2 (by norm_num) (by norm_num)
  have e3 : a 3 = a 2 + b 3 := h1 3 (by norm_num) (by norm_num)
  have e4 : a 4 = a 3 + b 4 := h1 4 (by norm_num) (by norm_num)
  have e5 : a 5 = b 5 := h0 5 (by norm_num) (by norm_num)
  have e6 : a 6 = a 5 + b 6 := h1 6 (by norm_num) (by norm_num)
  have e7 : a 7 = a 6 + b 7 := h1 7 (by norm_num) (by norm_num)
  have e8 : a 8 = a 7 + b 8 := h1 8 (by norm_num) (by norm_num)
  have e9 : a 9 = a 8 + b 9 := h1 9 (by norm_num) (by norm_num)
  rw [e4, e3, e2, e1, e0, e9, e8, e7, e6, e5]

end Blocks

/-! ## The two inputs' rows as sequences -/

variable (m : (ℓ : Loc nD τ sig) → Buf (Elt Ideal) ℓ)

/-- The input array as launched, as a function to the extended reals. -/
abbrev Xin (c : Dev nD) : S1000000x32.Idx → EReal := m ((c : Thread nD τ).loc main_arg0)
/-- The weight column as launched. -/
abbrev Win (c : Dev nD) : S1000000x1.Idx → EReal := m ((c : Thread nD τ).loc main_arg1)
/-- The region's first result (one row per half), as a function to the extended reals. -/
abbrev R2 (c : Dev nD) : S2x1x32.Idx → EReal := Reduce.G2 m c
/-- The region's second result. -/
abbrev R3 (c : Dev nD) : S2x1x1.Idx → EReal := Reduce.G3 m c

/-- Row k's weighted entry of column d (zero past the last row, which is never read). -/
def wx (c : Dev nD) (d : Fin 32) (k : ℕ) : EReal :=
  if h : k < 1000000 then
    Xin m c (ix2 (⟨k, h⟩ : Fin 1000000) d)
      * Win m c (ix2 (⟨k, h⟩ : Fin 1000000) (0 : Fin 1))
  else 0

/-- Row k's weight (zero past the last row, which is never read). -/
def wt (c : Dev nD) (k : ℕ) : EReal :=
  if h : k < 1000000 then
    Win m c (ix2 (⟨k, h⟩ : Fin 1000000) (0 : Fin 1))
  else 0

/-- Row r of point n's block of the input is row n·100000 + r of the array. -/
theorem block0 (c : Dev nD) (d : Fin 32) (n : ℕ) (hn : n < 10) (r : Fin 100000) (h : n * 100000 + r.val < 1000000) :
    Reduce.iblk m c 0 (Reduce.pt n) (ix2 r d) = Xin m c (ix2 (⟨n * 100000 + r.val, h⟩ : Fin 1000000) d) := by
  have hp : (Reduce.pt n).val = n := Nat.mod_eq_of_lt hn
  have hlt' : (Reduce.pt n).val * 100000 + r.val < 1000000 := by rw [hp]; exact h
  have hi : (⟨(Reduce.pt n).val * 100000 + r.val, hlt'⟩ : Fin 1000000) = ⟨n * 100000 + r.val, h⟩ :=
    Fin.ext (by show (Reduce.pt n).val * 100000 + r.val = n * 100000 + r.val; rw [hp])
  rw [Reduce.iblk0_apply m c (Reduce.pt n) r d hlt', hi]

/-- Row r of point n's block of the weights is row n·100000 + r of the column. -/
theorem block1 (c : Dev nD) (n : ℕ) (hn : n < 10) (r : Fin 100000) (h : n * 100000 + r.val < 1000000) :
    Reduce.iblk m c 1 (Reduce.pt n) (ix2 r (0 : Fin 1)) = Win m c (ix2 (⟨n * 100000 + r.val, h⟩ : Fin 1000000) (0 : Fin 1)) := by
  have hp : (Reduce.pt n).val = n := Nat.mod_eq_of_lt hn
  have hlt' : (Reduce.pt n).val * 100000 + r.val < 1000000 := by rw [hp]; exact h
  have hi : (⟨(Reduce.pt n).val * 100000 + r.val, hlt'⟩ : Fin 1000000) = ⟨n * 100000 + r.val, h⟩ :=
    Fin.ext (by show (Reduce.pt n).val * 100000 + r.val = n * 100000 + r.val; rw [hp])
  rw [Reduce.iblk1_apply m c (Reduce.pt n) r hlt', hi]

/-- A block whose rows are the array's rows n·100000 + r: its weighted column sum is the n-th block of the
    weighted sequence. -/
theorem block_sum (c : Dev nD) (d : Fin 32) (n : ℕ) (x : Vec Ideal S100000x32 .f32) (w : Vec Ideal S100000x1 .f32)
    (hx : ∀ (r : Fin 100000) (h : n * 100000 + r.val < 1000000), x (ix2 r d) = Xin m c (ix2 (⟨n * 100000 + r.val, h⟩ : Fin 1000000) d))
    (hw : ∀ (r : Fin 100000) (h : n * 100000 + r.val < 1000000), w (ix2 r (0 : Fin 1)) = Win m c (ix2 (⟨n * 100000 + r.val, h⟩ : Fin 1000000) (0 : Fin 1)))
    (hn : n < 10) :
    ∑ r : Fin 100000, x (ix2 r d) * w (ix2 r (0 : Fin 1)) = blockOf (wx m c d) n := by
  unfold blockOf
  refine Finset.sum_congr rfl fun r _ => ?_
  have hlt : n * 100000 + r.val < 1000000 := by have := r.isLt; omega
  rw [hx r hlt, hw r hlt]
  unfold wx
  rw [dif_pos hlt]

/-- Likewise its weight total is the n-th block of the weight sequence. -/
theorem block_tot (c : Dev nD) (n : ℕ) (w : Vec Ideal S100000x1 .f32)
    (hw : ∀ (r : Fin 100000) (h : n * 100000 + r.val < 1000000), w (ix2 r (0 : Fin 1)) = Win m c (ix2 (⟨n * 100000 + r.val, h⟩ : Fin 1000000) (0 : Fin 1)))
    (hn : n < 10) :
    ∑ r : Fin 100000, w (ix2 r (0 : Fin 1)) = blockOf (wt m c) n := by
  unfold blockOf
  refine Finset.sum_congr rfl fun r _ => ?_
  have hlt : n * 100000 + r.val < 1000000 := by have := r.isLt; omega
  rw [hw r hlt]
  unfold wt
  rw [dif_pos hlt]

/-! ## One point's step of the running sums -/

theorem sum_first (c : Dev nD) (d : Fin 32) (n : ℕ) (hn : n < 10) (h : n % 5 = 0) :
    (Reduce.accN m c n).1 (ix3 (0 : Fin 1) (0 : Fin 1) d) = blockOf (wx m c d) n := by
  rw [Reduce.accN_first m c n h, PayloadRead.step_sum, PayloadRead.zero_sum, zero_add]
  exact block_sum m c d n _ _ (fun r h => block0 m c d n hn r h) (fun r h => block1 m c n hn r h) hn

theorem sum_next (c : Dev nD) (d : Fin 32) (n : ℕ) (hn : n < 10) (h : n % 5 ≠ 0) :
    (Reduce.accN m c n).1 (ix3 (0 : Fin 1) (0 : Fin 1) d)
      = (Reduce.accN m c (n - 1)).1 (ix3 (0 : Fin 1) (0 : Fin 1) d) + blockOf (wx m c d) n := by
  rw [Reduce.accN_next m c n h, PayloadRead.step_sum]
  exact congrArg₂ (· + ·) rfl
    (block_sum m c d n _ _ (fun r h => block0 m c d n hn r h) (fun r h => block1 m c n hn r h) hn)

theorem tot_first (c : Dev nD) (n : ℕ) (hn : n < 10) (h : n % 5 = 0) :
    (Reduce.accN m c n).2 (ix3 (0 : Fin 1) (0 : Fin 1) (0 : Fin 1)) = blockOf (wt m c) n := by
  rw [Reduce.accN_first m c n h, PayloadRead.step_tot, PayloadRead.zero_tot, zero_add]
  exact block_tot m c n _ (fun r h => block1 m c n hn r h) hn

theorem tot_next (c : Dev nD) (n : ℕ) (hn : n < 10) (h : n % 5 ≠ 0) :
    (Reduce.accN m c n).2 (ix3 (0 : Fin 1) (0 : Fin 1) (0 : Fin 1))
      = (Reduce.accN m c (n - 1)).2 (ix3 (0 : Fin 1) (0 : Fin 1) (0 : Fin 1)) + blockOf (wt m c) n := by
  rw [Reduce.accN_next m c n h, PayloadRead.step_tot]
  exact congrArg₂ (· + ·) rfl (block_tot m c n _ (fun r h => block1 m c n hn r h) hn)

/-! ## The two results summed over their rows -/

/-- The first result's two rows, at column d, add up to the weighted sum of the whole column. -/
theorem sum_total (c : Dev nD) (d : Fin 32) :
    ∑ h : Fin 2, R2 m c (ix3 h (0 : Fin 1) d)
      = ∑ n : Fin 1000000, Xin m c (ix2 n d) * Win m c (ix2 n (0 : Fin 1)) := by
  have hr : ∑ n : Fin 1000000, Xin m c (ix2 n d) * Win m c (ix2 n (0 : Fin 1)) = ∑ n : Fin 1000000, wx m c d n.val :=
    Finset.sum_congr rfl fun n _ => by unfold wx; rw [dif_pos n.isLt]
  rw [hr, sum_ten_blocks, Fin.sum_univ_two]
  show k0_pay5 (Reduce.accN m c 4).1 (ix3 (0 : Fin 1) (0 : Fin 1) d)
      + k0_pay5 (Reduce.accN m c 9).1 (ix3 (0 : Fin 1) (0 : Fin 1) d) = _
  rw [PayloadRead.copy_sum, PayloadRead.copy_sum]
  exact two_halves (fun n => (Reduce.accN m c n).1 (ix3 (0 : Fin 1) (0 : Fin 1) d)) (fun n => blockOf (wx m c d) n)
    (fun n hn h => sum_first m c d n hn h) (fun n hn h => sum_next m c d n hn h)

/-- The second result's two rows add up to the total of the weight column. -/
theorem tot_total (c : Dev nD) :
    ∑ h : Fin 2, R3 m c (ix3 h (0 : Fin 1) (0 : Fin 1))
      = ∑ n : Fin 1000000, Win m c (ix2 n (0 : Fin 1)) := by
  have hr : ∑ n : Fin 1000000, Win m c (ix2 n (0 : Fin 1)) = ∑ n : Fin 1000000, wt m c n.val :=
    Finset.sum_congr rfl fun n _ => by unfold wt; rw [dif_pos n.isLt]
  rw [hr, sum_ten_blocks, Fin.sum_univ_two]
  show k0_pay6 (Reduce.accN m c 4).2 (ix3 (0 : Fin 1) (0 : Fin 1) (0 : Fin 1))
      + k0_pay6 (Reduce.accN m c 9).2 (ix3 (0 : Fin 1) (0 : Fin 1) (0 : Fin 1)) = _
  rw [PayloadRead.copy_tot, PayloadRead.copy_tot]
  exact two_halves (fun n => (Reduce.accN m c n).2 (ix3 (0 : Fin 1) (0 : Fin 1) (0 : Fin 1))) (fun n => blockOf (wt m c) n)
    (fun n hn h => tot_first m c n hn h) (fun n hn h => tot_next m c n hn h)

end Cert.KernelIdeal.KernelSums

end
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.LibIsReal.lean ====
/-
  "Is a real number" on the extended reals, and what keeps it: zero, sums, differences, products, maxima, finite sums,
  a quotient by a nonzero real constant, and the reciprocal square root of a positive real.  With these, an expression
  built from real inputs by such operations is real, which is what distributivity and cancellation need on the extended
  reals (they fail at the infinities).
-/
import Idealize.ShloMosaic.PureOps.Ideal
import proofs.«119674_j41747082117850_2_alg».proof.Proof.LibEReal

noncomputable section

namespace Cert.Net

open Idealize.ShloMosaic

/-- An extended real that is a real number. -/
def IsReal (x : EReal) : Prop := ∃ r : ℝ, x = (r : EReal)

theorem IsReal.zero : IsReal 0 := ⟨0, EReal.coe_zero.symm⟩
theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, Cert.LibEReal.max_coe_coe a b⟩
theorem IsReal.sum {ι : Type} (S : Finset ι) (f : ι → EReal) (h : ∀ i ∈ S, IsReal (f i)) : IsReal (∑ i ∈ S, f i) := by
  classical
  induction S using Finset.induction_on with
  | empty => rw [Finset.sum_empty]; exact IsReal.zero
  | insert a s ha ih =>
    rw [Finset.sum_insert ha]
    exact (h a (Finset.mem_insert_self _ _)).add (ih fun i hi => h i (Finset.mem_insert_of_mem hi))
theorem IsReal.div {x N : EReal} (hx : IsReal x) {ν : ℝ} (hN : N = (ν : EReal)) (hν : ν ≠ 0) : IsReal (Ideal.div x N) := by
  obtain ⟨a, rfl⟩ := hx; subst hN; exact ⟨a / ν, Cert.LibEReal.div_coe_coe a ν hν⟩
theorem IsReal.rsqrt {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Net

end
-- ==== Proof.Spec.lean ====
/- The mathematics both programs compute, over abstract finite index types and the extended reals.

   N rows, D columns, K hidden units. From a matrix x (N × D), a weight column w (N), and two weight matrices
   a (K × D) and b (D × K): the total weight tot = Σ_n w_n; the weighted column sums wsum_d = Σ_n x_nd · w_n.
   One program forms the hidden numerators from the column sums, num_k = Σ_d wsum_d · a_kd, and adds to every row
   the correction corr_d = Σ_k max(num_k / tot, 0) · b_dk. The other forms the numerators row by row,
   num'_k = Σ_n (Σ_d x_nd · a_kd) · w_n, and divides the correction once more by the total weight after weighting
   it by w: corr'_d = (Σ_n (Σ_k max(num'_k / tot, 0) · b_dk) · w_n) / tot. When every entry is a real number and the
   total weight is not zero the two corrections are equal: num' = num by exchanging the two sums and distributing,
   the inner correction is a real number g, Σ_n g · w_n = g · tot, and (g · tot) / tot = g. -/
import Idealize.ShloMosaic.PureOps.Ideal
import proofs.«119674_j41747082117850_2_alg».proof.Proof.LibIsReal

noncomputable section

open Idealize.ShloMosaic
open scoped BigOperators

namespace Cert.Spec

open Cert.Net (IsReal)

variable {N D K : Type} [Fintype N] [Fintype D] [Fintype K]
variable (x : N → D → EReal) (w : N → EReal) (a : K → D → EReal) (b : D → K → EReal)

/-- The total weight. -/
def tot : EReal := ∑ n, w n
/-- The weighted sum of column d. -/
def wsum (d : D) : EReal := ∑ n, x n d * w n
/-- Hidden unit k's numerator, formed from the weighted column sums. -/
def numCols (k : K) : EReal := ∑ d, wsum x w d * a k d
/-- Hidden unit k's numerator, formed row by row. -/
def numRows (k : K) : EReal := ∑ n, (∑ d, x n d * a k d) * w n
/-- The correction added to column d of every row, from given numerators. -/
def corrOf (num : K → EReal) (d : D) : EReal := ∑ k, max (Ideal.div (num k) (tot w)) 0 * b d k
/-- The correction, weighted by w over the rows and divided by the total weight again. -/
def corrAgain (num : K → EReal) (d : D) : EReal := Ideal.div (∑ n, corrOf w b num d * w n) (tot w)

end Cert.Spec

end
-- ==== Proof.KernelValue.lean ====
/- The kernel's result at an index, at exact (extended-real) arithmetic: entry (n, d) of what the program returns is
   x(n, d) plus the correction of column d — the correction row the host computes from the reduce region's two results,
   which summed over their two rows are the weighted column sums and the total weight of the whole input.

   The result is the add region's array re-laid back; the add region wrote, at every row, the re-laid input plus the
   tiled correction row; re-laying there and back is the identity on positions, and position d mod 32 of the tiled
   row is column d of the correction. -/
import proofs.«119674_j41747082117850_2_alg».proof.Proof.Glue
import proofs.«119674_j41747082117850_2_alg».proof.Proof.GlueRead
import proofs.«119674_j41747082117850_2_alg».proof.Proof.KernelSums
import proofs.«119674_j41747082117850_2_alg».proof.Proof.PayloadRead
import proofs.«119674_j41747082117850_2_alg».proof.Proof.Spec

set_option maxRecDepth 16384

noncomputable section

namespace Cert.KernelIdeal.Whole

open Cert.KernelIdeal Cert.KernelIdeal.Gen Cert.KernelIdeal.Glue
open Idealize.ShloMosaic Idealize.ShloMosaic.TcCoe ValueIdx
open Idealize.SL Idealize.SL.Sem
open Cert.KernelIdeal.KernelSums (Xin Win R2 R3)

variable (m : (ℓ : Loc nD τ sig) → Buf (Elt Ideal) ℓ)

/-- The two weight matrices, as functions to the extended reals. -/
abbrev Ain (c : Dev nD) : S128x32.Idx → EReal := m ((c : Thread nD τ).loc main_arg2)
abbrev Bin (c : Dev nD) : S32x128.Idx → EReal := m ((c : Thread nD τ).loc main_arg3)
/-- The program's result. -/
abbrev Res (c : Dev nD) : S1000000x32.Idx → EReal := W6 m c (Proc.devRef .tc main_v17)

/-- The specification's inputs, read off the arguments by coordinates. -/
abbrev sx (c : Dev nD) : Fin 1000000 → Fin 32 → EReal := fun n d => Xin m c (ix2 n d)
abbrev sw (c : Dev nD) : Fin 1000000 → EReal := fun n => Win m c (ix2 n (0 : Fin 1))
abbrev sa (c : Dev nD) : Fin 128 → Fin 32 → EReal := fun k d => Ain m c (ix2 k d)
abbrev sb (c : Dev nD) : Fin 32 → Fin 128 → EReal := fun d k => Bin m c (ix2 d k)

/-- The hidden layer the host computes is the specification's, from the column sums and the total weight. -/
theorem hid_eq (c : Dev nD) (k : Fin 128) :
    gHid (F := Ideal) (R2 m c) (R3 m c) (Ain m c) (ix2 (0 : Fin 1) k)
      = max (Ideal.div (Cert.Spec.numCols (sx m c) (sw m c) (sa m c) k) (Cert.Spec.tot (sw m c))) 0 := by
  rw [GlueRead.gHid_apply, GlueRead.gDen_apply]
  refine congrArg₂ (fun s t => max (Ideal.div s t) 0) ?_ ?_
  · unfold Cert.Spec.numCols Cert.Spec.wsum
    refine Finset.sum_congr rfl fun d _ => ?_
    rw [GlueRead.gNum_apply]
    exact congrArg (· * Ain m c (ix2 k d)) (KernelSums.sum_total m c d)
  · exact KernelSums.tot_total m c

/-- Entry (n, d) of the program's result. -/
theorem kernel_value (c : Dev nD) (n : Fin 1000000) (d : Fin 32) :
    Res m c (ix2 n d) = Xin m c (ix2 n d) + Cert.Spec.corrOf (sw m c) (sb m c) (Cert.Spec.numCols (sx m c) (sw m c) (sa m c)) d := by
  have hn : n.val < 1000000 := n.isLt
  have hd : d.val < 32 := d.isLt
  have hr : (n.val * 32 + d.val) / 128 < 250000 := by omega
  have hpt : (Add.ptOfRow ((n.val * 32 + d.val) / 128)).val = (n.val * 32 + d.val) / 128 / 10000 := Add.ptOfRow_val _ hr
  have e1 : Res m c (ix2 n d) = gBack (F := Ideal) (Add.Gout (V4 m) c) (ix2 n d) := congrFun (W6_v17 m c) (ix2 n d)
  rw [e1, GlueRead.gBack_apply]
  -- the add region's result at row (32 n + d) / 128, lane (32 n + d) % 128
  show k1_pay1 (Add.iblk (V4 m) c 0 (Add.ptOfRow ((n.val * 32 + d.val) / 128))) (Add.iblk (V4 m) c 1 (Add.ptOfRow ((n.val * 32 + d.val) / 128)))
      (ix2 (⟨((n.val * 32 + d.val) / 128) % 10000, Nat.mod_lt _ (by decide)⟩ : Fin 10000) (⟨(n.val * 32 + d.val) % 128, Nat.mod_lt _ (by decide)⟩ : Fin 128)) = _
  rw [PayloadRead.add_row, Add.iblk0_apply (V4 m) c _ _ _ (by rw [hpt]; omega), Add.iblk1_apply]
  have e2 : (V4 m c main_v12 : S250000x128.Idx → EReal) = gRelay (F := Ideal) (Xin m c) := W4_v12 m c
  have e3 : (V4 m c main_v15 : S1x128.Idx → EReal) = gTile (F := Ideal) (gCorr (F := Ideal) (R2 m c) (R3 m c) (Ain m c) (Bin m c)) := W4_v15 m c
  rw [e2, e3, GlueRead.gRelay_apply, GlueRead.gTile_apply, GlueRead.gCorr_apply]
  -- position (32 n + d) mod 128 of the tiled row is column d of the correction
  have hj : (⟨(⟨(n.val * 32 + d.val) % 128, Nat.mod_lt _ (by decide)⟩ : Fin 128).val % 32, Nat.mod_lt _ (by decide)⟩ : Fin 32) = d :=
    Fin.ext (by show (n.val * 32 + d.val) % 128 % 32 = d.val; omega)
  rw [hj]
  refine congrArg₂ (· + ·) (congrArg (Xin m c) (funext fun a => Fin.ext ?_)) ?_
  · match a with
    | ⟨0, _⟩ => show (((Add.ptOfRow ((n.val * 32 + d.val) / 128)).val * 10000 + (n.val * 32 + d.val) / 128 % 10000) * 128 + (n.val * 32 + d.val) % 128) / 32 = n.val
                rw [hpt]; omega
    | ⟨1, _⟩ => show (((Add.ptOfRow ((n.val * 32 + d.val) / 128)).val * 10000 + (n.val * 32 + d.val) / 128 % 10000) * 128 + (n.val * 32 + d.val) % 128) % 32 = d.val
                rw [hpt]; omega
  · unfold Cert.Spec.corrOf
    refine Finset.sum_congr rfl fun k _ => ?_
    rw [hid_eq]

end Cert.KernelIdeal.Whole

end
-- ==== Proof.SpecLaw.lean ====
/- The algebraic law of the specification: when every entry is a real number and the total weight is not zero,
   the numerators formed row by row equal the numerators formed from the weighted column sums, and the correction
   that is weighted over the rows and divided by the total weight again equals the correction itself.

   Distributivity and cancellation fail on the extended reals at the infinities, so each statement is proved by
   writing every input as the coercion of a real function, pushing the coercions outward through products, finite
   sums, quotients by a nonzero real and maxima, and finishing with the corresponding identity of real numbers:
   Σ_n (Σ_d x_nd a_kd) w_n = Σ_d (Σ_n x_nd w_n) a_kd by exchanging the two sums, and (Σ_n g w_n) / S = g (S / S) = g
   for S = Σ_n w_n ≠ 0. -/
import proofs.«119674_j41747082117850_2_alg».proof.Proof.Spec

noncomputable section

open Idealize.ShloMosaic
open scoped BigOperators

namespace Cert.Spec

open Cert.Net (IsReal)

variable {N D K : Type} [Fintype N] [Fintype D] [Fintype K]
variable {x : N → D → EReal} {w : N → EReal} {a : K → D → EReal} {b : D → K → EReal}

/-- The total weight of coerced real weights is the coerced real total. -/
theorem tot_coe (wr : N → ℝ) : tot (fun n => (wr n : EReal)) = ((∑ n, wr n : ℝ) : EReal) := by
  unfold tot
  exact Cert.LibEReal.coe_sum _ _

/-- The numerators formed from the column sums, on coerced real inputs. -/
theorem numCols_coe (xr : N → D → ℝ) (wr : N → ℝ) (ar : K → D → ℝ) (k : K) :
    numCols (fun n d => (xr n d : EReal)) (fun n => (wr n : EReal)) (fun k d => (ar k d : EReal)) k
      = ((∑ d, (∑ n, xr n d * wr n) * ar k d : ℝ) : EReal) := by
  unfold numCols wsum
  rw [← Cert.LibEReal.coe_sum]
  refine Finset.sum_congr rfl (fun d _ => ?_)
  rw [EReal.coe_mul, ← Cert.LibEReal.coe_sum]
  simp only [EReal.coe_mul]

/-- The numerators formed row by row, on coerced real inputs. -/
theorem numRows_coe (xr : N → D → ℝ) (wr : N → ℝ) (ar : K → D → ℝ) (k : K) :
    numRows (fun n d => (xr n d : EReal)) (fun n => (wr n : EReal)) (fun k d => (ar k d : EReal)) k
      = ((∑ n, (∑ d, xr n d * ar k d) * wr n : ℝ) : EReal) := by
  unfold numRows
  rw [← Cert.LibEReal.coe_sum]
  refine Finset.sum_congr rfl (fun n _ => ?_)
  rw [EReal.coe_mul, ← Cert.LibEReal.coe_sum]
  simp only [EReal.coe_mul]

/-- Exchanging the two sums over the reals. -/
theorem real_rows_eq_cols (xr : N → D → ℝ) (wr : N → ℝ) (ar : K → D → ℝ) (k : K) :
    (∑ n, (∑ d, xr n d * ar k d) * wr n) = ∑ d, (∑ n, xr n d * wr n) * ar k d := by
  simp only [Finset.sum_mul]
  rw [Finset.sum_comm]
  exact Finset.sum_congr rfl (fun d _ => Finset.sum_congr rfl (fun n _ => by ring))

/-- With real entries, the numerators formed row by row are the numerators formed from the column sums. -/
theorem numRows_eq_numCols (hx : ∀ n d, IsReal (x n d)) (hw : ∀ n, IsReal (w n)) (ha : ∀ k d, IsReal (a k d)) (k : K) :
    numRows x w a k = numCols x w a k := by
  choose xr hxr using hx
  choose wr hwr using hw
  choose ar har using ha
  obtain rfl : x = fun n d => (xr n d : EReal) := by funext n d; exact hxr n d
  obtain rfl : w = fun n => (wr n : EReal) := funext hwr
  obtain rfl : a = fun k d => (ar k d : EReal) := by funext k d; exact har k d
  rw [numRows_coe, numCols_coe, real_rows_eq_cols]

/-- With real entries, the numerators are real numbers. -/
theorem numCols_real (hx : ∀ n d, IsReal (x n d)) (hw : ∀ n, IsReal (w n)) (ha : ∀ k d, IsReal (a k d)) (k : K) :
    IsReal (numCols x w a k) := by
  choose xr hxr using hx
  choose wr hwr using hw
  choose ar har using ha
  obtain rfl : x = fun n d => (xr n d : EReal) := by funext n d; exact hxr n d
  obtain rfl : w = fun n => (wr n : EReal) := funext hwr
  obtain rfl : a = fun k d => (ar k d : EReal) := by funext k d; exact har k d
  exact ⟨_, numCols_coe xr wr ar k⟩

/-- The correction on coerced real inputs with nonzero real total weight. -/
theorem corrOf_coe (wr : N → ℝ) (br : D → K → ℝ) (numr : K → ℝ) (hS : (∑ n, wr n) ≠ 0) (d : D) :
    corrOf (fun n => (wr n : EReal)) (fun d k => (br d k : EReal)) (fun k => (numr k : EReal)) d
      = ((∑ k, max (numr k / ∑ n, wr n) 0 * br d k : ℝ) : EReal) := by
  unfold corrOf
  rw [← Cert.LibEReal.coe_sum]
  refine Finset.sum_congr rfl (fun k _ => ?_)
  rw [tot_coe, Cert.LibEReal.div_coe_coe _ _ hS, ← EReal.coe_zero, Cert.LibEReal.max_coe_coe, ← EReal.coe_mul]

/-- With real entries and nonzero total weight, weighting the correction over the rows and dividing by the total
    weight again gives the correction back. -/
theorem corrAgain_eq_corrOf (hw : ∀ n, IsReal (w n)) (hb : ∀ d k, IsReal (b d k)) (num : K → EReal)
    (hnum : ∀ k, IsReal (num k)) (hS : tot w ≠ 0) (d : D) : corrAgain w b num d = corrOf w b num d := by
  choose wr hwr using hw
  choose br hbr using hb
  choose numr hnumr using hnum
  obtain rfl : w = fun n => (wr n : EReal) := funext hwr
  obtain rfl : b = fun d k => (br d k : EReal) := by funext d k; exact hbr d k
  obtain rfl : num = fun k => (numr k : EReal) := funext hnumr
  have hS' : (∑ n, wr n) ≠ 0 := by
    intro h
    apply hS
    rw [tot_coe, h, EReal.coe_zero]
  unfold corrAgain
  rw [corrOf_coe wr br numr hS' d, tot_coe]
  generalize (∑ k, max (numr k / ∑ n, wr n) 0 * br d k) = g
  have hsum : ∑ n, (g : EReal) * (wr n : EReal) = ((g * ∑ n, wr n : ℝ) : EReal) := by
    rw [Finset.mul_sum, ← Cert.LibEReal.coe_sum]
    exact Finset.sum_congr rfl (fun n _ => (EReal.coe_mul _ _).symm)
  rw [hsum, Cert.LibEReal.div_coe_coe _ _ hS', mul_div_assoc, div_self hS', mul_one]

end Cert.Spec

end
-- ==== Proof.RefValue.lean ====
/- The reference program's result is the specification.

   With x (1000000 × 32), the weight column w (1000000 × 1), a (128 × 32) and b (32 × 128), the reference computes, stage by
   stage: aᵀ; x · aᵀ; its rows weighted by w; the sum of those over the rows, which is the numerator formed row by row,
   Σ_n (Σ_d x_nd a_kd) w_n; the total weight Σ_n w_n; the quotient, its maximum with zero; bᵀ; the product with bᵀ, which is
   the correction Σ_k max(num_k / tot, 0) b_dk; that correction repeated on every row and weighted by w; its sum over the
   rows; the quotient by the total weight again; and x plus that, repeated on every row. Each stage is read at an index
   from the stages before it; the composed index functions are the indices built from the right coordinates; each initial
   value of a sum is zero; and a sum over the indices of an n × 1 array is the sum over its rows. So the result at (n, d) is
   x_nd plus the correction weighted over the rows and divided by the total weight again, from the numerators formed row by
   row. When every entry is a real number and the total weight is not zero the algebraic law of the specification turns
   this into x_nd plus the correction from the numerators formed from the weighted column sums. -/
import proofs.«119674_j41747082117850_2_alg».proof.Proof.Gen.ReferenceIdeal.Read
import proofs.«119674_j41747082117850_2_alg».proof.Proof.SpecLaw
import Idealize.ShloMosaic.Lib.ValueIdx
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2)

variable (x0 : (⟨S1000000x32, .f32⟩ : BufTy).Contents (Elt Ideal)) (x1 : (⟨S1000000x1, .f32⟩ : BufTy).Contents (Elt Ideal))
  (x2 : (⟨S128x32, .f32⟩ : BufTy).Contents (Elt Ideal)) (x3 : (⟨S32x128, .f32⟩ : BufTy).Contents (Elt Ideal))

/-- The transpose of a at (d, k) is a at (k, d). -/
theorem v0_at (d : Fin 32) (k : Fin 128) : val_main_v0 (F := Ideal) x2 (ix2 d k) = x2 (ix2 k d) := by
  rw [val_main_v0_apply]
  exact congrArg x2 (funext fun a => Fin.ext (by match a with | ⟨0, _⟩ => rfl | ⟨1, _⟩ => rfl))

/-- x · aᵀ at (n, k) is Σ_d x_nd a_kd. -/
theorem v1_at (n : Fin 1000000) (k : Fin 128) :
    val_main_v1 (F := Ideal) x0 x2 (ix2 n k) = ∑ d : Fin 32, x0 (ix2 n d) * x2 (ix2 k d) := by
  rw [val_main_v1_apply]
  refine Finset.sum_congr rfl fun d _ => ?_
  rw [val_main_v0_apply]
  have e1 : lidx_main_v1 (ix2 n k) d = ix2 n d := funext fun a => Fin.ext (by match a with | ⟨0, _⟩ => rfl | ⟨1, _⟩ => rfl)
  have e2 : idx_main_v0 (ridx_main_v1 (ix2 n k) d) = ix2 k d := funext fun a => Fin.ext (by match a with | ⟨0, _⟩ => rfl | ⟨1, _⟩ => rfl)
  rw [e1, e2]

/-- The weighted product at (n, k) is (Σ_d x_nd a_kd) w_n. -/
theorem v3_at (n : Fin 1000000) (k : Fin 128) :
    val_main_v3 (F := Ideal) x0 x1 x2 (ix2 n k) = (∑ d : Fin 32, x0 (ix2 n d) * x2 (ix2 k d)) * x1 (ix2 n (0 : Fin 1)) := by
  rw [val_main_v3_apply]
  show val_main_v1 (F := Ideal) x0 x2 (ix2 n k) * val_main_v2 (F := Ideal) x1 (ix2 n k) = _
  have e : idx_main_v2 (ix2 n k) = ix2 n (0 : Fin 1) := funext fun a => Fin.ext (by match a with | ⟨0, _⟩ => rfl | ⟨1, _⟩ => rfl)
  rw [v1_at, val_main_v2_apply, e]

/-- The sum over the rows at k is the numerator formed row by row. -/
theorem v4_at (k : Fin 128) : val_main_v4 (F := Ideal) x0 x1 x2 (ix1 k) = (Cert.Spec.numRows (fun (n : Fin 1000000) (d : Fin 32) => x0 (ix2 n d)) (fun (n : Fin 1000000) => x1 (ix2 n (0 : Fin 1))) (fun (k : Fin 128) (d : Fin 32) => x2 (ix2 k d))) k := by
  rw [val_main_v4_apply, val_main_cst_apply]
  show Ideal.ofBits .f32 0x00000000#32 + _ = _
  rw [Ideal.ofBits_zero_f32, zero_add]
  unfold Cert.Spec.numRows
  refine Finset.sum_congr rfl fun n _ => ?_
  have e : idx_main_v4 (ix1 k) n = ix2 n k := funext fun a => Fin.ext (by match a with | ⟨0, _⟩ => rfl | ⟨1, _⟩ => rfl)
  rw [e, v3_at]

/-- The sum over the indices of the weight column is the sum over its rows: the total weight. -/
theorem tot_eq : (Cert.Spec.tot (fun (n : Fin 1000000) => x1 (ix2 n (0 : Fin 1)))) = ∑ j : S1000000x1.Idx, x1 j := by
  rw [ValueIdx.sum_idx2]
  unfold Cert.Spec.tot
  refine Finset.sum_congr rfl fun n _ => ?_
  rw [Fin.sum_univ_one]

/-- The first total sum is the total weight. -/
theorem v6_at (i : S_.Idx) : val_main_v6 (F := Ideal) x1 i = (Cert.Spec.tot (fun (n : Fin 1000000) => x1 (ix2 n (0 : Fin 1)))) := by
  rw [val_main_v6_apply, val_main_cst_0_apply]
  show Ideal.ofBits .f32 0x00000000#32 + _ = _
  rw [Ideal.ofBits_zero_f32, zero_add, tot_eq]

/-- The second total sum is the total weight. -/
theorem v17_at (i : S_.Idx) : val_main_v17 (F := Ideal) x1 i = (Cert.Spec.tot (fun (n : Fin 1000000) => x1 (ix2 n (0 : Fin 1)))) := by
  rw [val_main_v17_apply, val_main_cst_2_apply]
  show Ideal.ofBits .f32 0x00000000#32 + _ = _
  rw [Ideal.ofBits_zero_f32, zero_add, tot_eq]

/-- The quotient at (0, k) is num_k / tot. -/
theorem v8_at (k : Fin 128) :
    val_main_v8 (F := Ideal) x0 x1 x2 (ix2 (0 : Fin 1) k) = Ideal.div ((Cert.Spec.numRows (fun (n : Fin 1000000) (d : Fin 32) => x0 (ix2 n d)) (fun (n : Fin 1000000) => x1 (ix2 n (0 : Fin 1))) (fun (k : Fin 128) (d : Fin 32) => x2 (ix2 k d))) k) (Cert.Spec.tot (fun (n : Fin 1000000) => x1 (ix2 n (0 : Fin 1)))) := by
  rw [val_main_v8_apply]
  show Ideal.div (val_main_v5 (F := Ideal) x0 x1 x2 (ix2 (0 : Fin 1) k)) (val_main_v7 (F := Ideal) x1 (ix2 (0 : Fin 1) k)) = _
  have e : idx_main_v5 (ix2 (0 : Fin 1) k) = ix1 k := funext fun a => Fin.ext (by match a with | ⟨0, _⟩ => rfl)
  rw [val_main_v5_apply, val_main_v7_apply, v6_at, e, v4_at]

/-- Its maximum with zero. -/
theorem v9_at (k : Fin 128) :
    val_main_v9 (F := Ideal) x0 x1 x2 (ix2 (0 : Fin 1) k) = max (Ideal.div ((Cert.Spec.numRows (fun (n : Fin 1000000) (d : Fin 32) => x0 (ix2 n d)) (fun (n : Fin 1000000) => x1 (ix2 n (0 : Fin 1))) (fun (k : Fin 128) (d : Fin 32) => x2 (ix2 k d))) k) (Cert.Spec.tot (fun (n : Fin 1000000) => x1 (ix2 n (0 : Fin 1))))) 0 := by
  rw [val_main_v9_apply]
  show max (val_main_v8 (F := Ideal) x0 x1 x2 (ix2 (0 : Fin 1) k)) (val_main_call0_v0 (F := Ideal) (ix2 (0 : Fin 1) k)) = _
  rw [v8_at, val_main_call0_v0_apply, val_main_call0_cst_apply]
  show max _ (Ideal.ofBits .f32 0x00000000#32) = _
  rw [Ideal.ofBits_zero_f32]

/-- The transpose of b at (k, d) is b at (d, k). -/
theorem v10_at (k : Fin 128) (d : Fin 32) : val_main_v10 (F := Ideal) x3 (ix2 k d) = x3 (ix2 d k) := by
  rw [val_main_v10_apply]
  exact congrArg x3 (funext fun a => Fin.ext (by match a with | ⟨0, _⟩ => rfl | ⟨1, _⟩ => rfl))

/-- The product with bᵀ at (0, d) is the correction from the numerators formed row by row. -/
theorem v11_at (d : Fin 32) :
    val_main_v11 (F := Ideal) x0 x1 x2 x3 (ix2 (0 : Fin 1) d) = Cert.Spec.corrOf (fun (n : Fin 1000000) => x1 (ix2 n (0 : Fin 1))) (fun (d : Fin 32) (k : Fin 128) => x3 (ix2 d k)) (Cert.Spec.numRows (fun (n : Fin 1000000) (d : Fin 32) => x0 (ix2 n d)) (fun (n : Fin 1000000) => x1 (ix2 n (0 : Fin 1))) (fun (k : Fin 128) (d : Fin 32) => x2 (ix2 k d))) d := by
  rw [val_main_v11_apply]
  unfold Cert.Spec.corrOf
  refine Finset.sum_congr rfl fun k _ => ?_
  have e1 : lidx_main_v11 (ix2 (0 : Fin 1) d) k = ix2 (0 : Fin 1) k := funext fun a => Fin.ext (by match a with | ⟨0, _⟩ => rfl | ⟨1, _⟩ => rfl)
  have e2 : ridx_main_v11 (ix2 (0 : Fin 1) d) k = ix2 k d := funext fun a => Fin.ext (by match a with | ⟨0, _⟩ => rfl | ⟨1, _⟩ => rfl)
  rw [e1, e2, v9_at, v10_at]

/-- The correction repeated on every row and weighted by w. -/
theorem v14_at (n : Fin 1000000) (d : Fin 32) :
    val_main_v14 (F := Ideal) x0 x1 x2 x3 (ix2 n d)
      = Cert.Spec.corrOf (fun (n : Fin 1000000) => x1 (ix2 n (0 : Fin 1))) (fun (d : Fin 32) (k : Fin 128) => x3 (ix2 d k)) (Cert.Spec.numRows (fun (n : Fin 1000000) (d : Fin 32) => x0 (ix2 n d)) (fun (n : Fin 1000000) => x1 (ix2 n (0 : Fin 1))) (fun (k : Fin 128) (d : Fin 32) => x2 (ix2 k d))) d * x1 (ix2 n (0 : Fin 1)) := by
  rw [val_main_v14_apply]
  show val_main_v12 (F := Ideal) x0 x1 x2 x3 (ix2 n d) * val_main_v13 (F := Ideal) x1 (ix2 n d) = _
  have e1 : idx_main_v12 (ix2 n d) = ix2 (0 : Fin 1) d := funext fun a => Fin.ext (by match a with | ⟨0, _⟩ => rfl | ⟨1, _⟩ => rfl)
  have e2 : idx_main_v13 (ix2 n d) = ix2 n (0 : Fin 1) := funext fun a => Fin.ext (by match a with | ⟨0, _⟩ => rfl | ⟨1, _⟩ => rfl)
  rw [val_main_v12_apply, val_main_v13_apply, e1, e2, v11_at]

/-- Its sum over the rows. -/
theorem v15_at (d : Fin 32) :
    val_main_v15 (F := Ideal) x0 x1 x2 x3 (ix1 d)
      = ∑ n : Fin 1000000, Cert.Spec.corrOf (fun (n : Fin 1000000) => x1 (ix2 n (0 : Fin 1))) (fun (d : Fin 32) (k : Fin 128) => x3 (ix2 d k)) (Cert.Spec.numRows (fun (n : Fin 1000000) (d : Fin 32) => x0 (ix2 n d)) (fun (n : Fin 1000000) => x1 (ix2 n (0 : Fin 1))) (fun (k : Fin 128) (d : Fin 32) => x2 (ix2 k d))) d * x1 (ix2 n (0 : Fin 1)) := by
  rw [val_main_v15_apply, val_main_cst_1_apply]
  show Ideal.ofBits .f32 0x00000000#32 + _ = _
  rw [Ideal.ofBits_zero_f32, zero_add]
  refine Finset.sum_congr rfl fun n _ => ?_
  have e : idx_main_v15 (ix1 d) n = ix2 n d := funext fun a => Fin.ext (by match a with | ⟨0, _⟩ => rfl | ⟨1, _⟩ => rfl)
  rw [e, v14_at]

/-- That sum divided by the total weight again. -/
theorem v19_at (d : Fin 32) :
    val_main_v19 (F := Ideal) x0 x1 x2 x3 (ix2 (0 : Fin 1) d) = Cert.Spec.corrAgain (fun (n : Fin 1000000) => x1 (ix2 n (0 : Fin 1))) (fun (d : Fin 32) (k : Fin 128) => x3 (ix2 d k)) (Cert.Spec.numRows (fun (n : Fin 1000000) (d : Fin 32) => x0 (ix2 n d)) (fun (n : Fin 1000000) => x1 (ix2 n (0 : Fin 1))) (fun (k : Fin 128) (d : Fin 32) => x2 (ix2 k d))) d := by
  rw [val_main_v19_apply]
  show Ideal.div (val_main_v16 (F := Ideal) x0 x1 x2 x3 (ix2 (0 : Fin 1) d)) (val_main_v18 (F := Ideal) x1 (ix2 (0 : Fin 1) d)) = _
  have e : idx_main_v16 (ix2 (0 : Fin 1) d) = ix1 d := funext fun a => Fin.ext (by match a with | ⟨0, _⟩ => rfl)
  rw [val_main_v16_apply, val_main_v18_apply, v17_at, e, v15_at]
  unfold Cert.Spec.corrAgain
  rfl

/-- The reference's result at (n, d) is x_nd plus the correction weighted over the rows and divided by the total weight
    again, from the numerators formed row by row. -/
theorem v21_at (n : Fin 1000000) (d : Fin 32) :
    val_main_v21 (F := Ideal) x0 x1 x2 x3 (ix2 n d)
      = x0 (ix2 n d) + Cert.Spec.corrAgain (fun (n : Fin 1000000) => x1 (ix2 n (0 : Fin 1))) (fun (d : Fin 32) (k : Fin 128) => x3 (ix2 d k)) (Cert.Spec.numRows (fun (n : Fin 1000000) (d : Fin 32) => x0 (ix2 n d)) (fun (n : Fin 1000000) => x1 (ix2 n (0 : Fin 1))) (fun (k : Fin 128) (d : Fin 32) => x2 (ix2 k d))) d := by
  rw [val_main_v21_apply]
  show x0 (ix2 n d) + val_main_v20 (F := Ideal) x0 x1 x2 x3 (ix2 n d) = _
  have e : idx_main_v20 (ix2 n d) = ix2 (0 : Fin 1) d := funext fun a => Fin.ext (by match a with | ⟨0, _⟩ => rfl | ⟨1, _⟩ => rfl)
  rw [val_main_v20_apply, e, v19_at]

/-- With real entries and nonzero total weight, the reference's result at (n, d) is x_nd plus the correction of the
    specification. -/
theorem ref_value (h0 : ∀ i, Cert.Net.IsReal (x0 i)) (h1 : ∀ i, Cert.Net.IsReal (x1 i)) (h2 : ∀ i, Cert.Net.IsReal (x2 i))
    (h3 : ∀ i, Cert.Net.IsReal (x3 i)) (hS : (∑ j : S1000000x1.Idx, x1 j) ≠ 0) (n : Fin 1000000) (d : Fin 32) :
    val_main_v21 (F := Ideal) x0 x1 x2 x3 (ix2 n d)
      = x0 (ix2 n d) + Cert.Spec.corrOf (fun (n : Fin 1000000) => x1 (ix2 n (0 : Fin 1))) (fun (d : Fin 32) (k : Fin 128) => x3 (ix2 d k)) (Cert.Spec.numCols (fun (n : Fin 1000000) (d : Fin 32) => x0 (ix2 n d)) (fun (n : Fin 1000000) => x1 (ix2 n (0 : Fin 1))) (fun (k : Fin 128) (d : Fin 32) => x2 (ix2 k d))) d := by
  have hX : ∀ (n : Fin 1000000) (d : Fin 32), Cert.Net.IsReal ((fun (n : Fin 1000000) (d : Fin 32) => x0 (ix2 n d)) n d) := fun n d => h0 (ix2 n d)
  have hW : ∀ (n : Fin 1000000), Cert.Net.IsReal ((fun (n : Fin 1000000) => x1 (ix2 n (0 : Fin 1))) n) := fun n => h1 (ix2 n (0 : Fin 1))
  have hA : ∀ (k : Fin 128) (d : Fin 32), Cert.Net.IsReal ((fun (k : Fin 128) (d : Fin 32) => x2 (ix2 k d)) k d) := fun k d => h2 (ix2 k d)
  have hB : ∀ (d : Fin 32) (k : Fin 128), Cert.Net.IsReal ((fun (d : Fin 32) (k : Fin 128) => x3 (ix2 d k)) d k) := fun d k => h3 (ix2 d k)
  have hT : (Cert.Spec.tot (fun (n : Fin 1000000) => x1 (ix2 n (0 : Fin 1)))) ≠ 0 := by rw [tot_eq]; exact hS
  have hnum : (Cert.Spec.numRows (fun (n : Fin 1000000) (d : Fin 32) => x0 (ix2 n d)) (fun (n : Fin 1000000) => x1 (ix2 n (0 : Fin 1))) (fun (k : Fin 128) (d : Fin 32) => x2 (ix2 k d))) = (Cert.Spec.numCols (fun (n : Fin 1000000) (d : Fin 32) => x0 (ix2 n d)) (fun (n : Fin 1000000) => x1 (ix2 n (0 : Fin 1))) (fun (k : Fin 128) (d : Fin 32) => x2 (ix2 k d))) := funext fun k => Cert.Spec.numRows_eq_numCols hX hW hA k
  rw [v21_at, hnum, Cert.Spec.corrAgain_eq_corrOf hW hB _ (fun k => Cert.Spec.numCols_real hX hW hA k) hT d]

end Cert.RefValue

end
-- ==== Proof.LibAbsLtInf.lean ====
/-
  "The absolute value tests below +∞" on the extended reals means "is a real number": the f32 pattern 0x7F800000 is the
  top element, and max x (−x) < ⊤ excludes both ⊥ (where −x = ⊤) and ⊤.
-/
import Idealize.ShloMosaic.PureOps.Ideal
import Idealize.ShloMosaic.PureOps.Ideal.Laws

noncomputable section

namespace Cert.LibAbsLtInf

open Idealize.ShloMosaic

/-- The f32 pattern of +∞ is the top element. -/
theorem ofBits_inf : Ideal.ofBits .f32 0x7F800000#32 = (⊤ : EReal) := by simp [Ideal.ofBits, Ideal.ieee]

/-- An extended real whose absolute value tests below +∞ is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => simp at hlt
  | coe r => exact ⟨r, rfl⟩
  | top => simp at hlt

end Cert.LibAbsLtInf

end
-- ==== Proof.PreDecode.lean ====
/-
  The precondition read back at the extended reals.  Each of the four arrays passes "every |x| tests below +∞", which
  on the extended reals says every entry is a real number; the last conjunct compares the sum of all entries of the
  second array with zero by "not equal", which says that sum is not zero.
-/
import Idealize.ShloMosaic.Lib.ReduceAll
import Idealize.ShloMosaic.Lib.ValueIdx
import Idealize.ShloMosaic.PureOps.Ideal
import Idealize.ShloMosaic.PureOps.Ideal.Laws
import proofs.«119674_j41747082117850_2_alg».proof.Pre_finite_inputs
import proofs.«119674_j41747082117850_2_alg».proof.Proof.Gen.Pre_finite_inputs
import proofs.«119674_j41747082117850_2_alg».proof.Proof.LibIsReal
import proofs.«119674_j41747082117850_2_alg».proof.Proof.LibAbsLtInf

noncomputable section

namespace Cert.PreDecode

open Idealize.ShloMosaic Cert.Pre_finite_inputs

/-- The rank-zero shape has one index. -/
instance : Subsingleton S_.Idx := ⟨fun a b => funext fun d => d.elim0⟩

/-- "All of |x| < +∞" over a whole array, read at the extended reals: every entry is a real number. -/
theorem all_real {s : Shape} {axes : List (Fin s.rank)} (x : FVec Ideal s .f32)
    (bc : S_.BroadcastsInDim s (![] : Fin 0 → Fin s.rank)) (rd : s.ReducesTo axes S_) (hu : 0 < S_.numel) (j : S_.Idx)
    (e : Host.reduce IntOp.andi (cmpf .olt (Host.absf x) (broadcastInDim s ![] bc (constant S_ .f32 0x7F800000#32)))
      (constantI S_ 1 1#1) rd hu j = 1#1) (i : s.Idx) : Cert.Net.IsReal (x i) := by
  have hi := Host.reduce_andi_all _ _ rd hu j e i
  exact Cert.LibAbsLtInf.real_of_abs_lt (x i) hi

/-- The precondition holding at the extended reals: all four arrays have real entries, and the entries of the second do
    not sum to zero. -/
theorem decode (x0 : FVec Ideal S1000000x32 .f32) (x1 : FVec Ideal S1000000x1 .f32)
    (x2 : FVec Ideal S128x32 .f32) (x3 : FVec Ideal S32x128 .f32)
    (h : fn (F := Ideal) x0 x1 x2 x3 = fun _ => 1#1) :
    (∀ i, Cert.Net.IsReal (x0 i)) ∧ (∀ i, Cert.Net.IsReal (x1 i)) ∧ (∀ i, Cert.Net.IsReal (x2 i))
      ∧ (∀ i, Cert.Net.IsReal (x3 i)) ∧ (∑ j : S1000000x1.Idx, x1 j) ≠ 0 := by
  have h0 := congrFun h (Shape.Idx.first Facts.h_S_)
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨all_real x0 _ _ _ _ h1, all_real x1 _ _ _ _ h2, all_real x2 _ _ _ _ h3, all_real x3 _ _ _ _ h4, ?_⟩
  -- the host sum of the whole array from the initial value 0 is 0 + the sum of its entries
  have hsum : Host.reduceAdd (F := Ideal) x1 (constant S_ .f32 0x00000000#32) Facts.reducesTo_S1000000x1_S_d0_1
      Facts.h_S_ (Shape.Idx.first Facts.h_S_) = 0 + ∑ j : S1000000x1.Idx, x1 j := by
    simp only [Host.reduceAdd, Ideal.hostReduceAdd_def]
    rw [Ideal.hostReduceAdd_total Facts.reducesTo_S1000000x1_S_d0_1 (fun b => b.elim0) x1 _ _]
    exact congrArg (· + _) Ideal.ofBits_zero_f32
  rw [ValueIdx.cmpf_apply, hsum, ValueIdx.constant_apply, Ideal.cmpf_def, Ideal.ofBits_zero_f32, zero_add] at h5
  intro hz
  rw [hz] at h5
  have hc : Ideal.cmp .une (0 : EReal) 0 = 0#1 := by
    show BitVec.ofBool (decide ((0 : EReal) ≠ 0)) = 0#1
    rw [decide_eq_false (not_not.mpr rfl)]; rfl
  rw [hc] at h5
  exact absurd h5 (by decide)

end Cert.PreDecode

end
-- ==== Proof.lean ====
/- A weighted-average residual block over a million rows, two ways.

   Inputs: x (1000000 × 32), a weight column w (1000000 × 1), and two matrices a (128 × 32) and b (32 × 128).
   With tot = Σ_n w_n and the weighted column sums wsum_d = Σ_n x_nd · w_n, both programs add to every row of x one
   correction row. The kernel forms the hidden layer h_k = max((Σ_d wsum_d · a_kd) / tot, 0) from the column sums —
   which it accumulates in ten blocks of 100000 rows, five per half of the rows, the two halves' partial sums added on
   the host — and takes the correction as corr_d = Σ_k h_k · b_dk; a second pass adds corr to every row, four rows packed
   to a 128-wide row. The reference forms the hidden layer's numerators row by row, Σ_n (Σ_d x_nd · a_kd) · w_n, and
   computes the correction as a second weighted average of the constant row, (Σ_n corr_d · w_n) / tot.

   On the extended reals the two agree when every entry is a real number and tot ≠ 0: the numerators agree by exchanging
   the two sums and distributing; corr_d is then a real number, Σ_n corr_d · w_n = corr_d · tot, and dividing by tot
   gives corr_d back. Both steps fail at the infinities, and at tot = 0 the reference's last quotient is 0 / 0 while the
   kernel never divides a second time; so the precondition asks for finite inputs and a nonzero total weight, and the
   proof uses both.

   The frames: each program runs to the end, faults nowhere and leaves its four arguments as they were. For the two
   kernel programs this is read off the run of @main as six segments (the reduce region, three stretches of host
   operations, the add region, a last reshape); for the reference off its straight-line run. -/
import proofs.«119674_j41747082117850_2_alg».proof.Defs
import proofs.«119674_j41747082117850_2_alg».proof.Proof.Gen.Kernel
import proofs.«119674_j41747082117850_2_alg».proof.Proof.Gen.KernelIdeal
import proofs.«119674_j41747082117850_2_alg».proof.Proof.Gen.ReferenceIdeal
import proofs.«119674_j41747082117850_2_alg».proof.Proof.Gen.Pre_finite_inputs
import proofs.«119674_j41747082117850_2_alg».proof.Proof.Gen.ReferenceIdeal.Run
import proofs.«119674_j41747082117850_2_alg».proof.Proof.Gen.ReferenceIdeal.Read
import proofs.«119674_j41747082117850_2_alg».proof.Proof.KFrames
import proofs.«119674_j41747082117850_2_alg».proof.Proof.Frames
import proofs.«119674_j41747082117850_2_alg».proof.Proof.KernelValue
import proofs.«119674_j41747082117850_2_alg».proof.Proof.RefValue
import proofs.«119674_j41747082117850_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem ValueIdx

/-- The word-level kernel program runs to the end and leaves its arguments unchanged. -/
theorem frame_k : Cert.frame_Kernel (hKernel := Cert.Kernel.Gen.facts) (hPre_finite_inputs := Cert.Pre_finite_inputs.Gen.facts) :=
  fun m ρ _ => Cert.Kernel.Whole.frame (F := Bits) m ρ

/-- So does the same program read at exact arithmetic. -/
theorem frame_ki : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation of the kernel was rewritten on the way to exact arithmetic: nothing to state. -/
theorem preserves : Cert.preserves_Kernel_KernelIdeal := trivial

set_option maxHeartbeats 1600000 in
/-- From memories agreeing on the arguments, with every entry a real number and the total weight not zero, both
    programs end with x plus the same correction row. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Whole.W6 m c (Proc.devRef .tc Cert.KernelIdeal.main_v17), ?_, ?_⟩
  · exact (θ_run Cert.KernelIdeal.defs _ _).mono (fun r h c =>
      ⟨h c _ (Cert.KernelIdeal.Whole.mem_uc Cert.KernelIdeal.main_v17 (by decide)),
       (h c _ (Cert.KernelIdeal.Whole.mem_uc Cert.KernelIdeal.main_arg0 (by decide))).trans (Cert.KernelIdeal.Whole.W6_arg0 m c),
       (h c _ (Cert.KernelIdeal.Whole.mem_uc Cert.KernelIdeal.main_arg1 (by decide))).trans (Cert.KernelIdeal.Whole.W6_arg1 m c),
       (h c _ (Cert.KernelIdeal.Whole.mem_uc Cert.KernelIdeal.main_arg2 (by decide))).trans (Cert.KernelIdeal.Whole.W6_arg2 m c),
       (h c _ (Cert.KernelIdeal.Whole.mem_uc Cert.KernelIdeal.main_arg3 (by decide))).trans (Cert.KernelIdeal.Whole.W6_arg3 m c)⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3⟩ := hagree c
    obtain ⟨h0, h1, h2, h3, hS⟩ := Cert.PreDecode.decode _ _ _ _ (hpre c)
    rw [a0, a1, a2, a3]
    refine (Cert.ReferenceIdeal.Read.val_main_v21_eq _ _ _ _).trans ?_
    funext i
    obtain ⟨n, d, rfl⟩ : ∃ (n : Fin 1000000) (d : Fin 32), i = ix2 n d := ⟨i 0, i 1, eq_ix2 i⟩
    rw [Cert.RefValue.ref_value _ _ _ _ h0 h1 h2 h3 hS n d]
    exact (Cert.KernelIdeal.Whole.kernel_value m c n d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
